-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024 : Shape := ⟨1, ![1024]⟩
abbrev S200x288 : Shape := ⟨2, ![200, 288]⟩
abbrev S288 : Shape := ⟨1, ![288]⟩
abbrev S6144x200 : Shape := ⟨2, ![6144, 200]⟩
abbrev S200 : Shape := ⟨1, ![200]⟩
abbrev S40943 : Shape := ⟨1, ![40943]⟩
abbrev S40943x200 : Shape := ⟨2, ![40943, 200]⟩
abbrev S18x200 : Shape := ⟨2, ![18, 200]⟩
abbrev S_ : Shape := ⟨0, ![]⟩

class Facts : Prop where
  bcast_S_S200x288 : S_.BroadcastsInDim S200x288 (![] : Fin 0 → Fin S200x288.rank)
  reducesTo_S200x288_S_d0_1 : S200x288.ReducesTo [0, 1] S_
  h_S_ : 0 < S_.numel
  bcast_S_S288 : S_.BroadcastsInDim S288 (![] : Fin 0 → Fin S288.rank)
  reducesTo_S288_S_d0 : S288.ReducesTo [0] S_
  bcast_S_S6144x200 : S_.BroadcastsInDim S6144x200 (![] : Fin 0 → Fin S6144x200.rank)
  reducesTo_S6144x200_S_d0_1 : S6144x200.ReducesTo [0, 1] S_
  bcast_S_S200 : S_.BroadcastsInDim S200 (![] : Fin 0 → Fin S200.rank)
  reducesTo_S200_S_d0 : S200.ReducesTo [0] S_
  bcast_S_S40943 : S_.BroadcastsInDim S40943 (![] : Fin 0 → Fin S40943.rank)
  reducesTo_S40943_S_d0 : S40943.ReducesTo [0] S_
  bcast_S_S40943x200 : S_.BroadcastsInDim S40943x200 (![] : Fin 0 → Fin S40943x200.rank)
  reducesTo_S40943x200_S_d0_1 : S40943x200.ReducesTo [0, 1] S_
  bcast_S_S18x200 : S_.BroadcastsInDim S18x200 (![] : Fin 0 → Fin S18x200.rank)
  reducesTo_S18x200_S_d0_1 : S18x200.ReducesTo [0, 1] S_

variable [Facts]

def fn_part1 {F : FTy → Type} [FloatOps F] (main_arg6 : FVec F S40943 .f32) (main_arg7 : FVec F S40943x200 .f32) (main_arg8 : FVec F S18x200 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S40943 .f32 := Host.absf main_arg6
  let main_cst_6 : FVec F S_ .f32 := constant S_ .f32 0x7F800000#32
  let main_v20 : FVec F S40943 .f32 := broadcastInDim S40943 ![] bcast_S_S40943 main_cst_6
  let main_v21 : IVec S40943 1 := cmpf .olt main_v19 main_v20
  let main_c_7 : IVec S_ 1 := constantI S_ 1 1#1
  let main_v22 : IVec S_ 1 := (fun x v => Host.reduce IntOp.andi x v reducesTo_S40943_S_d0 h_S_) main_v21 main_c_7
  let main_v23 : IVec S_ 1 := andi main_v18 main_v22
  let main_v24 : FVec F S40943x200 .f32 := Host.absf main_arg7
  let main_cst_8 : FVec F S_ .f32 := constant S_ .f32 0x7F800000#32
  let main_v25 : FVec F S40943x200 .f32 := broadcastInDim S40943x200 ![] bcast_S_S40943x200 main_cst_8
  let main_v26 : IVec S40943x200 1 := cmpf .olt main_v24 main_v25
  let main_c_9 : IVec S_ 1 := constantI S_ 1 1#1
  let main_v27 : IVec S_ 1 := (fun x v => Host.reduce IntOp.andi x v reducesTo_S40943x200_S_d0_1 h_S_) main_v26 main_c_9
  let main_v28 : IVec S_ 1 := andi main_v23 main_v27
  let main_v29 : FVec F S18x200 .f32 := Host.absf main_arg8
  let main_cst_10 : FVec F S_ .f32 := constant S_ .f32 0x7F800000#32
  let main_v30 : FVec F S18x200 .f32 := broadcastInDim S18x200 ![] bcast_S_S18x200 main_cst_10
  let main_v31 : IVec S18x200 1 := cmpf .olt main_v29 main_v30
  let main_c_11 : IVec S_ 1 := constantI S_ 1 1#1
  let main_v32 : IVec S_ 1 := (fun x v => Host.reduce IntOp.andi x v reducesTo_S18x200_S_d0_1 h_S_) main_v31 main_c_11
  let main_v33 : IVec S_ 1 := andi main_v28 main_v32
  main_v33

def fn {F : FTy → Type} [FloatOps F] (main_arg0 : IVec S1024 32) (main_arg1 : IVec S1024 32) (main_arg2 : FVec F S200x288 .f32) (main_arg3 : FVec F S288 .f32) (main_arg4 : FVec F S6144x200 .f32) (main_arg5 : FVec F S200 .f32) (main_arg6 : FVec F S40943 .f32) (main_arg7 : FVec F S40943x200 .f32) (main_arg8 : FVec F S18x200 .f32) : IVec S_ 1 :=
  let main_v0 : FVec F S200x288 .f32 := Host.absf main_arg2
  let main_cst : FVec F S_ .f32 := constant S_ .f32 0x7F800000#32
  let main_v1 : FVec F S200x288 .f32 := broadcastInDim S200x288 ![] bcast_S_S200x288 main_cst
  let main_v2 : IVec S200x288 1 := cmpf .olt main_v0 main_v1
  let main_c : IVec S_ 1 := constantI S_ 1 1#1
  let main_v3 : IVec S_ 1 := (fun x v => Host.reduce IntOp.andi x v reducesTo_S200x288_S_d0_1 h_S_) main_v2 main_c
  let main_v4 : FVec F S288 .f32 := Host.absf main_arg3
  let main_cst_0 : FVec F S_ .f32 := constant S_ .f32 0x7F800000#32
  let main_v5 : FVec F S288 .f32 := broadcastInDim S288 ![] bcast_S_S288 main_cst_0
  let main_v6 : IVec S288 1 := cmpf .olt main_v4 main_v5
  let main_c_1 : IVec S_ 1 := constantI S_ 1 1#1
  let main_v7 : IVec S_ 1 := (fun x v => Host.reduce IntOp.andi x v reducesTo_S288_S_d0 h_S_) main_v6 main_c_1
  let main_v8 : IVec S_ 1 := andi main_v3 main_v7
  let main_v9 : FVec F S6144x200 .f32 := Host.absf main_arg4
  let main_cst_2 : FVec F S_ .f32 := constant S_ .f32 0x7F800000#32
  let main_v10 : FVec F S6144x200 .f32 := broadcastInDim S6144x200 ![] bcast_S_S6144x200 main_cst_2
  let main_v11 : IVec S6144x200 1 := cmpf .olt main_v9 main_v10
  let main_c_3 : IVec S_ 1 := constantI S_ 1 1#1
  let main_v12 : IVec S_ 1 := (fun x v => Host.reduce IntOp.andi x v reducesTo_S6144x200_S_d0_1 h_S_) main_v11 main_c_3
  let main_v13 : IVec S_ 1 := andi main_v8 main_v12
  let main_v14 : FVec F S200 .f32 := Host.absf main_arg5
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg6 main_arg7 main_arg8 main_v13 main_v16
-- ==== Kernel.lean ====
abbrev S1024 : Shape := ⟨1, ![1024]⟩
abbrev S200x288 : Shape := ⟨2, ![200, 288]⟩
abbrev S288 : Shape := ⟨1, ![288]⟩
abbrev S6144x200 : Shape := ⟨2, ![6144, 200]⟩
abbrev S200 : Shape := ⟨1, ![200]⟩
abbrev S40943 : Shape := ⟨1, ![40943]⟩
abbrev S40943x200 : Shape := ⟨2, ![40943, 200]⟩
abbrev S18x200 : Shape := ⟨2, ![18, 200]⟩
abbrev S_ : Shape := ⟨0, ![]⟩
abbrev S1024x1 : Shape := ⟨2, ![1024, 1]⟩
abbrev S1024x200 : Shape := ⟨2, ![1024, 200]⟩
abbrev S1x288 : Shape := ⟨2, ![1, 288]⟩
abbrev S1x200 : Shape := ⟨2, ![1, 200]⟩
abbrev S256x200 : Shape := ⟨2, ![256, 200]⟩
abbrev S256x288 : Shape := ⟨2, ![256, 288]⟩
abbrev S256x9x32 : Shape := ⟨3, ![256, 9, 32]⟩
abbrev S256x192 : Shape := ⟨2, ![256, 192]⟩
abbrev S256x192x1 : Shape := ⟨3, ![256, 192, 1]⟩
abbrev S256x192x9 : Shape := ⟨3, ![256, 192, 9]⟩
abbrev S256x32x192 : Shape := ⟨3, ![256, 32, 192]⟩
abbrev S256x6144 : Shape := ⟨2, ![256, 6144]⟩
abbrev S1x40943 : Shape := ⟨2, ![1, 40943]⟩
abbrev S1024x40943 : Shape := ⟨2, ![1024, 40943]⟩
abbrev S4096x200 : Shape := ⟨2, ![4096, 200]⟩
abbrev S1x4096 : Shape := ⟨2, ![1, 4096]⟩
abbrev S1024x4096 : Shape := ⟨2, ![1024, 4096]⟩

abbrev nBuf : Space → Nat
  | .hbm => 32
  | .vmem => 17
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S200x288, .f32⟩
  | .hbm, ⟨3, _⟩ => ⟨S288, .f32⟩
  | .hbm, ⟨4, _⟩ => ⟨S6144x200, .f32⟩
  | .hbm, ⟨5, _⟩ => ⟨S200, .f32⟩
  | .hbm, ⟨6, _⟩ => ⟨S40943, .f32⟩
  | .hbm, ⟨7, _⟩ => ⟨S40943x200, .f32⟩
  | .hbm, ⟨8, _⟩ => ⟨S18x200, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x200, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x200, .f32⟩
  | .hbm, ⟨27, _⟩ => ⟨S1x288, .f32⟩
  | .hbm, ⟨28, _⟩ => ⟨S1x200, .f32⟩
  | .hbm, ⟨29, _⟩ => ⟨S1024x200, .f32⟩
  | .hbm, ⟨30, _⟩ => ⟨S1x40943, .f32⟩
  | .hbm, ⟨31, _⟩ => ⟨S1024x40943, .f32⟩
  | .local _ .vmem, ⟨0, _⟩ => ⟨S256x200, .f32⟩
  | .local _ .vmem, ⟨1, _⟩ => ⟨S256x200, .f32⟩
  | .local _ .vmem, ⟨2, _⟩ => ⟨S256x200, .f32⟩
  | .local _ .vmem, ⟨3, _⟩ => ⟨S256x200, .f32⟩
  | .local _ .vmem, ⟨4, _⟩ => ⟨S200x288, .f32⟩
  | .local _ .vmem, ⟨5, _⟩ => ⟨S1x288, .f32⟩
  | .local _ .vmem, ⟨6, _⟩ => ⟨S6144x200, .f32⟩
  | .local _ .vmem, ⟨7, _⟩ => ⟨S1x200, .f32⟩
  | .local _ .vmem, ⟨8, _⟩ => ⟨S256x200, .f32⟩
  | .local _ .vmem, ⟨9, _⟩ => ⟨S256x200, .f32⟩
  | .local _ .vmem, ⟨10, _⟩ => ⟨S1024x200, .f32⟩
  | .local _ .vmem, ⟨11, _⟩ => ⟨S4096x200, .f32⟩
  | .local _ .vmem, ⟨12, _⟩ => ⟨S4096x200, .f32⟩
  | .local _ .vmem, ⟨13, _⟩ => ⟨S1x4096, .f32⟩
  | .local _ .vmem, ⟨14, _⟩ => ⟨S1x4096, .f32⟩
  | .local _ .vmem, ⟨15, _⟩ => ⟨S1024x4096, .f32⟩
  | .local _ .vmem, ⟨16, _⟩ => ⟨S1024x4096, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S200x288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6144x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x200 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S288_S1x288 : S288.ShapeCasts S1x288
  shapeCasts_S200_S1x200 : S200.ShapeCasts S1x200
  inb_S256x200_S256x200_0_0 : ∀ a, (![0, 0] : Fin 2 → Nat) a + S256x200.size a ≤ S256x200.size a
  h_S256x200 : 0 < S256x200.numel
  shapeCasts_S256x200_S256x200 : S256x200.ShapeCasts S256x200
  bitsLt_bf16_f32 : FTy.bits .bf16 < FTy.bits .f32
  inb_S200x288_S200x288_0_0 : ∀ a, (![0, 0] : Fin 2 → Nat) a + S200x288.size a ≤ S200x288.size a
  h_S200x288 : 0 < S200x288.numel
  inb_S1x288_S1x288_0_0 : ∀ a, (![0, 0] : Fin 2 → Nat) a + S1x288.size a ≤ S1x288.size a
  h_S1x288 : 0 < S1x288.numel
  shapeCasts_S1x288_S1x288 : S1x288.ShapeCasts S1x288
  broadcasts_S1x288_S256x288 : S1x288.Broadcasts S256x288
  shapeCasts_S256x288_S256x9x32 : S256x288.ShapeCasts S256x9x32
  slices_S256x200_o0_0_S256x192 : S256x200.Slices ![0, 0] S256x192
  slices_S256x200_o0_1_S256x192 : S256x200.Slices ![0, 1] S256x192
  slices_S256x200_o0_2_S256x192 : S256x200.Slices ![0, 2] S256x192
  slices_S256x200_o0_3_S256x192 : S256x200.Slices ![0, 3] S256x192
  slices_S256x200_o0_4_S256x192 : S256x200.Slices ![0, 4] S256x192
  slices_S256x200_o0_5_S256x192 : S256x200.Slices ![0, 5] S256x192
  slices_S256x200_o0_6_S256x192 : S256x200.Slices ![0, 6] S256x192
  slices_S256x200_o0_7_S256x192 : S256x200.Slices ![0, 7] S256x192
  slices_S256x200_o0_8_S256x192 : S256x200.Slices ![0, 8] S256x192
  shapeCasts_S256x192_S256x192x1 : S256x192.ShapeCasts S256x192x1
  concatenates_S256x192x1_S256x192x1_S256x192x1_S256x192x1_S256x192x1_S256x192x1_S256x192x1_S256x192x1_S256x192x1_S256x192x9_d2 : Shape.Concatenates [S256x192x1, S256x192x1, S256x192x1, S256x192x1, S256x192x1, S256x192x1, S256x192x1, S256x192x1, S256x192x1] S256x192x9 2
  shapeCasts_S256x32x192_S256x6144 : S256x32x192.ShapeCasts S256x6144
  inb_S6144x200_S6144x200_0_0 : ∀ a, (![0, 0] : Fin 2 → Nat) a + S6144x200.size a ≤ S6144x200.size a
  h_S6144x200 : 0 < S6144x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S256x200 : S1x200.Broadcasts S256x200
  shapeCasts_S40943_S1x40943 : S40943.ShapeCasts S1x40943
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S4096x200_S4096x200_0_0 : ∀ a, (![0, 0] : Fin 2 → Nat) a + S4096x200.size a ≤ S4096x200.size a
  h_S4096x200 : 0 < S4096x200.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  gather_S40943x200_S1024x1_S1024x200_1_0_n_n_0_1_1200_wf : GatherDims.WF S40943x200 S1024x1 S1024x200 [1] [0] [] [0] [] 1 ![1, 200]
  gather_S18x200_S1024x1_S1024x200_1_0_n_n_0_1_1200_wf : GatherDims.WF S18x200 S1024x1 S1024x200 [1] [0] [] [0] [] 1 ![1, 200]
  dot_S256x200_S200x288_S256x288_1_0_0_1_n_n_wf : DotDims.WF S256x200 S200x288 S256x288 [1] [0] [0] [1] [] []
  dot_S256x9x32_S256x192x9_S256x32x192_1_2_2_1_0_0_wf : DotDims.WF S256x9x32 S256x192x9 S256x32x192 [1] [2] [2] [1] [0] [0]
  dot_S256x6144_S6144x200_S256x200_1_0_0_1_n_n_wf : DotDims.WF S256x6144 S6144x200 S256x200 [1] [0] [0] [1] [] []
  dot_S1024x200_S4096x200_S1024x4096_1_1_0_0_n_n_wf : DotDims.WF S1024x200 S4096x200 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S1024x200.size a
  hwx0_0 : ∀ i : grid0.Coords, EltTy.bits .f32 = 32 ∨ (Rect.block (s := S1024x200) S256x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x200.size a ≤ S1024x200.size a
  hwx0_1 : ∀ i : grid0.Coords, EltTy.bits .f32 = 32 ∨ (Rect.block (s := S1024x200) S256x200.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S200x288.size a ≤ S200x288.size a
  hwx0_2 : ∀ i : grid0.Coords, EltTy.bits .f32 = 32 ∨ (Rect.block (s := S200x288) S200x288.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x288.size a ≤ S1x288.size a
  hwx0_3 : ∀ i : grid0.Coords, EltTy.bits .f32 = 32 ∨ (Rect.block (s := S1x288) S1x288.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6144x200.size a ≤ S6144x200.size a
  hwx0_4 : ∀ i : grid0.Coords, EltTy.bits .f32 = 32 ∨ (Rect.block (s := S6144x200) S6144x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x200.size a ≤ S1024x200.size a
  hwx0_6 : ∀ i : grid0.Coords, EltTy.bits .f32 = 32 ∨ (Rect.block (s := S1024x200) S256x200.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x200.size a ≤ S1024x200.size a
  hwx1_0 : ∀ i : grid1.Coords, EltTy.bits .f32 = 32 ∨ (Rect.block (s := S1024x200) S1024x200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x200.size a < S40943x200.size a
  hwx1_1 : ∀ i : grid1.Coords, EltTy.bits .f32 = 32 ∨ (Rect.unit (s := S40943x200) (fun a => cc1_transform_1 i a * S4096x200.size a) (fun a => (Pipeline.Clip.of (cc1_transform_1 i a) (S4096x200.size a) (S40943x200.size a)).extent (S4096x200.size a)) fun a => Pipeline.Clip.inb (Pipeline.Clip.ok_of (hstart1_1 i a))).WholeWords (EltTy.packing .f32)
  hwxs1_1 : ∀ i : grid1.Coords, EltTy.bits .f32 = 32 ∨ (Rect.unit (s := S4096x200) (fun _ => 0) (fun a => (Pipeline.Clip.of (cc1_transform_1 i a) (S4096x200.size a) (S40943x200.size a)).extent (S4096x200.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x40943.size a
  hwx1_2 : ∀ i : grid1.Coords, EltTy.bits .f32 = 32 ∨ (Rect.unit (s := S1x40943) (fun a => cc1_transform_2 i a * S1x4096.size a) (fun a => (Pipeline.Clip.of (cc1_transform_2 i a) (S1x4096.size a) (S1x40943.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x40943.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S1024x4096.size a < S1024x40943.size a
  hwx1_3 : ∀ i : grid1.Coords, EltTy.bits .f32 = 32 ∨ (Rect.unit (s := S1024x40943) (fun a => cc1_transform_3 i a * S1024x4096.size a) (fun a => (Pipeline.Clip.of (cc1_transform_3 i a) (S1024x4096.size a) (S1024x40943.size a)).extent (S1024x4096.size a)) fun a => Pipeline.Clip.inb (Pipeline.Clip.ok_of (hstart1_3 i a))).WholeWords (EltTy.packing .f32)
  hwxs1_3 : ∀ i : grid1.Coords, EltTy.bits .f32 = 32 ∨ (Rect.unit (s := S1024x4096) (fun _ => 0) (fun a => (Pipeline.Clip.of (cc1_transform_3 i a) (S1024x4096.size a) (S1024x40943.size a)).extent (S1024x4096.size a)) fun a => (Nat.zero_add _).trans_le (Pipeline.Clip.extent_le (Pipeline.Clip.ok_of (hstart1_3 i a)))).WholeWords (EltTy.packing .f32)

variable [Facts₀]

def gather_S40943x200_S1024x1_S1024x200_1_0_n_n_0_1_1200 : GatherDims S40943x200 S1024x1 S1024x200 where
  offsetDims := [1]
  collapsedSliceDims := [0]
  operandBatchingDims := []
  startIndicesBatchingDims := []
  startIndexMap := [0]
  indexVectorDim := 1
  sliceSizes := ![1, 200]
  wf := gather_S40943x200_S1024x1_S1024x200_1_0_n_n_0_1_1200_wf
def gather_S18x200_S1024x1_S1024x200_1_0_n_n_0_1_1200 : GatherDims S18x200 S1024x1 S1024x200 where
  offsetDims := [1]
  collapsedSliceDims := [0]
  operandBatchingDims := []
  startIndicesBatchingDims := []
  startIndexMap := [0]
  indexVectorDim := 1
  sliceSizes := ![1, 200]
  wf := gather_S18x200_S1024x1_S1024x200_1_0_n_n_0_1_1200_wf
def dot_S256x200_S200x288_S256x288_1_0_0_1_n_n : DotDims S256x200 S200x288 S256x288 where
  lhsContracting := [1]
  rhsContracting := [0]
  lhsNonContracting := [0]
  rhsNonContracting := [1]
  lhsBatch := []
  rhsBatch := []
  wf := dot_S256x200_S200x288_S256x288_1_0_0_1_n_n_wf
def dot_S256x9x32_S256x192x9_S256x32x192_1_2_2_1_0_0 : DotDims S256x9x32 S256x192x9 S256x32x192 where
  lhsContracting := [1]
  rhsContracting := [2]
  lhsNonContracting := [2]
  rhsNonContracting := [1]
  lhsBatch := [0]
  rhsBatch := [0]
  wf := dot_S256x9x32_S256x192x9_S256x32x192_1_2_2_1_0_0_wf
def dot_S256x6144_S6144x200_S256x200_1_0_0_1_n_n : DotDims S256x6144 S6144x200 S256x200 where
  lhsContracting := [1]
  rhsContracting := [0]
  lhsNonContracting := [0]
  rhsNonContracting := [1]
  lhsBatch := []
  rhsBatch := []
  wf := dot_S256x6144_S6144x200_S256x200_1_0_0_1_n_n_wf
def dot_S1024x200_S4096x200_S1024x4096_1_1_0_0_n_n : DotDims S1024x200 S4096x200 S1024x4096 where
  lhsContracting := [1]
  rhsContracting := [1]
  lhsNonContracting := [0]
  rhsNonContracting := [0]
  lhsBatch := []
  rhsBatch := []
  wf := dot_S1024x200_S4096x200_S1024x4096_1_1_0_0_n_n_wf

abbrev win0_0 : Pipeline.Window sig grid0 :=
  Pipeline.Window.ofSpec (Memref.whole main_v6) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x288.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6144x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S256x200.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S1024x200.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg7) S4096x200.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v17) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v18) S1024x4096.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1024 : Shape := ⟨1, ![1024]⟩
abbrev S200x288 : Shape := ⟨2, ![200, 288]⟩
abbrev S288 : Shape := ⟨1, ![288]⟩
abbrev S6144x200 : Shape := ⟨2, ![6144, 200]⟩
abbrev S200 : Shape := ⟨1, ![200]⟩
abbrev S40943 : Shape := ⟨1, ![40943]⟩
abbrev S40943x200 : Shape := ⟨2, ![40943, 200]⟩
abbrev S18x200 : Shape := ⟨2, ![18, 200]⟩
abbrev S_ : Shape := ⟨0, ![]⟩
abbrev S1024x1 : Shape := ⟨2, ![1024, 1]⟩
abbrev S1024x200 : Shape := ⟨2, ![1024, 200]⟩
abbrev S1024x288 : Shape := ⟨2, ![1024, 288]⟩
abbrev S1x288 : Shape := ⟨2, ![1, 288]⟩
abbrev S1024x9x32 : Shape := ⟨3, ![1024, 9, 32]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S1024x6144 : Shape := ⟨2, ![1024, 6144]⟩
abbrev S1x200 : Shape := ⟨2, ![1, 200]⟩
abbrev S200x40943 : Shape := ⟨2, ![200, 40943]⟩
abbrev S1024x40943 : Shape := ⟨2, ![1024, 40943]⟩
abbrev S1x40943 : Shape := ⟨2, ![1, 40943]⟩

abbrev nBuf : Space → Nat
  | .hbm => 62
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S200x288, .f32⟩
  | .hbm, ⟨3, _⟩ => ⟨S288, .f32⟩
  | .hbm, ⟨4, _⟩ => ⟨S6144x200, .f32⟩
  | .hbm, ⟨5, _⟩ => ⟨S200, .f32⟩
  | .hbm, ⟨6, _⟩ => ⟨S40943, .f32⟩
  | .hbm, ⟨7, _⟩ => ⟨S40943x200, .f32⟩
  | .hbm, ⟨8, _⟩ => ⟨S18x200, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x200, .f32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x200, .f32⟩
  | .hbm, ⟨27, _⟩ => ⟨S1024x288, .f32⟩
  | .hbm, ⟨28, _⟩ => ⟨S1x288, .f32⟩
  | .hbm, ⟨29, _⟩ => ⟨S1024x288, .f32⟩
  | .hbm, ⟨30, _⟩ => ⟨S1024x288, .f32⟩
  | .hbm, ⟨31, _⟩ => ⟨S1024x9x32, .f32⟩
  | .hbm, ⟨32, _⟩ => ⟨S192, .i32⟩
  | .hbm, ⟨33, _⟩ => ⟨S192x1, .i32⟩
  | .hbm, ⟨34, _⟩ => ⟨S9, .i32⟩
  | .hbm, ⟨35, _⟩ => ⟨S1x9, .i32⟩
  | .hbm, ⟨36, _⟩ => ⟨S192x9, .i32⟩
  | .hbm, ⟨37, _⟩ => ⟨S192x9, .i32⟩
  | .hbm, ⟨38, _⟩ => ⟨S192x9, .i32⟩
  | .hbm, ⟨39, _⟩ => ⟨S_, .i32⟩
  | .hbm, ⟨40, _⟩ => ⟨S192x9, .i32⟩
  | .hbm, ⟨41, _⟩ => ⟨S192x9, .i1⟩
  | .hbm, ⟨42, _⟩ => ⟨S_, .i32⟩
  | .hbm, ⟨43, _⟩ => ⟨S192x9, .i32⟩
  | .hbm, ⟨44, _⟩ => ⟨S192x9, .i32⟩
  | .hbm, ⟨45, _⟩ => ⟨S192x9, .i32⟩
  | .hbm, ⟨46, _⟩ => ⟨S192x9x1, .i32⟩
  | .hbm, ⟨47, _⟩ => ⟨S1024x192x9, .f32⟩
  | .hbm, ⟨48, _⟩ => ⟨S1024x32x192, .f32⟩
  | .hbm, ⟨49, _⟩ => ⟨S1024x6144, .f32⟩
  | .hbm, ⟨50, _⟩ => ⟨S1024x200, .f32⟩
  | .hbm, ⟨51, _⟩ => ⟨S1x200, .f32⟩
  | .hbm, ⟨52, _⟩ => ⟨S1024x200, .f32⟩
  | .hbm, ⟨53, _⟩ => ⟨S1024x200, .f32⟩
  | .hbm, ⟨54, _⟩ => ⟨S_, .f32⟩
  | .hbm, ⟨55, _⟩ => ⟨S1024x200, .f32⟩
  | .hbm, ⟨56, _⟩ => ⟨S1024x200, .f32⟩
  | .hbm, ⟨57, _⟩ => ⟨S200x40943, .f32⟩
  | .hbm, ⟨58, _⟩ => ⟨S1024x40943, .f32⟩
  | .hbm, ⟨59, _⟩ => ⟨S1x40943, .f32⟩
  | .hbm, ⟨60, _⟩ => ⟨S1024x40943, .f32⟩
  | .hbm, ⟨61, _⟩ => ⟨S1024x40943, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_call0_cst : Ref sig .tc := ⟨.hbm, 54, rfl⟩
abbrev main_call0_v0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x9x32 : S1024x288.ShapeCasts S1024x9x32
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  shapeCasts_S1024x32x192_S1024x6144 : S1024x32x192.ShapeCasts S1024x6144
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  bcast_S_S1024x200 : S_.BroadcastsInDim S1024x200 (![] : Fin 0 → Fin S1024x200.rank)
  transposes_S40943x200_S200x40943_1_0 : S40943x200.Transposes [1, 0] S200x40943
  bcast_S40943_S1x40943_1 : S40943.BroadcastsInDim S1x40943 (![1] : Fin 1 → Fin S1x40943.rank)
  bcast_S1x40943_S1024x40943_0_1 : S1x40943.BroadcastsInDim S1024x40943 (![0, 1] : Fin 2 → Fin S1024x40943.rank)
  gather_S40943x200_S1024x1_S1024x200_1_0_n_n_0_1_1200_wf : GatherDims.WF S40943x200 S1024x1 S1024x200 [1] [0] [] [0] [] 1 ![1, 200]
  gather_S18x200_S1024x1_S1024x200_1_0_n_n_0_1_1200_wf : GatherDims.WF S18x200 S1024x1 S1024x200 [1] [0] [] [0] [] 1 ![1, 200]
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x9x32_S1024x192x9_S1024x32x192_1_2_2_1_0_0_wf : DotDims.WF S1024x9x32 S1024x192x9 S1024x32x192 [1] [2] [2] [1] [0] [0]
  dot_S1024x6144_S6144x200_S1024x200_1_0_0_1_n_n_wf : DotDims.WF S1024x6144 S6144x200 S1024x200 [1] [0] [0] [1] [] []
  dot_S1024x200_S200x40943_S1024x40943_1_0_0_1_n_n_wf : DotDims.WF S1024x200 S200x40943 S1024x40943 [1] [0] [0] [1] [] []

variable [Facts₀]

def gather_S40943x200_S1024x1_S1024x200_1_0_n_n_0_1_1200 : GatherDims S40943x200 S1024x1 S1024x200 where
  offsetDims := [1]
  collapsedSliceDims := [0]
  operandBatchingDims := []
  startIndicesBatchingDims := []
  startIndexMap := [0]
  indexVectorDim := 1
  sliceSizes := ![1, 200]
  wf := gather_S40943x200_S1024x1_S1024x200_1_0_n_n_0_1_1200_wf
def gather_S18x200_S1024x1_S1024x200_1_0_n_n_0_1_1200 : GatherDims S18x200 S1024x1 S1024x200 where
  offsetDims := [1]
  collapsedSliceDims := [0]
  operandBatchingDims := []
  startIndicesBatchingDims := []
  startIndexMap := [0]
  indexVectorDim := 1
  sliceSizes := ![1, 200]
  wf := gather_S18x200_S1024x1_S1024x200_1_0_n_n_0_1_1200_wf
def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x9x32_S1024x192x9_S1024x32x192_1_2_2_1_0_0 : DotDims S1024x9x32 S1024x192x9 S1024x32x192 where
  lhsContracting := [1]
  rhsContracting := [2]
  lhsNonContracting := [2]
  rhsNonContracting := [1]
  lhsBatch := [0]
  rhsBatch := [0]
  wf := dot_S1024x9x32_S1024x192x9_S1024x32x192_1_2_2_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x40943_S1024x40943_1_0_0_1_n_n : DotDims S1024x200 S200x40943 S1024x40943 where
  lhsContracting := [1]
  rhsContracting := [0]
  lhsNonContracting := [0]
  rhsNonContracting := [1]
  lhsBatch := []
  rhsBatch := []
  wf := dot_S1024x200_S200x40943_S1024x40943_1_0_0_1_n_n_wf

class Facts : Prop extends Facts₀ where

variable [Facts]
-- ==== Proof.FrameBits0.lean ====
/-
  Region 0 of the program (the first kernel call): the body's triple and the pipeline's body obligation,
  at any float interpretation and at any contents of the core's buffers when the region is entered.
  Every window's blocks tile its array; the body loads its six inputs' staging buffers whole, and stores one
  value, a function of what it loaded, over the whole of the output's staging buffer.
-/
import proofs.«116633_j47605417509202_2_alg».proof.Proof.Gen.Kernel.Launch
import proofs.«116633_j47605417509202_2_alg».proof.Proof.Gen.Kernel.Skeleton
import proofs.«116633_j47605417509202_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The core's buffer contents when a region is entered. -/
abbrev EntryV (F : FTy → Type) : Type := (c : Dev nD) → (b : Ref sig .tc) → Buf (Elt F) ((c : Thread nD τ).loc b)

section Region0

variable (V : EntryV F)

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before, whose block the body left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: an unfetched
    point has the block index of the point before, whose block the body left in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: an unfetched
    point has the block index of the point before, whose block the body left in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: an unfetched
    point has the block index of the point before, whose block the body left in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: an unfetched
    point has the block index of the point before, whose block the body left in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: an unfetched
    point has the block index of the point before, whose block the body left in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r_S256x200 : Rect S256x200 := Rect.unit (s := S256x200) ![0, 0] S256x200.size inb_S256x200_S256x200_0_0
abbrev r_S200x288 : Rect S200x288 := Rect.unit (s := S200x288) ![0, 0] S200x288.size inb_S200x288_S200x288_0_0
abbrev r_S1x288 : Rect S1x288 := Rect.unit (s := S1x288) ![0, 0] S1x288.size inb_S1x288_S1x288_0_0
abbrev r_S6144x200 : Rect S6144x200 := Rect.unit (s := S6144x200) ![0, 0] S6144x200.size inb_S6144x200_S6144x200_0_0
abbrev r_S1x200 : Rect S1x200 := Rect.unit (s := S1x200) ![0, 0] S1x200.size inb_S1x200_S1x200_0_0

/-! ## What the body leaves in the output window's buffer -/

/-- The output's staging buffer after the body, from the six inputs' buffers: its one store, of the maximum with
    zero of the value computed from the six whole loads. -/
def out0_6 (x0 : Vec F S256x200 .f32) (x1 : Vec F S256x200 .f32) (x2 : Vec F S200x288 .f32) (x3 : Vec F S1x288 .f32)
    (x4 : Vec F S6144x200 .f32) (x5 : Vec F S1x200 .f32) : Vec F S256x200 .f32 :=
  View.canon [⟨r_S256x200, k0_pay1 (k0_pay2 (View.ld x0 r_S256x200) (View.ld x1 r_S256x200) (View.ld x2 r_S200x288) (View.ld x3 r_S1x288)
    (View.ld x4 r_S6144x200) (View.ld x5 r_S1x200)) (k0_pay3 (F := F))⟩]

/-- The store is of the whole buffer, so it covers it. -/
theorem cover0_6 (p0 : Vec F S256x200 .f32) (y : S256x200.Idx) :
    ∃ pc ∈ ([⟨r_S256x200, p0⟩] : List (View.Piece (Elt F) S256x200 .f32)), y ∈ pc.1.set :=
  View.cover_of_tiled [⟨r_S256x200, p0⟩] S256x200.size (by rfl) y

/-! ## The body's triple -/

set_option maxHeartbeats 1000000 in
/-- The kernel body on whole staging memrefs, the inputs' at read contents `xW` and the output's at anything, runs to
    the continuation holding the inputs' as they were and the output's at `out0_6` of the inputs'. -/
theorem sound_kernel0 (c : Dev nD) (E : Set ℕ) (i : grid0.Coords)
    (arg1 : Memref sig .tc .vmem S256x200 .f32) (harg1 : arg1.IsWhole) (arg2 : Memref sig .tc .vmem S256x200 .f32) (harg2 : arg2.IsWhole)
    (arg3 : Memref sig .tc .vmem S200x288 .f32) (harg3 : arg3.IsWhole) (arg4 : Memref sig .tc .vmem S1x288 .f32) (harg4 : arg4.IsWhole)
    (arg5 : Memref sig .tc .vmem S6144x200 .f32) (harg5 : arg5.IsWhole) (arg6 : Memref sig .tc .vmem S1x200 .f32) (harg6 : arg6.IsWhole)
    (arg7 : Memref sig .tc .vmem S256x200 .f32) (harg7 : arg7.IsWhole)
    (x0 : Vec F S256x200 .f32) (x1 : Vec F S256x200 .f32) (x2 : Vec F S200x288 .f32) (x3 : Vec F S1x288 .f32)
    (x4 : Vec F S6144x200 .f32) (x5 : Vec F S1x200 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__hyper_kernel i arg1 harg1 arg2 harg2 arg3 harg3 arg4 harg4 arg5 harg5 arg6 harg6 arg7 harg7) K := by
  simp only [cc0__hyper_kernel_eq_skeleton]; unfold cc0__hyper_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the input blocks; the invariant the scoped buffers no
    window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelFrame

end
-- ==== Proof.FrameBits1.lean ====
/-
  Region 1 of the program (the second kernel call): the body's triple and the pipeline's body obligation in its
  loose form with the output window forgotten, at any float interpretation and at any contents of the core's
  buffers when the region is entered. Windows 1, 2 and 3 have blocks that overhang their arrays at the last point:
  a fetched input buffer holds its block on the part inside the array and unnamed contents elsewhere, and the
  body, which loads the three inputs' buffers whole and stores one value over the whole of the output's buffer,
  leaves the inputs' buffers as it found them; of what it leaves in the output's buffer nothing is said.
-/
import proofs.«116633_j47605417509202_2_alg».proof.Proof.Gen.Kernel.Launch
import proofs.«116633_j47605417509202_2_alg».proof.Proof.Gen.Kernel.Skeleton
import proofs.«116633_j47605417509202_2_alg».proof.Proof.Gen.Kernel.Points
import proofs.«116633_j47605417509202_2_alg».proof.Proof.FrameBits0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region1

variable (V : EntryV F)

/-! ## The windows' blocks -/

/-- Window `w`'s block at point `t`, its part inside the array, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A block's part inside the array filled out to the whole block with a word nothing reads: a closed form for what
    an input's staging buffer holds after the body, of which only the part inside the array is ever read. -/
def fblk1 (c : Dev nD) (w : Fin cfg1.W) (t : Fin cfg1.N) : (cfg1.win w).block.Idx → Elt F (cfg1.win w).elt :=
  (cfg1.win w).fill (cfg1.grid.coords t) (fun _ => Classical.arbitrary _) (iblk1 V c w t)

/-- Input window 0 (uncut, fetched at the first point only) holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input windows 1 and 2 are fetched at every point: the buffer holds the block on the part inside the array and
    what the fetch's overwrite left elsewhere. -/
theorem before1_1_of {c : Dev nD} (dat : Dat τ (Elt F) Unit ℕ (UR sig nD τ) ℕ cfg1 c) (hA : dat.A 1 = V c (Pipeline.arrRef spec1 1))
    (t : Fin cfg1.N) (d) : dat.before 1 t d = (cfg1.win 1).fill (cfg1.grid.coords t) d (iblk1 V c 1 t) := by
  unfold Dat.before; rw [if_pos (fetch1_1 t)]; unfold Dat.fetched Dat.blockOf iblk1; rw [hA]
theorem before1_2_of {c : Dev nD} (dat : Dat τ (Elt F) Unit ℕ (UR sig nD τ) ℕ cfg1 c) (hA : dat.A 2 = V c (Pipeline.arrRef spec1 2))
    (t : Fin cfg1.N) (d) : dat.before 2 t d = (cfg1.win 2).fill (cfg1.grid.coords t) d (iblk1 V c 2 t) := by
  unfold Dat.before; rw [if_pos (fetch1_2 t)]; unfold Dat.fetched Dat.blockOf iblk1; rw [hA]

/-! ## The body's triple -/

set_option maxHeartbeats 1000000 in
/-- The kernel body on whole staging memrefs, the inputs' at any read contents `xW` and the output's at anything,
    runs to the continuation holding the inputs' as they were and the output's at some contents. -/
theorem sound_kernel1 (c : Dev nD) (E : Set ℕ) (i : grid1.Coords)
    (arg1 : Memref sig .tc .vmem S1024x200 .f32) (harg1 : arg1.IsWhole) (arg2 : Memref sig .tc .vmem S4096x200 .f32) (harg2 : arg2.IsWhole)
    (arg3 : Memref sig .tc .vmem S1x4096 .f32) (harg3 : arg3.IsWhole) (arg4 : Memref sig .tc .vmem S1024x4096 .f32) (harg4 : arg4.IsWhole)
    (x0 : Vec F S1024x200 .f32) (x1 : Vec F S4096x200 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ (∃ d, owns (c : Thread nD τ) arg4 fullShare d)) -∗ K ⟨⟩))
      ⊢ wp frame (wpE (defs₀ (F := F)) Variants.none c none) E
          (cc1__final_kernel i arg1 harg1 arg2 harg2 arg3 harg3 arg4 harg4) K := by
  simp only [cc1__final_kernel_eq_skeleton]; unfold cc1__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; iexists _; isplitr
  swap; · iexact H3
  ipureintro; rfl

/-! ## The pipeline's proof data -/

/-- The output window is forgotten: nothing is said of what the body leaves in its staging buffer. -/
def forgets1 : Fin 4 → Bool := fun w => w.val == 3

/-- The proof data of pipeline 1 on core `c`: the arrays as the region finds them; after the body at point `t` input
    0's buffer at its block, inputs 1 and 2's at their blocks filled out, the forgotten output's unnamed; the
    invariant the scoped buffers no window stages and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fblk1 V c 1 t
    | ⟨2, _⟩ => fblk1 V c 2 t
    | ⟨3, h⟩ => Pipeline.Dat.unnamed (cfg := cfg1) ⟨3, h⟩ t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = fblk1 V c 1 t := by dsimp only [dat1]
theorem after1_2 (c : Dev nD) (t : Fin cfg1.N) : (dat1 V c).after 2 t = fblk1 V c 2 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = (cfg1.win 1).fill (cfg1.grid.coords t) d (iblk1 V c 1 t) :=
  before1_1_of V (dat1 V c) (A_eq1 V c 1) t d
theorem before1_2 (c : Dev nD) (t : Fin cfg1.N) (d) : (dat1 V c).before 2 t d = (cfg1.win 2).fill (cfg1.grid.coords t) d (iblk1 V c 2 t) :=
  before1_2_of V (dat1 V c) (A_eq1 V c 2) t d

/-- The part inside the array of an input's filled-out block is the block. -/
theorem cut_after1_1 (c : Dev nD) (t : Fin cfg1.N) : (cfg1.win 1).cut (cfg1.grid.coords t) ((dat1 V c).after 1 t) = iblk1 V c 1 t := by
  rw [after1_1]; exact (cfg1.win 1).cut_fill _ _ _
theorem cut_after1_2 (c : Dev nD) (t : Fin cfg1.N) : (cfg1.win 2).cut (cfg1.grid.coords t) ((dat1 V c).after 2 t) = iblk1 V c 2 t := by
  rw [after1_2]; exact (cfg1.win 2).cut_fill _ _ _

/-! ## The body obligation, at a generic point -/

/-- What the body is called with at point `t`, the windows one by one (the forgotten output's buffer at anything), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

/-- and what it returns: window 0's buffer at its block; windows 1 and 2's at contents that are the block on the
    part inside the array; the forgotten output's at anything. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ X, owns (c : Thread nD τ) (st1_3 t) fullShare X))

/-- The body at any point: the inputs' memrefs hold their blocks, filled out with whatever the fetch left; the body
    leaves them so, which on the part inside the array is what the proof data names. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) ((cfg1.win 1).fill (cfg1.grid.coords t) d1 (iblk1 V c 1 t))
    ((cfg1.win 2).fill (cfg1.grid.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (win1 1).cut (grid1.coords t) ((dat1 V c).after 1 t) = iblk1 V c 1 t from cut_after1_1 V c t]
    iexact H1
  isplitl [H2]
  · iexists d2
    rw [show (win1 2).cut (grid1.coords t) ((dat1 V c).after 2 t) = iblk1 V c 2 t from cut_after1_2 V c t]
    iexact H2
  iexact H3

/-- The pipeline's body obligation in its loose form, the output window forgotten, at every point. -/
theorem body_obligation1 (c : Dev nD) : BodyObligationLoose (dat1 (F := F) V c) (defs₀ (F := F)) Variants.none () Set.univ forgets1 := fun t => by
  rw [bigSep_W1, bigSep_W1]
  exact sound_body1 V c t

/-! ## The arrays at the region's exit -/

/-- What the windows' arrays hold when the region is left: the three inputs' what the proof data computes (what
    they held at entry: an input array is never written), the forgotten output's some contents `F3`. -/
def exitArr1 (c : Dev nD) (F3 : Buf (Elt F) ((cfg1.win 3).arr.view.loc (c : Thread nD τ))) :
    (w : Fin cfg1.W) → Buf (Elt F) ((cfg1.win w).arr.view.loc (c : Thread nD τ))
  | ⟨0, _⟩ => (dat1 V c).arrAt 0 cfg1.N
  | ⟨1, _⟩ => (dat1 V c).arrAt 1 cfg1.N
  | ⟨2, _⟩ => (dat1 V c).arrAt 2 cfg1.N
  | ⟨3, _⟩ => F3

/-- The arrays as the pipeline leaves them, of the proof data read relationally with the output forgotten, are the
    arrays at `exitArr1` of some contents of the output's. -/
theorem arraysAt1 (c : Dev nD) :
    ((dat1 V c).toRForget forgets1).arraysAt cfg1.N ⊢ (iprop(∃ F3, (dat1 V c).arrays (exitArr1 V c F3)) : sProp 𝕄) := by
  unfold Pipeline.RDat.arraysAt
  rw [bigSep_W1]
  iintro ⟨⟨%F0, %h0, H0⟩, ⟨%F1, %h1, H1⟩, ⟨%F2, %h2, H2⟩, ⟨%F3, -, H3⟩⟩
  iexists F3
  unfold Pipeline.Dat.arrays
  rw [bigSep_W1]
  obtain rfl := ((dat1 V c).toRForget_arrAt_iff (fgt := forgets1) (w := 0) rfl _ F0).mp h0
  obtain rfl := ((dat1 V c).toRForget_arrAt_iff (fgt := forgets1) (w := 1) rfl _ F1).mp h1
  obtain rfl := ((dat1 V c).toRForget_arrAt_iff (fgt := forgets1) (w := 2) rfl _ F2).mp h2
  isplitl [H0]; · iexact H0
  isplitl [H1]; · iexact H1
  isplitl [H2]; · iexact H2
  iexact H3

/-- An input array leaves the region as it entered it. -/
theorem exitArr1_in1 (c : Dev nD) (F3) : exitArr1 V c F3 1 = V c (Pipeline.arrRef spec1 1) :=
  ((dat1 V c).arrAt_in 1 rfl _).trans (A_eq1 V c 1)

end Region1

end Cert.KernelFrame

end
-- ==== Proof.FrameBits.lean ====
/-
  The frame of the program: every weakly fair execution of @main terminates, nothing faulting, and the nine
  argument arrays end as launched — at any float interpretation. @main is two stretches of host operations and two
  kernel regions; the buffer contents at each boundary are a fold from the launch memory; region 0's proof data is
  exact; region 1's is read relationally with its output window forgotten, so after it the output array is held at
  some contents, which no argument is.
-/
import proofs.«116633_j47605417509202_2_alg».proof.Proof.Gen.Kernel.Launch
import proofs.«116633_j47605417509202_2_alg».proof.Proof.Gen.Kernel.Skeleton
import proofs.«116633_j47605417509202_2_alg».proof.Proof.Gen.Kernel.Points
import proofs.«116633_j47605417509202_2_alg».proof.Proof.Gen.Kernel.Regions
import proofs.«116633_j47605417509202_2_alg».proof.Proof.FrameBits0
import proofs.«116633_j47605417509202_2_alg».proof.Proof.FrameBits1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev Wb0 : Dev nD → Valuation τ sig (Elt F) := fun c b => m ((c : Dev nD), b)
/-- After the first host stretch (region 0's entry). -/
abbrev Wb1 : Dev nD → Valuation τ sig (Elt F) := fun c => StableHlo.after hostOps0 (Wb0 m c)
/-- The same read at the TensorCore's references. -/
abbrev Ve1 : EntryV F := fun c b => Wb1 m c b
/-- At region 0's exit: its arrays at what the pipeline leaves, every other buffer as entered. -/
def Wb2 (c : Dev nD) : Valuation τ sig (Elt F) :=
  Pipeline.withArrays spec0 c (Wb1 m c) fun w => (dat0 (Ve1 m) c).arrAt w cfg0.N
theorem Wb2_arr (c : Dev nD) (w : Fin cfg0.W) :
    Wb2 m c (Proc.devRef .tc (Pipeline.arrRef spec0 w)) = (dat0 (Ve1 m) c).arrAt w cfg0.N := by
  unfold Wb2; exact Pipeline.withArrays_arr spec0 launch0.win.arr_inj c _ _ w
theorem Wb2_of_ne (c : Dev nD) (b : Ref sig .tc) (hb : ∀ w, Pipeline.arrRef spec0 w ≠ b) :
    Wb2 m c (Proc.devRef .tc b) = Wb1 m c (Proc.devRef .tc b) := by
  unfold Wb2; exact Pipeline.withArrays_of_ne spec0 c _ _ b hb
abbrev Ve2 : EntryV F := fun c b => Wb2 m c b
theorem hF0 (c : Dev nD) (w : Fin cfg0.W) : (dat0 (Ve1 m) c).arrAt w cfg0.N = Ve2 m c (Pipeline.arrRef spec0 w) :=
  (Wb2_arr m c w).symm
theorem hrest0 (c : Dev nD) : ∀ b, b ∉ Finset.univ.image (Pipeline.arrRef spec0) → Ve2 m c b = Ve1 m c b :=
  fun b hb => Wb2_of_ne m c b fun w e => hb (Finset.mem_image.mpr ⟨w, Finset.mem_univ _, e⟩)

/-- After the second host stretch (region 1's entry). -/
abbrev Wb3 : Dev nD → Valuation τ sig (Elt F) := fun c => StableHlo.after hostOps1 (Wb2 m c)
abbrev Ve3 : EntryV F := fun c b => Wb3 m c b
/-- At region 1's exit, its output array at contents `F3`: its input arrays as entered, every other buffer as entered. -/
def Wb4 (c : Dev nD) (F3 : Buf (Elt F) ((cfg1.win 3).arr.view.loc (c : Thread nD τ))) : Valuation τ sig (Elt F) :=
  Pipeline.withArrays spec1 c (Wb3 m c) (exitArr1 (Ve3 m) c F3)
theorem Wb4_arr (c : Dev nD) (F3) (w : Fin cfg1.W) :
    Wb4 m c F3 (Proc.devRef .tc (Pipeline.arrRef spec1 w)) = exitArr1 (Ve3 m) c F3 w := by
  unfold Wb4; exact Pipeline.withArrays_arr spec1 launch1.win.arr_inj c _ _ w
theorem Wb4_of_ne (c : Dev nD) (F3) (b : Ref sig .tc) (hb : ∀ w, Pipeline.arrRef spec1 w ≠ b) :
    Wb4 m c F3 (Proc.devRef .tc b) = Wb3 m c (Proc.devRef .tc b) := by
  unfold Wb4; exact Pipeline.withArrays_of_ne spec1 c _ _ b hb
abbrev Ve4 (c : Dev nD) (F3 : Buf (Elt F) ((cfg1.win 3).arr.view.loc (c : Thread nD τ))) :
    (b : Ref sig .tc) → Buf (Elt F) ((c : Thread nD τ).loc b) := fun b => Wb4 m c F3 b
theorem hF1 (c : Dev nD) (F3) (w : Fin cfg1.W) : exitArr1 (Ve3 m) c F3 w = Ve4 m c F3 (Pipeline.arrRef spec1 w) :=
  (Wb4_arr m c F3 w).symm
theorem hrest1 (c : Dev nD) (F3) : ∀ b, b ∉ Finset.univ.image (Pipeline.arrRef spec1) → Ve4 m c F3 b = Ve3 m c b :=
  fun b hb => Wb4_of_ne m c F3 b fun w e => hb (Finset.mem_image.mpr ⟨w, Finset.mem_univ _, e⟩)

/-! ### The arguments end as launched: no host operation writes one, and a region reads it through an input window
    or bypasses it -/

theorem Wb4_main_arg0 (c : Dev nD) (F3) : Wb4 m c F3 (Proc.devRef .tc main_arg0) = m ((c : Thread nD τ).loc main_arg0) :=
  calc Wb4 m c F3 (Proc.devRef .tc main_arg0)
    _ = Wb3 m c (Proc.devRef .tc main_arg0) := Wb4_of_ne m c F3 main_arg0 (by decide)
    _ = Wb2 m c (Proc.devRef .tc main_arg0) := StableHlo.after_of_writes_sub hostOps1 _ hostOps1_writes (by decide)
    _ = Wb1 m c (Proc.devRef .tc main_arg0) := Wb2_of_ne m c main_arg0 (by decide)
    _ = Wb0 m c (Proc.devRef .tc main_arg0) := StableHlo.after_of_writes_sub hostOps0 _ hostOps0_writes (by decide)
    _ = m ((c : Thread nD τ).loc main_arg0) := rfl

theorem Wb4_main_arg1 (c : Dev nD) (F3) : Wb4 m c F3 (Proc.devRef .tc main_arg1) = m ((c : Thread nD τ).loc main_arg1) :=
  calc Wb4 m c F3 (Proc.devRef .tc main_arg1)
    _ = Wb3 m c (Proc.devRef .tc main_arg1) := Wb4_of_ne m c F3 main_arg1 (by decide)
    _ = Wb2 m c (Proc.devRef .tc main_arg1) := StableHlo.after_of_writes_sub hostOps1 _ hostOps1_writes (by decide)
    _ = Wb1 m c (Proc.devRef .tc main_arg1) := Wb2_of_ne m c main_arg1 (by decide)
    _ = Wb0 m c (Proc.devRef .tc main_arg1) := StableHlo.after_of_writes_sub hostOps0 _ hostOps0_writes (by decide)
    _ = m ((c : Thread nD τ).loc main_arg1) := rfl

theorem Wb4_main_arg2 (c : Dev nD) (F3) : Wb4 m c F3 (Proc.devRef .tc main_arg2) = m ((c : Thread nD τ).loc main_arg2) :=
  calc Wb4 m c F3 (Proc.devRef .tc main_arg2)
    _ = Wb3 m c (Proc.devRef .tc main_arg2) := Wb4_of_ne m c F3 main_arg2 (by decide)
    _ = Wb2 m c (Proc.devRef .tc main_arg2) := StableHlo.after_of_writes_sub hostOps1 _ hostOps1_writes (by decide)
    _ = Wb1 m c (Proc.devRef .tc main_arg2) := (Wb2_arr m c 2).trans (((dat0 (Ve1 m) c).arrAt_in 2 rfl _).trans (A_eq0 (Ve1 m) c 2))
    _ = Wb0 m c (Proc.devRef .tc main_arg2) := StableHlo.after_of_writes_sub hostOps0 _ hostOps0_writes (by decide)
    _ = m ((c : Thread nD τ).loc main_arg2) := rfl

theorem Wb4_main_arg3 (c : Dev nD) (F3) : Wb4 m c F3 (Proc.devRef .tc main_arg3) = m ((c : Thread nD τ).loc main_arg3) :=
  calc Wb4 m c F3 (Proc.devRef .tc main_arg3)
    _ = Wb3 m c (Proc.devRef .tc main_arg3) := Wb4_of_ne m c F3 main_arg3 (by decide)
    _ = Wb2 m c (Proc.devRef .tc main_arg3) := StableHlo.after_of_writes_sub hostOps1 _ hostOps1_writes (by decide)
    _ = Wb1 m c (Proc.devRef .tc main_arg3) := Wb2_of_ne m c main_arg3 (by decide)
    _ = Wb0 m c (Proc.devRef .tc main_arg3) := StableHlo.after_of_writes_sub hostOps0 _ hostOps0_writes (by decide)
    _ = m ((c : Thread nD τ).loc main_arg3) := rfl

theorem Wb4_main_arg4 (c : Dev nD) (F3) : Wb4 m c F3 (Proc.devRef .tc main_arg4) = m ((c : Thread nD τ).loc main_arg4) :=
  calc Wb4 m c F3 (Proc.devRef .tc main_arg4)
    _ = Wb3 m c (Proc.devRef .tc main_arg4) := Wb4_of_ne m c F3 main_arg4 (by decide)
    _ = Wb2 m c (Proc.devRef .tc main_arg4) := StableHlo.after_of_writes_sub hostOps1 _ hostOps1_writes (by decide)
    _ = Wb1 m c (Proc.devRef .tc main_arg4) := (Wb2_arr m c 4).trans (((dat0 (Ve1 m) c).arrAt_in 4 rfl _).trans (A_eq0 (Ve1 m) c 4))
    _ = Wb0 m c (Proc.devRef .tc main_arg4) := StableHlo.after_of_writes_sub hostOps0 _ hostOps0_writes (by decide)
    _ = m ((c : Thread nD τ).loc main_arg4) := rfl

theorem Wb4_main_arg5 (c : Dev nD) (F3) : Wb4 m c F3 (Proc.devRef .tc main_arg5) = m ((c : Thread nD τ).loc main_arg5) :=
  calc Wb4 m c F3 (Proc.devRef .tc main_arg5)
    _ = Wb3 m c (Proc.devRef .tc main_arg5) := Wb4_of_ne m c F3 main_arg5 (by decide)
    _ = Wb2 m c (Proc.devRef .tc main_arg5) := StableHlo.after_of_writes_sub hostOps1 _ hostOps1_writes (by decide)
    _ = Wb1 m c (Proc.devRef .tc main_arg5) := Wb2_of_ne m c main_arg5 (by decide)
    _ = Wb0 m c (Proc.devRef .tc main_arg5) := StableHlo.after_of_writes_sub hostOps0 _ hostOps0_writes (by decide)
    _ = m ((c : Thread nD τ).loc main_arg5) := rfl

theorem Wb4_main_arg6 (c : Dev nD) (F3) : Wb4 m c F3 (Proc.devRef .tc main_arg6) = m ((c : Thread nD τ).loc main_arg6) :=
  calc Wb4 m c F3 (Proc.devRef .tc main_arg6)
    _ = Wb3 m c (Proc.devRef .tc main_arg6) := Wb4_of_ne m c F3 main_arg6 (by decide)
    _ = Wb2 m c (Proc.devRef .tc main_arg6) := StableHlo.after_of_writes_sub hostOps1 _ hostOps1_writes (by decide)
    _ = Wb1 m c (Proc.devRef .tc main_arg6) := Wb2_of_ne m c main_arg6 (by decide)
    _ = Wb0 m c (Proc.devRef .tc main_arg6) := StableHlo.after_of_writes_sub hostOps0 _ hostOps0_writes (by decide)
    _ = m ((c : Thread nD τ).loc main_arg6) := rfl

theorem Wb4_main_arg7 (c : Dev nD) (F3) : Wb4 m c F3 (Proc.devRef .tc main_arg7) = m ((c : Thread nD τ).loc main_arg7) :=
  calc Wb4 m c F3 (Proc.devRef .tc main_arg7)
    _ = Wb3 m c (Proc.devRef .tc main_arg7) := (Wb4_arr m c F3 1).trans (exitArr1_in1 (Ve3 m) c F3)
    _ = Wb2 m c (Proc.devRef .tc main_arg7) := StableHlo.after_of_writes_sub hostOps1 _ hostOps1_writes (by decide)
    _ = Wb1 m c (Proc.devRef .tc main_arg7) := Wb2_of_ne m c main_arg7 (by decide)
    _ = Wb0 m c (Proc.devRef .tc main_arg7) := StableHlo.after_of_writes_sub hostOps0 _ hostOps0_writes (by decide)
    _ = m ((c : Thread nD τ).loc main_arg7) := rfl

theorem Wb4_main_arg8 (c : Dev nD) (F3) : Wb4 m c F3 (Proc.devRef .tc main_arg8) = m ((c : Thread nD τ).loc main_arg8) :=
  calc Wb4 m c F3 (Proc.devRef .tc main_arg8)
    _ = Wb3 m c (Proc.devRef .tc main_arg8) := Wb4_of_ne m c F3 main_arg8 (by decide)
    _ = Wb2 m c (Proc.devRef .tc main_arg8) := StableHlo.after_of_writes_sub hostOps1 _ hostOps1_writes (by decide)
    _ = Wb1 m c (Proc.devRef .tc main_arg8) := Wb2_of_ne m c main_arg8 (by decide)
    _ = Wb0 m c (Proc.devRef .tc main_arg8) := StableHlo.after_of_writes_sub hostOps0 _ hostOps0_writes (by decide)
    _ = m ((c : Thread nD τ).loc main_arg8) := rfl

/-! ## The proof data family and the thread state -/

/-- Every pipeline's exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve1 m) c
  | ⟨1, _⟩ => fun c => dat1 (Ve3 m) c
/-- The same read relationally: region 0's with nothing forgotten, region 1's with its output window forgotten. -/
def rdats : (p : Fin 2) → (c : Dev nD) → Pipeline.RDat τ (Elt F) Unit ℕ (UR sig nD τ) ℕ (Pipeline.pin (pcfgs (F := F)) adm p) c
  | ⟨0, _⟩ => fun c => (dat0 (Ve1 m) c).toR
  | ⟨1, _⟩ => fun c => (dat1 (Ve3 m) c).toRForget forgets1
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, region 1's
    output array at SOME contents; the generator register at some state. -/
abbrev Tₙ (c : Dev nD) : sProp 𝕄 :=
  iprop((∃ F3, StableHlo.held (c : Thread nD τ) (Pipeline.ucRefs τ sig) (Wb4 m c F3)) ∗ ∃ r, prngReg c r)

/-! ## The regions as segments -/

set_option backward.isDefEq.respectTransparency.types false in
/-- REGION 0 over the thread state: entered from every unscoped buffer at `Wb1`, left at `Wb2`. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve1 m) c).loose.toR
  hwaits := Pipeline.RDat.hwaits_of_owed_zero _ _ _ _ L lv 0 fun _ _ => rfl
  pre c := iprop(StableHlo.held (c : Thread nD τ) (Pipeline.ucRefs τ sig) (Wb1 m c) ∗ R c)
  post c := iprop(StableHlo.held (c : Thread nD τ) (Pipeline.ucRefs τ sig) (Wb2 m c) ∗ R c)
  X c := iprop(∃ r, prngReg c r)
  Y c := iprop(∃ r, prngReg c r)
  Z c := Pipeline.unscopedRest (Ix := Unit) (Name := ℕ) (U := UR sig nD τ) (Lvl := ℕ) spec0 c (Ve1 m c)
  hentry c := by
    rw [Pipeline.ownSems0_none]
    have hsplit := Pipeline.RDat.arrays_of_unscopedBufs (p := 0) (pcfgs (F := F)) adm (rdats m) launch0.win launch0.arr_whole c
      ((rdats m 0 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve1 m c) (Ve2 m c) ((pdats m 0 c).arrAt · cfg0.N) (hF0 m c) (hrest0 m c)
    rw [Pipeline.unscopedBufs_held] at hjoin
    have harr : (rdats m 0 c).arraysAt cfg0.N ⊢ ((pdats m 0 c).arrays ((pdats m 0 c).arrAt · cfg0.N) : sProp 𝕄) :=
      (dat0 (Ve1 m) c).toR_arraysAt_post cfg0.N
    iintro ⟨Ha, HO, HY, Hrest⟩
    ihave Ha := harr $$ Ha
    imodintro
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- REGION 1 over the thread state: entered from every unscoped buffer at `Wb3`, left with its output array at some
    contents `F3` and every unscoped buffer at `Wb4 F3`. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve3 m) c).toRForget
  hwaits := Pipeline.RDat.hwaits_of_owed_zero _ _ _ _ L lv 1 fun _ _ => rfl
  pre c := iprop(StableHlo.held (c : Thread nD τ) (Pipeline.ucRefs τ sig) (Wb3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve3 m c)
  hentry c := by
    rw [Pipeline.ownSems0_none]
    have hsplit := Pipeline.RDat.arrays_of_unscopedBufs (p := 1) (pcfgs (F := F)) adm (rdats m) launch1.win launch1.arr_whole c
      ((rdats m 1 c).share_full fun _ => rfl) (Ve3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m 1 c).Φ (Fin.last _) = Pipeline.ΦA spec1 c from rfl]; unfold Pipeline.ΦA
    iintro ⟨Hr, Hp⟩
    isplitl [Hp]; · iexact Hp
    isplitr; · iempintro
    iexact Hr
  hexit c := by
    have harr : (rdats m 1 c).arraysAt cfg1.N ⊢ (iprop(∃ F3, (pdats m 1 c).arrays (exitArr1 (Ve3 m) c F3)) : sProp 𝕄) :=
      arraysAt1 (Ve3 m) c
    iintro ⟨Ha, HO, HY, Hrest⟩
    ihave Ha := harr $$ Ha
    icases Ha with ⟨%F3, Ha⟩
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve3 m c) (Ve4 m c F3) (exitArr1 (Ve3 m) c F3) (hF1 m c F3) (hrest1 m c F3)
    rw [Pipeline.unscopedBufs_held] at hjoin
    imodintro
    isplitl [Ha Hrest HY]
    · isplitl [Ha Hrest]
      · iexists F3; iapply hjoin; isplitl [Ha] <;> iassumption
      iexact HY
    unfold Pipeline.RDat.owesAt Pipeline.owesWithin
    icases HO with ⟨%W, -, HO⟩; iexists W; iexact HO

/-! ## @main as segments, and the launch -/

/-- @main's 4 segments in order. -/
abbrev segs : List (Pipeline.RDat.Seg (pcfgs (F := F)) adm (rdats m) () defs₀ 𝒱₀ L lv) :=
  [ .host (hseg hostOps0 hostOps0_sub hostOps0_fresh (Wb0 m)),
    .region (reg0 m),
    .host (hseg hostOps1 hostOps1_sub hostOps1_fresh (Wb2 m)),
    .region (reg1 m) ]
/-- @main IS the run of the segments. -/
theorem main_run (c : Dev nD) : main (F := F) c = Pipeline.RDat.Seg.run (segs m) := (main_chain c).trans (by chain_rfl)

set_option backward.isDefEq.respectTransparency.types false in
/-- THE FRAME, at any float interpretation: at the compiled mesh, from any memory with zero counters, every weakly
    fair execution of @main on the TensorCores terminates, nothing faulting, and every final state has the nine
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.RDat.θ_run_regions_kit (pcfgs (F := F)) adm (rdats m) () cellOf_inj emb₁ defs₀ 𝒱₀ L lv m ρ main (segs m)
    (fun c Q => by rw [main_run m c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wb0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wb0 m c)
        from Pipeline.unscopedBufs_held c (Wb0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => by
      iintro ⟨⟨⟨%F3, Hh⟩, -⟩, HSI⟩
      unfold StableHlo.held
      ihave Hr := (pointsTo_read_all (Pipeline.ucRefs τ sig) (fun b => (((c : Thread nD τ)).1, b)) (Wb4 m c F3) s') $$ [Hh HSI]
      · isplitl [Hh] <;> iassumption
      icases Hr with ⟨%h, HSI⟩
      imodintro
      isplitr
      · ipureintro
        exact ⟨(h _ (mem_uc main_arg0 (by decide))).trans (Wb4_main_arg0 m c F3),
          (h _ (mem_uc main_arg1 (by decide))).trans (Wb4_main_arg1 m c F3),
          (h _ (mem_uc main_arg2 (by decide))).trans (Wb4_main_arg2 m c F3),
          (h _ (mem_uc main_arg3 (by decide))).trans (Wb4_main_arg3 m c F3),
          (h _ (mem_uc main_arg4 (by decide))).trans (Wb4_main_arg4 m c F3),
          (h _ (mem_uc main_arg5 (by decide))).trans (Wb4_main_arg5 m c F3),
          (h _ (mem_uc main_arg6 (by decide))).trans (Wb4_main_arg6 m c F3),
          (h _ (mem_uc main_arg7 (by decide))).trans (Wb4_main_arg7 m c F3),
          (h _ (mem_uc main_arg8 (by decide))).trans (Wb4_main_arg8 m c F3)⟩
      · iexact HSI)
    (hQ := fun s h c => h c)

end Cert.KernelFrame

end
-- ==== Proof.IdealR0.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The first kernel region (the hypernetwork, the convolution and the dense layer): its body and proof data

Every window of this region is a whole number of blocks: the two gathered row matrices and the result move in
blocks of 256 rows, the four parameter arrays are one block each. The body loads its six input blocks whole,
computes, and stores the result block whole; so after the body the result's buffer holds the body's arithmetic
of the six input blocks, and each input's buffer its block. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## An input's buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev rA : Rect S256x200 := Rect.unit (s := S256x200) ![0, 0] S256x200.size inb_S256x200_S256x200_0_0
abbrev rW1 : Rect S200x288 := Rect.unit (s := S200x288) ![0, 0] S200x288.size inb_S200x288_S200x288_0_0
abbrev rb1 : Rect S1x288 := Rect.unit (s := S1x288) ![0, 0] S1x288.size inb_S1x288_S1x288_0_0
abbrev rW2 : Rect S6144x200 := Rect.unit (s := S6144x200) ![0, 0] S6144x200.size inb_S6144x200_S6144x200_0_0
abbrev rb2 : Rect S1x200 := Rect.unit (s := S1x200) ![0, 0] S1x200.size inb_S1x200_S1x200_0_0

/-- What the body leaves in the result's buffer, from the six input blocks: its one store. -/
def out0_6 (x0 x1 : Vec F S256x200 .f32) (x2 : Vec F S200x288 .f32) (x3 : Vec F S1x288 .f32) (x4 : Vec F S6144x200 .f32) (x5 : Vec F S1x200 .f32) : Vec F S256x200 .f32 :=
  View.canon [⟨rA, k0_pay1 (k0_pay2 (View.ld x0 rA) (View.ld x1 rA) (View.ld x2 rW1) (View.ld x3 rb1) (View.ld x4 rW2) (View.ld x5 rb2)) k0_pay3⟩]

/-- The one store covers the buffer. -/
theorem cover0_6 (p0 : Vec F S256x200 .f32) (y : S256x200.Idx) :
    ∃ pc ∈ ([⟨rA, p0⟩] : List (View.Piece (Elt F) S256x200 .f32)), y ∈ pc.1.set :=
  View.cover_of_tiled [⟨rA, p0⟩] S256x200.size (by rfl) y

theorem zero2 : (![0, 0] : Fin 2 → Nat) = fun _ => 0 := funext fun a => by match a with | ⟨0, _⟩ => rfl | ⟨1, _⟩ => rfl

/-- The store is of the whole buffer and the loads are of whole buffers: the result's buffer holds the body's
    arithmetic of the input blocks themselves. -/
theorem out0_6_eq (x0 x1 : Vec F S256x200 .f32) (x2 : Vec F S200x288 .f32) (x3 : Vec F S1x288 .f32) (x4 : Vec F S6144x200 .f32) (x5 : Vec F S1x200 .f32) :
    out0_6 x0 x1 x2 x3 x4 x5 = k0_pay1 (k0_pay2 x0 x1 x2 x3 x4 x5) k0_pay3 := by
  unfold out0_6
  rw [View.canon_unit_zero zero2]
  simp only [View.ld_unit_zero (S := S256x200) zero2, View.ld_unit_zero (S := S200x288) zero2, View.ld_unit_zero (S := S1x288) zero2,
    View.ld_unit_zero (S := S6144x200) zero2, View.ld_unit_zero (S := S1x200) zero2]

/-! ## The body's triple -/

set_option maxHeartbeats 1000000 in
/-- The kernel body on whole staging memrefs, the inputs' at contents `x0 … x5` and the result's at anything, runs to
    the continuation holding the inputs' as they were and the result's at `out0_6` of them. -/
theorem sound_kernel0 (c : Dev nD) (E : Set ℕ) (i : grid0.Coords)
    (arg1 : Memref sig .tc .vmem S256x200 .f32) (harg1 : arg1.IsWhole) (arg2 : Memref sig .tc .vmem S256x200 .f32) (harg2 : arg2.IsWhole)
    (arg3 : Memref sig .tc .vmem S200x288 .f32) (harg3 : arg3.IsWhole) (arg4 : Memref sig .tc .vmem S1x288 .f32) (harg4 : arg4.IsWhole)
    (arg5 : Memref sig .tc .vmem S6144x200 .f32) (harg5 : arg5.IsWhole) (arg6 : Memref sig .tc .vmem S1x200 .f32) (harg6 : arg6.IsWhole)
    (arg7 : Memref sig .tc .vmem S256x200 .f32) (harg7 : arg7.IsWhole)
    (x0 x1 : Vec F S256x200 .f32) (x2 : Vec F S200x288 .f32) (x3 : Vec F S1x288 .f32) (x4 : Vec F S6144x200 .f32) (x5 : Vec F S1x200 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare (out0_6 x0 x1 x2 x3 x4 x5)) -∗ K ⟨⟩))
      ⊢ wp frame (wpE (defs₀ (F := F)) Variants.none c none) E (cc0__hyper_kernel i arg1 harg1 arg2 harg2 arg3 harg3 arg4 harg4 arg5 harg5 arg6 harg6 arg7 harg7) K := by
  simp only [cc0__hyper_kernel_eq_skeleton]; unfold cc0__hyper_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-! ## The proof data -/

/-- The proof data of this pipeline on core `c`: the arrays as the region finds them; after the body at point `t` each
    input's buffer at its block and the result's at the body's arithmetic of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Spec.lean ====
/-
  The mathematics both programs compute, index by index, over the extended reals.

  For one sample (one row of the batch) with entity row `e : Fin 200 → EReal` and relation row `r : Fin 200 → EReal`:
  * the hypernetwork's filter coefficients `filt r W1 b1 c = Σ_d r d · W1 (d, c) + b1 c` for `c < 288`, read as a
    9 × 32 table (tap `j`, channel `o`) at `c = 32 j + o`;
  * the valid one-dimensional convolution of `e` with the sample's own filters,
    `feat e r W1 b1 o w = Σ_{j<9} filt r W1 b1 (32 j + o) · e (w + j)` for `o < 32`, `w < 192`;
  * the dense layer on the features flattened channel-major (`q = 192 o + w`) followed by the rectifier,
    `hid … d = max (Σ_{q<6144} feat … (q / 192) (q % 192) · W2 (q, d) + b2 d) 0`;
  * the score of entity `n`: `logit h E bias n = Σ_d h d · E (n, d) + bias n`.
  Sums over extended reals are finite sums in a commutative monoid, so their order and grouping are immaterial;
  no distributivity is used anywhere, hence no finiteness of the inputs.
-/
import Idealize.ShloMosaic.PureOps.Ideal
import Idealize.ShloMosaic.Lib.ValueIdx

noncomputable section

open scoped BigOperators

namespace Cert.Hyper

open Idealize.ShloMosaic Idealize.ShloMosaic.ValueIdx

/-- Filter coefficient `c` (of 288 = 9 taps × 32 channels) of a sample whose relation row is `r`. -/
def filt (r : Fin 200 → EReal) (W1 : (⟨2, ![200, 288]⟩ : Shape).Idx → EReal) (b1 : Fin 288 → EReal) (c : Fin 288) : EReal :=
  (∑ d : Fin 200, r d * W1 (ix2 d c)) + b1 c

/-- The coefficient of tap `j` and channel `o`: entry `32 j + o` of the 288. -/
def tap (j : Fin 9) (o : Fin 32) : Fin 288 := ⟨j.val * 32 + o.val, by have := j.isLt; have := o.isLt; omega⟩

/-- Position `w + j` of the entity row, for an output position `w < 192` and a tap `j < 9`. -/
def shift (w : Fin 192) (j : Fin 9) : Fin 200 := ⟨w.val + j.val, by have := j.isLt; have := w.isLt; omega⟩

/-- The convolution's output at channel `o` and position `w`. -/
def feat (e r : Fin 200 → EReal) (W1 : (⟨2, ![200, 288]⟩ : Shape).Idx → EReal) (b1 : Fin 288 → EReal) (o : Fin 32) (w : Fin 192) : EReal :=
  ∑ j : Fin 9, filt r W1 b1 (tap j o) * e (shift w j)

/-- Channel and position of a flattened feature index `q = 192 o + w`. -/
def chan (q : Fin 6144) : Fin 32 := ⟨q.val / 192, by have := q.isLt; omega⟩
def pos (q : Fin 6144) : Fin 192 := ⟨q.val % 192, Nat.mod_lt _ (by decide)⟩

/-- The hidden vector of a sample: dense layer on the flattened features, then `max · 0`. -/
def hid (e r : Fin 200 → EReal) (W1 : (⟨2, ![200, 288]⟩ : Shape).Idx → EReal) (b1 : Fin 288 → EReal)
    (W2 : (⟨2, ![6144, 200]⟩ : Shape).Idx → EReal) (b2 : Fin 200 → EReal) (d : Fin 200) : EReal :=
  max ((∑ q : Fin 6144, feat e r W1 b1 (chan q) (pos q) * W2 (ix2 q d)) + b2 d) 0

/-- The score of entity `n` for a sample whose hidden vector is `h`. -/
def logit (h : Fin 200 → EReal) (E : (⟨2, ![40943, 200]⟩ : Shape).Idx → EReal) (bias : Fin 40943 → EReal) (n : Fin 40943) : EReal :=
  (∑ d : Fin 200, h d * E (ix2 n d)) + bias n

end Cert.Hyper

end
-- ==== Proof.KernelSideFinal.lean ====
/-
  The second kernel's stored value at an index, at the ideal values: a row of the hidden matrix contracted with a row of
  the entity block, plus that entity's bias.
-/
import proofs.«116633_j47605417509202_2_alg».proof.Proof.Gen.KernelIdeal.Skeleton
import proofs.«116633_j47605417509202_2_alg».proof.Proof.Spec
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen Idealize.ShloMosaic Idealize.ShloMosaic.ValueIdx

/-! The operand indices of the contraction [1024,200] · [4096,200] (second axis against second axis) at an output
    index i and a contraction index k: the left operand is read at (i 0, k), the right one at (i 1, k). -/

theorem final_lhs_0 (i : S1024x4096.Idx) (k : dot_S1024x200_S4096x200_S1024x4096_1_1_0_0_n_n.contr.Idx) :
    (dot_S1024x200_S4096x200_S1024x4096_1_1_0_0_n_n.lhsIdx i k 0).val = (i 0).val := by
  unfold DotDims.lhsIdx
  rw [dif_neg (show ¬(0 : Fin S1024x200.rank) ∈ dot_S1024x200_S4096x200_S1024x4096_1_1_0_0_n_n.lhsBatch by decide), dif_pos (show (0 : Fin S1024x200.rank) ∈ dot_S1024x200_S4096x200_S1024x4096_1_1_0_0_n_n.lhsNonContracting by decide)]
  rfl
theorem final_lhs_1 (i : S1024x4096.Idx) (k : dot_S1024x200_S4096x200_S1024x4096_1_1_0_0_n_n.contr.Idx) :
    (dot_S1024x200_S4096x200_S1024x4096_1_1_0_0_n_n.lhsIdx i k 1).val = (k ⟨0, by decide⟩).val :=
  dot_S1024x200_S4096x200_S1024x4096_1_1_0_0_n_n.lhsIdx_val_of_single rfl i k
theorem final_rhs_0 (i : S1024x4096.Idx) (k : dot_S1024x200_S4096x200_S1024x4096_1_1_0_0_n_n.contr.Idx) :
    (dot_S1024x200_S4096x200_S1024x4096_1_1_0_0_n_n.rhsIdx i k 0).val = (i 1).val := by
  unfold DotDims.rhsIdx
  rw [dif_neg (show ¬(0 : Fin S4096x200.rank) ∈ dot_S1024x200_S4096x200_S1024x4096_1_1_0_0_n_n.rhsBatch by decide), dif_pos (show (0 : Fin S4096x200.rank) ∈ dot_S1024x200_S4096x200_S1024x4096_1_1_0_0_n_n.rhsNonContracting by decide)]
  rfl
theorem final_rhs_1 (i : S1024x4096.Idx) (k : dot_S1024x200_S4096x200_S1024x4096_1_1_0_0_n_n.contr.Idx) :
    (dot_S1024x200_S4096x200_S1024x4096_1_1_0_0_n_n.rhsIdx i k 1).val = (k ⟨0, by decide⟩).val :=
  dot_S1024x200_S4096x200_S1024x4096_1_1_0_0_n_n.rhsIdx_val_of_single rfl i k

/-- The contraction into the zero accumulator, read at (p, q): the sum over d of lhs (p, d) · rhs (q, d). -/
theorem final_dot (a : FVec Ideal S1024x200 .bf16) (b : FVec Ideal S4096x200 .bf16) (p : Fin 1024) (q : Fin 4096) :
    matmul dot_S1024x200_S4096x200_S1024x4096_1_1_0_0_n_n none a b (constant (F := Ideal) S1024x4096 .f32 0x00000000#32) (ix2 p q)
      = ∑ d : Fin 200, a (ix2 p d) * b (ix2 q d) := by
  simp only [matmul]
  rw [Ideal.matmul_constant_zero_apply, ← Equiv.sum_comp (contrEquiv1 dot_S1024x200_S4096x200_S1024x4096_1_1_0_0_n_n 200 rfl rfl).symm]
  refine Finset.sum_congr rfl fun k _ => ?_
  have hk := contrEquiv1_symm_val dot_S1024x200_S4096x200_S1024x4096_1_1_0_0_n_n 200 rfl rfl k
  have el : dot_S1024x200_S4096x200_S1024x4096_1_1_0_0_n_n.lhsIdx (ix2 p q) ((contrEquiv1 dot_S1024x200_S4096x200_S1024x4096_1_1_0_0_n_n 200 rfl rfl).symm k) = ix2 p k := funext fun x => Fin.ext (by
    match x with
    | ⟨0, _⟩ => exact final_lhs_0 _ _
    | ⟨1, _⟩ => exact (final_lhs_1 _ _).trans hk)
  have er : dot_S1024x200_S4096x200_S1024x4096_1_1_0_0_n_n.rhsIdx (ix2 p q) ((contrEquiv1 dot_S1024x200_S4096x200_S1024x4096_1_1_0_0_n_n 200 rfl rfl).symm k) = ix2 q k := funext fun x => Fin.ext (by
    match x with
    | ⟨0, _⟩ => exact final_rhs_0 _ _
    | ⟨1, _⟩ => exact (final_rhs_1 _ _).trans hk)
  rw [el, er]

/-- A [1,4096] row broadcast over 1024 rows, read at (p, q), is the row at (0, q). -/
theorem final_bias (y : FVec Ideal S1x4096 .f32) (p : Fin 1024) (q : Fin 4096) :
    broadcastTo S1024x4096 y broadcasts_S1x4096_S1024x4096 (ix2 p q) = y (ix2 (0 : Fin 1) q) :=
  broadcastTo_apply y broadcasts_S1x4096_S1024x4096 (ix2 p q) (ix2 (0 : Fin 1) q) (fun a => match a with
    | ⟨0, _⟩ => by show 0 = if (1 : Nat) = 1 then 0 else p.val; rw [if_pos rfl]
    | ⟨1, _⟩ => by show q.val = if (4096 : Nat) = 1 then 0 else q.val; rw [if_neg (by decide)])

/-- What the second kernel stores, at (p, q): Σ_d h (p, d) · E (q, d) + bias (0, q). -/
theorem final_pay (v0 : Vec Ideal S1024x200 .f32) (v3 : Vec Ideal S4096x200 .f32) (v6 : Vec Ideal S1x4096 .f32) (p : Fin 1024) (q : Fin 4096) :
    k1_pay1 (F := Ideal) v0 v3 v6 (ix2 p q) = (∑ d : Fin 200, v0 (ix2 p d) * v3 (ix2 q d)) + v6 (ix2 (0 : Fin 1) q) := by
  unfold k1_pay1
  rw [shapeCast_self, shapeCast_self]
  refine (addf_apply _ _ _).trans ?_
  rw [final_dot, final_bias]
  rfl

end Cert.KernelSide

end
-- ==== Proof.IdealR1.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import proofs.«116633_j47605417509202_2_alg».proof.Proof.KernelSideFinal
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The second kernel region (the scores of all entities): its body and proof data

The hidden matrix is one block. The entity table moves in blocks of 4096 rows, the bias and the result in blocks
of 4096 columns; 40943 is not a multiple of 4096, so the tenth block of each overhangs its array by 17 and is
cut: the fetch fills only the block's part inside the array, the rest of the staging buffer holds words nothing
names, and the write-back writes only the part inside the array. The body computes from the whole buffers, so
the result's buffer holds, in its last 17 columns at the tenth point, numbers computed from unnamed words; they
are never written back. What matters is that an entry of the product depends only on one row of each factor:
the result's columns inside the array depend only on the table's rows inside the array. -/

variable (V : (c : Dev nD) → (b : Ref sig .tc) → Buf (Elt F) ((c : Thread nD τ).loc b))

/-- Window `w`'s block at point `t` (its part inside the array), read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rH : Rect S1024x200 := Rect.unit (s := S1024x200) ![0, 0] S1024x200.size inb_S1024x200_S1024x200_0_0
abbrev rE : Rect S4096x200 := Rect.unit (s := S4096x200) ![0, 0] S4096x200.size inb_S4096x200_S4096x200_0_0
abbrev rB : Rect S1x4096 := Rect.unit (s := S1x4096) ![0, 0] S1x4096.size inb_S1x4096_S1x4096_0_0
abbrev rO : Rect S1024x4096 := Rect.unit (s := S1024x4096) ![0, 0] S1024x4096.size inb_S1024x4096_S1024x4096_0_0

/-- What the body leaves in the result's buffer, from the three input buffers' contents: its one store. -/
def out1_3 (x0 : Vec F S1024x200 .f32) (x1 : Vec F S4096x200 .f32) (x2 : Vec F S1x4096 .f32) : Vec F S1024x4096 .f32 :=
  View.canon [⟨rO, k1_pay1 (View.ld x0 rH) (View.ld x1 rE) (View.ld x2 rB)⟩]

theorem cover1_3 (p0 : Vec F S1024x4096 .f32) (y : S1024x4096.Idx) :
    ∃ pc ∈ ([⟨rO, p0⟩] : List (View.Piece (Elt F) S1024x4096 .f32)), y ∈ pc.1.set :=
  View.cover_of_tiled [⟨rO, p0⟩] S1024x4096.size (by rfl) y

theorem zero2' : (![0, 0] : Fin 2 → Nat) = fun _ => 0 := funext fun a => by match a with | ⟨0, _⟩ => rfl | ⟨1, _⟩ => rfl

theorem out1_3_eq (x0 : Vec F S1024x200 .f32) (x1 : Vec F S4096x200 .f32) (x2 : Vec F S1x4096 .f32) :
    out1_3 x0 x1 x2 = k1_pay1 x0 x1 x2 := by
  unfold out1_3
  rw [View.canon_unit_zero zero2']
  simp only [View.ld_unit_zero (S := S1024x200) zero2', View.ld_unit_zero (S := S4096x200) zero2', View.ld_unit_zero (S := S1x4096) zero2']

set_option maxHeartbeats 1000000 in
/-- The kernel body on whole staging memrefs, the inputs' at contents `x0 x1 x2` and the result's at anything, runs to
    the continuation holding the inputs' as they were and the result's at `out1_3` of them. -/
theorem sound_kernel1 (c : Dev nD) (E : Set ℕ) (i : grid1.Coords)
    (arg1 : Memref sig .tc .vmem S1024x200 .f32) (harg1 : arg1.IsWhole) (arg2 : Memref sig .tc .vmem S4096x200 .f32) (harg2 : arg2.IsWhole)
    (arg3 : Memref sig .tc .vmem S1x4096 .f32) (harg3 : arg3.IsWhole) (arg4 : Memref sig .tc .vmem S1024x4096 .f32) (harg4 : arg4.IsWhole)
    (x0 : Vec F S1024x200 .f32) (x1 : Vec F S4096x200 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__final_kernel i arg1 harg1 arg2 harg2 arg3 harg3 arg4 harg4) K := by
  simp only [cc1__final_kernel_eq_skeleton]; unfold cc1__final_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The proof data of this pipeline on core `c`: the arrays as the region finds them; after the body at point `t` the
    hidden matrix's buffer at the matrix, the table's and the bias's at their blocks filled out past the array's end
    with the zero word, and the result's at the body's arithmetic of those three. Past the array's end the body
    obligation states nothing of the three cut windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => win1_1.fill (grid1.coords t) (fun _ => Scalar.ofBits .f32 0#32) (iblk1 V c 1 t)
    | ⟨2, _⟩ => win1_2.fill (grid1.coords t) (fun _ => Scalar.ofBits .f32 0#32) (iblk1 V c 2 t)
    | ⟨3, _⟩ => out1_3 (iblk1 V c 0 t) (win1_1.fill (grid1.coords t) (fun _ => Scalar.ofBits .f32 0#32) (iblk1 V c 1 t)) (win1_2.fill (grid1.coords t) (fun _ => Scalar.ofBits .f32 0#32) (iblk1 V c 2 t))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = win1_1.fill (grid1.coords t) (fun _ => Scalar.ofBits .f32 0#32) (iblk1 V c 1 t) := by dsimp only [dat1]
theorem after1_2 (c : Dev nD) (t : Fin cfg1.N) : (dat1 V c).after 2 t = win1_2.fill (grid1.coords t) (fun _ => Scalar.ofBits .f32 0#32) (iblk1 V c 2 t) := by dsimp only [dat1]
theorem after1_3 (c : Dev nD) (t : Fin cfg1.N) : (dat1 V c).after 3 t = out1_3 (iblk1 V c 0 t) (win1_1.fill (grid1.coords t) (fun _ => Scalar.ofBits .f32 0#32) (iblk1 V c 1 t)) (win1_2.fill (grid1.coords t) (fun _ => Scalar.ofBits .f32 0#32) (iblk1 V c 2 t)) := by dsimp only [dat1]

/-- A cut window's block index determines its point: the index is the point's number on the cut axis. -/
theorem index1_1_inj : ∀ t t' : Fin cfg1.N, win1_1.index t 0 = win1_1.index t' 0 → t = t' :=
  (by decide +kernel : ∀ t t' : Fin grid1.N, win1_1.index t 0 = win1_1.index t' 0 → t = t')
theorem index1_2_inj : ∀ t t' : Fin cfg1.N, win1_2.index t 1 = win1_2.index t' 1 → t = t' :=
  (by decide +kernel : ∀ t t' : Fin grid1.N, win1_2.index t 1 = win1_2.index t' 1 → t = t')

/-- The hidden matrix's buffer holds the matrix at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- The table's buffer holds its block on the rows inside the array, `d` elsewhere. -/
theorem before1_1 (c : Dev nD) (t : Fin cfg1.N) (d) : (dat1 V c).before 1 t d = win1_1.fill (grid1.coords t) d (iblk1 V c 1 t) :=
  ((dat1 V c).before_in_eq_fetched 1 rfl (fun _ => rfl)
    (fun t t' h => by have e := index1_1_inj t t' (congrFun h 0); subst e; rfl)
    (fun t => by
      rw [after1_1]
      refine (win1_1.cut_fill (grid1.coords t) _ (iblk1 V c 1 t)).trans ?_
      unfold Dat.blockOf iblk1; rw [A_eq1]; try rfl) t d).trans
    (by unfold Dat.fetched Dat.blockOf iblk1; rw [A_eq1]; try rfl)
/-- The bias's buffer holds its block on the columns inside the array, `d` elsewhere. -/
theorem before1_2 (c : Dev nD) (t : Fin cfg1.N) (d) : (dat1 V c).before 2 t d = win1_2.fill (grid1.coords t) d (iblk1 V c 2 t) :=
  ((dat1 V c).before_in_eq_fetched 2 rfl (fun _ => rfl)
    (fun t t' h => by have e := index1_2_inj t t' (congrFun h 1); subst e; rfl)
    (fun t => by
      rw [after1_2]
      refine (win1_2.cut_fill (grid1.coords t) _ (iblk1 V c 2 t)).trans ?_
      unfold Dat.blockOf iblk1; rw [A_eq1]; try rfl) t d).trans
    (by unfold Dat.fetched Dat.blockOf iblk1; rw [A_eq1]; try rfl)
/-- The result's buffer holds anything: it was written back at the point before. -/
theorem before1_3 (c : Dev nD) (t : Fin cfg1.N) (d) : (dat1 V c).before 3 t d = d :=
  (dat1 V c).before_out_reset 3 rfl t (by
    by_cases h : t.val = 0
    · exact .inl h
    · exact .inr ⟨h, flush1_3 _⟩) d

end Cert.KernelIdeal.Hand

end
-- ==== Proof.IdealR1Body.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import proofs.«116633_j47605417509202_2_alg».proof.Proof.IdealR1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

/-! # The second region's body obligation, over the extended reals

An entry of `h · Eᵀ + bias` at row `p` and column `q` is `Σ_d h (p, d) · E (q, d) + bias q`: it reads row `q` of the
table's buffer and entry `q` of the bias's, nothing else. So on the columns inside the array the result's buffer
does not depend on what the two cut input buffers hold past the array's end. -/

variable (V : (c : Dev nD) → (b : Ref sig .tc) → Buf (Elt Ideal) ((c : Thread nD τ).loc b))

/-- Where the transfer moves an index, a filled block does not depend on the filler. -/
theorem fill_indep {G : Pipeline.Grid} (w : Pipeline.Window sig G) {α : Type} (i : G.Coords) (d d' : w.block.Idx → α)
    (g : (w.xblock i).Idx → α) (j : w.block.Idx) (h : w.moved i j = true) : w.fill i d g j = w.fill i d' g j := by
  unfold Pipeline.Window.fill; rw [dif_pos h, dif_pos h]

/-- The three cut windows are cut alike: the table's rows, the bias's columns and the result's columns inside the
    array are the same in number at every point; the other axes are whole. -/
theorem cuts (t : Fin cfg1.N) :
    win1_1.xsize (grid1.coords t) 0 = win1_3.xsize (grid1.coords t) 1 ∧ win1_1.xsize (grid1.coords t) 1 = 200
    ∧ win1_2.xsize (grid1.coords t) 0 = 1 ∧ win1_2.xsize (grid1.coords t) 1 = win1_3.xsize (grid1.coords t) 1
    ∧ win1_3.xsize (grid1.coords t) 0 = 1024 ∧ win1_3.xsize (grid1.coords t) 1 ≤ 4096 :=
  (by decide +kernel : ∀ t : Fin grid1.N,
    win1_1.xsize (grid1.coords t) 0 = win1_3.xsize (grid1.coords t) 1 ∧ win1_1.xsize (grid1.coords t) 1 = 200
    ∧ win1_2.xsize (grid1.coords t) 0 = 1 ∧ win1_2.xsize (grid1.coords t) 1 = win1_3.xsize (grid1.coords t) 1
    ∧ win1_3.xsize (grid1.coords t) 0 = 1024 ∧ win1_3.xsize (grid1.coords t) 1 ≤ 4096) t

/-- An index of the result's block inside the array, by its coordinates. -/
theorem xinj3_eq (t : Fin cfg1.N) (j : (win1_3.xblock (grid1.coords t)).Idx) (p : Fin 1024) (q : Fin 4096)
    (hp : p.val = (j 0).val) (hq : q.val = (j 1).val) : win1_3.xinj (grid1.coords t) j = ix2 p q :=
  funext fun a => Fin.ext (by match a with | ⟨0, _⟩ => exact hp.symm | ⟨1, _⟩ => exact hq.symm)

/-- The result's columns inside the array do not depend on what the cut input buffers hold past the array's end. -/
theorem out_local (t : Fin cfg1.N) (X0 : Vec Ideal S1024x200 .f32)
    (d1 d1' : S4096x200.Idx → Elt Ideal .f32) (g1 : (win1_1.xblock (grid1.coords t)).Idx → Elt Ideal .f32)
    (d2 d2' : S1x4096.Idx → Elt Ideal .f32) (g2 : (win1_2.xblock (grid1.coords t)).Idx → Elt Ideal .f32) :
    win1_3.cut (grid1.coords t) (k1_pay1 (F := Ideal) X0 (win1_1.fill (grid1.coords t) d1 g1) (win1_2.fill (grid1.coords t) d2 g2))
      = win1_3.cut (grid1.coords t) (k1_pay1 (F := Ideal) X0 (win1_1.fill (grid1.coords t) d1' g1) (win1_2.fill (grid1.coords t) d2' g2)) := by
  obtain ⟨h10, h11, h20, h21, h30, h31⟩ := cuts t
  funext j
  have hj0 : (j 0).val < win1_3.xsize (grid1.coords t) 0 := (j 0).isLt
  have hj1 : (j 1).val < win1_3.xsize (grid1.coords t) 1 := (j 1).isLt
  have e := xinj3_eq t j ⟨(j 0).val, by omega⟩ ⟨(j 1).val, by omega⟩ rfl rfl
  show k1_pay1 (F := Ideal) X0 _ _ (win1_3.xinj (grid1.coords t) j) = k1_pay1 (F := Ideal) X0 _ _ (win1_3.xinj (grid1.coords t) j)
  rw [e, Cert.KernelSide.final_pay, Cert.KernelSide.final_pay]
  refine congrArg₂ (· + ·) (Finset.sum_congr rfl fun dd _ => congrArg (X0 _ * ·) ?_) ?_
  · refine fill_indep win1_1 (grid1.coords t) d1 d1' g1 _ ((win1_1.moved_iff _ _).mpr fun a => ?_)
    match a with
    | ⟨0, _⟩ => show (j 1).val < win1_1.xsize (grid1.coords t) 0; omega
    | ⟨1, _⟩ => show dd.val < win1_1.xsize (grid1.coords t) 1; have := dd.isLt; omega
  · refine fill_indep win1_2 (grid1.coords t) d2 d2' g2 _ ((win1_2.moved_iff _ _).mpr fun a => ?_)
    match a with
    | ⟨0, _⟩ => show (0 : Nat) < win1_2.xsize (grid1.coords t) 0; omega
    | ⟨1, _⟩ => show (j 1).val < win1_2.xsize (grid1.coords t) 1; omega

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What the body returns: the uncut buffer at its named contents; each cut buffer at its named contents on the part
    inside the array, anything elsewhere. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

theorem sound_body1 (c : Dev nD) (t : Fin cfg1.N) :
    bodyPre1 V c t ⊢ wp frame (wpE (defs₀ (F := Ideal)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 (F := Ideal) c Set.univ _ _ _ _ _ _ _ _ _ (iblk1 V c 0 t) (win1_1.fill (grid1.coords t) d1 (iblk1 V c 1 t))
    (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1; rw [win1_1.cut_fill]; iexact H1
  isplitl [H2]
  · iexists d2; rw [win1_2.cut_fill]; iexact H2
  · iexists out1_3 (iblk1 V c 0 t) (win1_1.fill (grid1.coords t) d1 (iblk1 V c 1 t)) (win1_2.fill (grid1.coords t) d2 (iblk1 V c 2 t))
    rw [win1_3.fill_congr_cut (grid1.coords t) (by rw [out1_3_eq, out1_3_eq]; exact out_local t _ _ _ _ _ _ _)]
    iexact H3

/-- The library's body obligation (each cut window stated on its part inside the array), at every point. -/
theorem body_obligation1 (c : Dev nD) : BodyObligationLoose (dat1 (F := Ideal) V c) (defs₀ (F := Ideal)) Variants.none () Set.univ := fun t => by
  rw [bigSep_W1, bigSep_W1]
  exact sound_body1 V c t

end Cert.KernelIdeal.Hand

end
-- ==== Proof.IdealRun.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import proofs.«116633_j47605417509202_2_alg».proof.Proof.IdealR0
import proofs.«116633_j47605417509202_2_alg».proof.Proof.IdealR1Body
import proofs.«116633_j47605417509202_2_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! # The run of the idealized program: host operations, the first region, a host operation, the second region

The contents of the core's buffers at each boundary are a fold from the launch memory: a stretch of host operations
applies them; a region leaves its arrays at what its write-backs leave and every other buffer as it was. Every
weakly fair execution terminates, and the final memory holds each buffer at the last boundary's contents: the
result array at what the second region's write-backs leave, each argument at its launch contents (no host
operation writes an argument and each region either reads it through an input window or does not touch it). -/

variable (m : (ℓ : Loc nD τ sig) → Buf (Elt Ideal) ℓ) (ρ : Dev nD → PrngReg)

/-- Core `c`'s buffers at launch; -/
abbrev W0 : Dev nD → Valuation τ sig (Elt Ideal) := fun c => Gen.V0 m c
/-- after the first stretch of host operations (the first region's entry); -/
abbrev W1 : Dev nD → Valuation τ sig (Elt Ideal) := fun c => Gen.V1 m c
abbrev V1 : (c : Dev nD) → (b : Ref sig .tc) → Buf (Elt Ideal) ((c : Thread nD τ).loc b) := fun c b => W1 m c b
/-- at the first region's exit: its arrays at what the pipeline leaves, every other buffer as entered; -/
def W2 (c : Dev nD) : Valuation τ sig (Elt Ideal) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt Ideal) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- after the second stretch (the second region's entry); -/
abbrev W3 : Dev nD → Valuation τ sig (Elt Ideal) := fun c => StableHlo.after hostOps1 (W2 m c)
abbrev V3 : (c : Dev nD) → (b : Ref sig .tc) → Buf (Elt Ideal) ((c : Thread nD τ).loc b) := fun c b => W3 m c b
/-- at the second region's exit. -/
def W4 (c : Dev nD) : Valuation τ sig (Elt Ideal) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt Ideal) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := Gen.V1_of m c main_arg0 (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := Gen.V1_of m c main_arg1 (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := (W2_arr m c 2).trans (((dat0 (V1 m) c).arrAt_in 2 rfl _).trans (A_eq0 (V1 m) c 2))
    _ = W0 m c (Proc.devRef .tc main_arg2) := Gen.V1_of m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := Gen.V1_of m c main_arg3 (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := (W2_arr m c 4).trans (((dat0 (V1 m) c).arrAt_in 4 rfl _).trans (A_eq0 (V1 m) c 4))
    _ = W0 m c (Proc.devRef .tc main_arg4) := Gen.V1_of m c main_arg4 (by decide)
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := StableHlo.after_of_writes_sub hostOps1 _ hostOps1_writes (r := main_arg5) (by decide)
    _ = W1 m c (Proc.devRef .tc main_arg5) := W2_of_ne m c main_arg5 (by decide)
    _ = W0 m c (Proc.devRef .tc main_arg5) := Gen.V1_of m c main_arg5 (by decide)
    _ = m ((c : Thread nD τ).loc main_arg5) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (r := main_arg6) (by decide)
    _ = W1 m c (Proc.devRef .tc main_arg6) := W2_of_ne m c main_arg6 (by decide)
    _ = W0 m c (Proc.devRef .tc main_arg6) := Gen.V1_of m c main_arg6 (by decide)
    _ = m ((c : Thread nD τ).loc main_arg6) := rfl

theorem W4_main_arg7 (c : Dev nD) : W4 m c (Proc.devRef .tc main_arg7) = m ((c : Thread nD τ).loc main_arg7) :=
  calc W4 m c (Proc.devRef .tc main_arg7)
    _ = W3 m c (Proc.devRef .tc main_arg7) := (W4_arr m c 1).trans (((dat1 (V3 m) c).arrAt_in 1 rfl _).trans (A_eq1 (V3 m) c 1))
    _ = W2 m c (Proc.devRef .tc main_arg7) := StableHlo.after_of_writes_sub hostOps1 _ hostOps1_writes (r := main_arg7) (by decide)
    _ = W1 m c (Proc.devRef .tc main_arg7) := W2_of_ne m c main_arg7 (by decide)
    _ = W0 m c (Proc.devRef .tc main_arg7) := Gen.V1_of m c main_arg7 (by decide)
    _ = m ((c : Thread nD τ).loc main_arg7) := rfl

theorem W4_main_arg8 (c : Dev nD) : W4 m c (Proc.devRef .tc main_arg8) = m ((c : Thread nD τ).loc main_arg8) :=
  calc W4 m c (Proc.devRef .tc main_arg8)
    _ = W3 m c (Proc.devRef .tc main_arg8) := W4_of_ne m c main_arg8 (by decide)
    _ = W2 m c (Proc.devRef .tc main_arg8) := StableHlo.after_of_writes_sub hostOps1 _ hostOps1_writes (r := main_arg8) (by decide)
    _ = W1 m c (Proc.devRef .tc main_arg8) := W2_of_ne m c main_arg8 (by decide)
    _ = W0 m c (Proc.devRef .tc main_arg8) := Gen.V1_of m c main_arg8 (by decide)
    _ = m ((c : Thread nD τ).loc main_arg8) := rfl

/-! ## The proof data family and the thread state -/

/-- Every pipeline's proof data, each at its region's entry contents. -/
def pdats : (p : Fin 2) → (c : Dev nD) → Dat τ (Elt Ideal) Unit ℕ (UR sig nD τ) ℕ (Pipeline.pin (pcfgs (F := Ideal)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at the contents before it, left at those with
    its arrays at what its write-backs leave. The arrays are split out of the unscoped buffers and put back; the
    generator register goes into the invariant and comes out; nothing is owed; the kernel has no semaphore of its own. -/
def reg0 : Pipeline.RegionSeg (pcfgs (F := Ideal)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := Ideal)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at those with
    its arrays at what its write-backs leave. The arrays are split out of the unscoped buffers and put back; the
    generator register goes into the invariant and comes out; nothing is owed; the kernel has no semaphore of its own. -/
def reg1 : Pipeline.RegionSeg (pcfgs (F := Ideal)) adm (pdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m) c
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := Ideal)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := Ideal) c = Pipeline.Seg.run (segs m) := (main_chain c).trans (by chain_rfl)

set_option backward.isDefEq.respectTransparency.types false in
/-- From any memory with zero counters every weakly fair execution of @main terminates, nothing faulting; the final
    memory holds the result array at what the second region's write-backs leave and every argument as launched. -/
theorem run : θ_run defs (onTc (τ := τ) (main (F := Ideal))) ⟨m, fun _ => 0, ρ⟩ (fun r => ∀ c : Dev nD,
      r.2.mem ((c.tc : Thread nD τ).loc main_v18) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := Ideal)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v18 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c),
       (h c _ (mem_uc main_arg5 (by decide))).trans (W4_main_arg5 m c),
       (h c _ (mem_uc main_arg6 (by decide))).trans (W4_main_arg6 m c),
       (h c _ (mem_uc main_arg7 (by decide))).trans (W4_main_arg7 m c),
       (h c _ (mem_uc main_arg8 (by decide))).trans (W4_main_arg8 m c)⟩)

end Cert.KernelIdeal.Hand

end
-- ==== Proof.KernelSideFilt.lean ====
/-
  The first kernel's filter coefficients at an index, at the ideal values: the relation row of a sample contracted with
  the first weight matrix, plus its bias, read as a table of 9 taps by 32 channels.
-/
import proofs.«116633_j47605417509202_2_alg».proof.Proof.Gen.KernelIdeal.Skeleton
import proofs.«116633_j47605417509202_2_alg».proof.Proof.Spec
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen Idealize.ShloMosaic Idealize.ShloMosaic.ValueIdx

/-! The operand indices of the contraction [256,200] · [200,288] at an output index i and a contraction index k:
    the left operand is read at (i 0, k), the right one at (k, i 1). -/

theorem filt_lhs_0 (i : S256x288.Idx) (k : dot_S256x200_S200x288_S256x288_1_0_0_1_n_n.contr.Idx) :
    (dot_S256x200_S200x288_S256x288_1_0_0_1_n_n.lhsIdx i k 0).val = (i 0).val := by
  unfold DotDims.lhsIdx
  rw [dif_neg (show ¬(0 : Fin S256x200.rank) ∈ dot_S256x200_S200x288_S256x288_1_0_0_1_n_n.lhsBatch by decide), dif_pos (show (0 : Fin S256x200.rank) ∈ dot_S256x200_S200x288_S256x288_1_0_0_1_n_n.lhsNonContracting by decide)]
  rfl
theorem filt_lhs_1 (i : S256x288.Idx) (k : dot_S256x200_S200x288_S256x288_1_0_0_1_n_n.contr.Idx) :
    (dot_S256x200_S200x288_S256x288_1_0_0_1_n_n.lhsIdx i k 1).val = (k ⟨0, by decide⟩).val :=
  dot_S256x200_S200x288_S256x288_1_0_0_1_n_n.lhsIdx_val_of_single rfl i k
theorem filt_rhs_0 (i : S256x288.Idx) (k : dot_S256x200_S200x288_S256x288_1_0_0_1_n_n.contr.Idx) :
    (dot_S256x200_S200x288_S256x288_1_0_0_1_n_n.rhsIdx i k 0).val = (k ⟨0, by decide⟩).val :=
  dot_S256x200_S200x288_S256x288_1_0_0_1_n_n.rhsIdx_val_of_single rfl i k
theorem filt_rhs_1 (i : S256x288.Idx) (k : dot_S256x200_S200x288_S256x288_1_0_0_1_n_n.contr.Idx) :
    (dot_S256x200_S200x288_S256x288_1_0_0_1_n_n.rhsIdx i k 1).val = (i 1).val := by
  unfold DotDims.rhsIdx
  rw [dif_neg (show ¬(1 : Fin S200x288.rank) ∈ dot_S256x200_S200x288_S256x288_1_0_0_1_n_n.rhsBatch by decide), dif_pos (show (1 : Fin S200x288.rank) ∈ dot_S256x200_S200x288_S256x288_1_0_0_1_n_n.rhsNonContracting by decide)]
  rfl

/-- The contraction into the zero accumulator, read at (p, c): the sum over d of lhs (p, d) · rhs (d, c). -/
theorem filt_dot (a : FVec Ideal S256x200 .bf16) (b : FVec Ideal S200x288 .bf16) (p : Fin 256) (c : Fin 288) :
    matmul dot_S256x200_S200x288_S256x288_1_0_0_1_n_n none a b (constant (F := Ideal) S256x288 .f32 0x00000000#32) (ix2 p c)
      = ∑ d : Fin 200, a (ix2 p d) * b (ix2 d c) := by
  simp only [matmul]
  rw [Ideal.matmul_constant_zero_apply, ← Equiv.sum_comp (contrEquiv1 dot_S256x200_S200x288_S256x288_1_0_0_1_n_n 200 rfl rfl).symm]
  refine Finset.sum_congr rfl fun k _ => ?_
  have hk := contrEquiv1_symm_val dot_S256x200_S200x288_S256x288_1_0_0_1_n_n 200 rfl rfl k
  have el : dot_S256x200_S200x288_S256x288_1_0_0_1_n_n.lhsIdx (ix2 p c) ((contrEquiv1 dot_S256x200_S200x288_S256x288_1_0_0_1_n_n 200 rfl rfl).symm k) = ix2 p k := funext fun x => Fin.ext (by
    match x with
    | ⟨0, _⟩ => exact filt_lhs_0 _ _
    | ⟨1, _⟩ => exact (filt_lhs_1 _ _).trans hk)
  have er : dot_S256x200_S200x288_S256x288_1_0_0_1_n_n.rhsIdx (ix2 p c) ((contrEquiv1 dot_S256x200_S200x288_S256x288_1_0_0_1_n_n 200 rfl rfl).symm k) = ix2 k c := funext fun x => Fin.ext (by
    match x with
    | ⟨0, _⟩ => exact (filt_rhs_0 _ _).trans hk
    | ⟨1, _⟩ => exact filt_rhs_1 _ _)
  rw [el, er]

/-- A [1,288] row broadcast over 256 rows, read at (p, c), is the row at (0, c). -/
theorem filt_bias (y : FVec Ideal S1x288 .f32) (p : Fin 256) (c : Fin 288) :
    broadcastTo S256x288 y broadcasts_S1x288_S256x288 (ix2 p c) = y (ix2 (0 : Fin 1) c) :=
  broadcastTo_apply y broadcasts_S1x288_S256x288 (ix2 p c) (ix2 (0 : Fin 1) c) (fun a => match a with
    | ⟨0, _⟩ => by show 0 = if (1 : Nat) = 1 then 0 else p.val; rw [if_pos rfl]
    | ⟨1, _⟩ => by show c.val = if (288 : Nat) = 1 then 0 else c.val; rw [if_neg (by decide)])

/-- The 288 coefficients of a row read as a 9 × 32 table: entry (p, j, o) is entry (p, 32 j + o). -/
theorem coef_cast (x : FVec Ideal S256x288 .f32) (p : Fin 256) (j : Fin 9) (o : Fin 32) :
    shapeCast S256x9x32 x shapeCasts_S256x288_S256x9x32 (ix3 p j o) = x (ix2 p (Cert.Hyper.tap j o)) :=
  shapeCast_apply x shapeCasts_S256x288_S256x9x32 (ix3 p j o) (ix2 p (Cert.Hyper.tap j o))
    (by rewrite [Shape.rowMajor_val_two, Shape.rowMajor_val_three]
        show p.val * 288 + (j.val * 32 + o.val) = (p.val * 9 + j.val) * 32 + o.val
        omega)

/-- The first kernel's filter coefficients, as its body computes them from the relation rows, the first weight matrix and
    its bias row. -/
def kcoef (v2 : Vec Ideal S256x200 .f32) (v5 : Vec Ideal S200x288 .f32) (v8 : Vec Ideal S1x288 .f32) : FVec Ideal S256x9x32 .f32 :=
  shapeCast S256x9x32
    (addf (F := Ideal)
      (matmul dot_S256x200_S200x288_S256x288_1_0_0_1_n_n none
        (truncf (F := Ideal) .bf16 (shapeCast S256x200 v2 shapeCasts_S256x200_S256x200) bitsLt_bf16_f32)
        (truncf (F := Ideal) .bf16 v5 bitsLt_bf16_f32)
        (constant (F := Ideal) S256x288 .f32 0x00000000#32))
      (broadcastTo S256x288 (shapeCast S1x288 v8 shapeCasts_S1x288_S1x288) broadcasts_S1x288_S256x288))
    shapeCasts_S256x288_S256x9x32

/-- Coefficient (p, j, o) is the specification's filter coefficient 32 j + o of sample p. -/
theorem kcoef_apply (v2 : Vec Ideal S256x200 .f32) (v5 : Vec Ideal S200x288 .f32) (v8 : Vec Ideal S1x288 .f32)
    (p : Fin 256) (j : Fin 9) (o : Fin 32) :
    kcoef v2 v5 v8 (ix3 p j o)
      = Cert.Hyper.filt (fun d => v2 (ix2 p d)) v5 (fun c => v8 (ix2 (0 : Fin 1) c)) (Cert.Hyper.tap j o) := by
  unfold kcoef
  rw [shapeCast_self, shapeCast_self]
  refine (coef_cast _ p j o).trans ?_
  refine (addf_apply _ _ _).trans ?_
  rw [filt_dot, filt_bias]
  rfl

end Cert.KernelSide

end
-- ==== Proof.KernelSidePatch.lean ====
/-
  The first kernel's patches at an index: the nine shifted slices of the entity rows, concatenated along a new last axis,
  read at (p, w, j) are the entity row's entry w + j.
-/
import proofs.«116633_j47605417509202_2_alg».proof.Proof.Gen.KernelIdeal.Skeleton
import proofs.«116633_j47605417509202_2_alg».proof.Proof.Spec
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen Idealize.ShloMosaic Idealize.ShloMosaic.ValueIdx

/-- One piece of the patches: the columns off … off + 191 of every row, with a trailing unit axis; its entry (p, w, 0) is
    the operand at (p, w + off). -/
theorem piece_apply (x : FVec Ideal S256x200 .f32) (off : Nat) (h : S256x200.Slices ![0, off] S256x192)
    (p : Fin 256) (w : Fin 192) (c : Fin 200) (hc : c.val = w.val + off) :
    shapeCast S256x192x1 (extractStridedSlice S256x192 ![0, off] x h) shapeCasts_S256x192_S256x192x1 (ix3 p w (0 : Fin 1))
      = x (ix2 p c) := by
  refine (shapeCast_apply _ shapeCasts_S256x192_S256x192x1 (ix3 p w (0 : Fin 1)) (ix2 p w)
    (by rewrite [Shape.rowMajor_val_two, Shape.rowMajor_val_three]
        show p.val * 192 + w.val = (p.val * 192 + w.val) * 1 + 0
        omega)).trans ?_
  exact extractStridedSlice_apply ![0, off] x h (ix2 p w) (ix2 p c) (fun a => match a with
    | ⟨0, _⟩ => by show p.val = 0 + p.val; omega
    | ⟨1, _⟩ => by show c.val = off + w.val; omega)

/-- The nine pieces: piece j is the slice of the rows' columns j … j + 191, with a trailing unit axis. -/
def kpieces (x : FVec Ideal S256x200 .f32) : List ((s : Shape) × (s.Idx → Ideal .f32)) :=
  [⟨S256x192x1, shapeCast S256x192x1 (extractStridedSlice S256x192 ![0, 0] x slices_S256x200_o0_0_S256x192) shapeCasts_S256x192_S256x192x1⟩,
   ⟨S256x192x1, shapeCast S256x192x1 (extractStridedSlice S256x192 ![0, 1] x slices_S256x200_o0_1_S256x192) shapeCasts_S256x192_S256x192x1⟩,
   ⟨S256x192x1, shapeCast S256x192x1 (extractStridedSlice S256x192 ![0, 2] x slices_S256x200_o0_2_S256x192) shapeCasts_S256x192_S256x192x1⟩,
   ⟨S256x192x1, shapeCast S256x192x1 (extractStridedSlice S256x192 ![0, 3] x slices_S256x200_o0_3_S256x192) shapeCasts_S256x192_S256x192x1⟩,
   ⟨S256x192x1, shapeCast S256x192x1 (extractStridedSlice S256x192 ![0, 4] x slices_S256x200_o0_4_S256x192) shapeCasts_S256x192_S256x192x1⟩,
   ⟨S256x192x1, shapeCast S256x192x1 (extractStridedSlice S256x192 ![0, 5] x slices_S256x200_o0_5_S256x192) shapeCasts_S256x192_S256x192x1⟩,
   ⟨S256x192x1, shapeCast S256x192x1 (extractStridedSlice S256x192 ![0, 6] x slices_S256x200_o0_6_S256x192) shapeCasts_S256x192_S256x192x1⟩,
   ⟨S256x192x1, shapeCast S256x192x1 (extractStridedSlice S256x192 ![0, 7] x slices_S256x200_o0_7_S256x192) shapeCasts_S256x192_S256x192x1⟩,
   ⟨S256x192x1, shapeCast S256x192x1 (extractStridedSlice S256x192 ![0, 8] x slices_S256x200_o0_8_S256x192) shapeCasts_S256x192_S256x192x1⟩]

/-- The patches of the entity rows as the first kernel's body builds them: the nine pieces laid along the new last axis. -/
def kpatch (x : FVec Ideal S256x200 .f32) : FVec Ideal S256x192x9 .f32 :=
  concatenate S256x192x9 2 (kpieces x) concatenates_S256x192x1_S256x192x1_S256x192x1_S256x192x1_S256x192x1_S256x192x1_S256x192x1_S256x192x1_S256x192x1_S256x192x9_d2

/-- Tap 0: piece 0 of the nine, the columns 0 to 191. -/
theorem kpatch_apply_0 (x : FVec Ideal S256x200 .f32) (p : Fin 256) (w : Fin 192) :
    kpatch x (ix3 p w (0 : Fin 9)) = x (ix2 p (Cert.Hyper.shift w (0 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (0 : Fin 9)) 0
    (by show (0 : Nat) < 9; decide)
    S256x192x1 _ rfl rfl 0 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 0 slices_S256x200_o0_0_S256x192 p w _ rfl

/-- Tap 1: piece 1 of the nine, the columns 1 to 192. -/
theorem kpatch_apply_1 (x : FVec Ideal S256x200 .f32) (p : Fin 256) (w : Fin 192) :
    kpatch x (ix3 p w (1 : Fin 9)) = x (ix2 p (Cert.Hyper.shift w (1 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (1 : Fin 9)) 1
    (by show (1 : Nat) < 9; decide)
    S256x192x1 _ rfl rfl 1 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 1 slices_S256x200_o0_1_S256x192 p w _ rfl

/-- Tap 2: piece 2 of the nine, the columns 2 to 193. -/
theorem kpatch_apply_2 (x : FVec Ideal S256x200 .f32) (p : Fin 256) (w : Fin 192) :
    kpatch x (ix3 p w (2 : Fin 9)) = x (ix2 p (Cert.Hyper.shift w (2 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (2 : Fin 9)) 2
    (by show (2 : Nat) < 9; decide)
    S256x192x1 _ rfl rfl 2 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 2 slices_S256x200_o0_2_S256x192 p w _ rfl

/-- Tap 3: piece 3 of the nine, the columns 3 to 194. -/
theorem kpatch_apply_3 (x : FVec Ideal S256x200 .f32) (p : Fin 256) (w : Fin 192) :
    kpatch x (ix3 p w (3 : Fin 9)) = x (ix2 p (Cert.Hyper.shift w (3 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (3 : Fin 9)) 3
    (by show (3 : Nat) < 9; decide)
    S256x192x1 _ rfl rfl 3 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 3 slices_S256x200_o0_3_S256x192 p w _ rfl

/-- Tap 4: piece 4 of the nine, the columns 4 to 195. -/
theorem kpatch_apply_4 (x : FVec Ideal S256x200 .f32) (p : Fin 256) (w : Fin 192) :
    kpatch x (ix3 p w (4 : Fin 9)) = x (ix2 p (Cert.Hyper.shift w (4 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (4 : Fin 9)) 4
    (by show (4 : Nat) < 9; decide)
    S256x192x1 _ rfl rfl 4 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 4 slices_S256x200_o0_4_S256x192 p w _ rfl

/-- Tap 5: piece 5 of the nine, the columns 5 to 196. -/
theorem kpatch_apply_5 (x : FVec Ideal S256x200 .f32) (p : Fin 256) (w : Fin 192) :
    kpatch x (ix3 p w (5 : Fin 9)) = x (ix2 p (Cert.Hyper.shift w (5 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (5 : Fin 9)) 5
    (by show (5 : Nat) < 9; decide)
    S256x192x1 _ rfl rfl 5 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 5 slices_S256x200_o0_5_S256x192 p w _ rfl

/-- Tap 6: piece 6 of the nine, the columns 6 to 197. -/
theorem kpatch_apply_6 (x : FVec Ideal S256x200 .f32) (p : Fin 256) (w : Fin 192) :
    kpatch x (ix3 p w (6 : Fin 9)) = x (ix2 p (Cert.Hyper.shift w (6 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (6 : Fin 9)) 6
    (by show (6 : Nat) < 9; decide)
    S256x192x1 _ rfl rfl 6 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 6 slices_S256x200_o0_6_S256x192 p w _ rfl

/-- Tap 7: piece 7 of the nine, the columns 7 to 198. -/
theorem kpatch_apply_7 (x : FVec Ideal S256x200 .f32) (p : Fin 256) (w : Fin 192) :
    kpatch x (ix3 p w (7 : Fin 9)) = x (ix2 p (Cert.Hyper.shift w (7 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (7 : Fin 9)) 7
    (by show (7 : Nat) < 9; decide)
    S256x192x1 _ rfl rfl 7 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 7 slices_S256x200_o0_7_S256x192 p w _ rfl

/-- Tap 8: piece 8 of the nine, the columns 8 to 199. -/
theorem kpatch_apply_8 (x : FVec Ideal S256x200 .f32) (p : Fin 256) (w : Fin 192) :
    kpatch x (ix3 p w (8 : Fin 9)) = x (ix2 p (Cert.Hyper.shift w (8 : Fin 9))) := by
  unfold kpatch
  refine (concatenate_apply_piece (2 : Fin S256x192x9.rank) (kpieces x) concatenates_S256x192x1_S256x192x1_S256x192x1_S256x192x1_S256x192x1_S256x192x1_S256x192x1_S256x192x1_S256x192x1_S256x192x9_d2 (ix3 p w (8 : Fin 9)) 8
    (by show (8 : Nat) < 9; decide)
    S256x192x1 _ rfl rfl 8 rfl (ix3 p w (0 : Fin 1))
    (fun b hb => match b, hb with
      | ⟨0, _⟩, _ => rfl
      | ⟨1, _⟩, _ => rfl
      | ⟨2, _⟩, hb => (hb (Fin.ext rfl)).elim) rfl).trans ?_
  exact piece_apply x 8 slices_S256x200_o0_8_S256x192 p w _ rfl

/-- Patch entry (p, w, j) is the entity row's entry w + j. -/
theorem kpatch_apply (x : FVec Ideal S256x200 .f32) (p : Fin 256) (w : Fin 192) (j : Fin 9) :
    kpatch x (ix3 p w j) = x (ix2 p (Cert.Hyper.shift w j)) :=
  match j with
  | ⟨0, _⟩ => kpatch_apply_0 x p w
  | ⟨1, _⟩ => kpatch_apply_1 x p w
  | ⟨2, _⟩ => kpatch_apply_2 x p w
  | ⟨3, _⟩ => kpatch_apply_3 x p w
  | ⟨4, _⟩ => kpatch_apply_4 x p w
  | ⟨5, _⟩ => kpatch_apply_5 x p w
  | ⟨6, _⟩ => kpatch_apply_6 x p w
  | ⟨7, _⟩ => kpatch_apply_7 x p w
  | ⟨8, _⟩ => kpatch_apply_8 x p w

end Cert.KernelSide

end
-- ==== Proof.KernelSideFeat.lean ====
/-
  The first kernel's convolution features at an index, at the ideal values: the batched contraction of the coefficient
  table with the patches is the valid convolution of each entity row with its sample's own filters; and the flattening
  of the features channel-major.
-/
import proofs.«116633_j47605417509202_2_alg».proof.Proof.Gen.KernelIdeal.Skeleton
import proofs.«116633_j47605417509202_2_alg».proof.Proof.Spec
import proofs.«116633_j47605417509202_2_alg».proof.Proof.KernelSideFilt
import proofs.«116633_j47605417509202_2_alg».proof.Proof.KernelSidePatch
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen Idealize.ShloMosaic Idealize.ShloMosaic.ValueIdx

/-! The operand indices of the batched contraction (batch axis 0; the left operand [256,9,32] contracts its axis 1, the
    right operand [256,192,9] its axis 2; the result is indexed (b, o, w)) at an output index i and a contraction index
    k: the left operand is read at (i 0, k, i 1), the right one at (i 0, i 2, k). -/

theorem feat_lhs_0 (i : S256x32x192.Idx) (k : dot_S256x9x32_S256x192x9_S256x32x192_1_2_2_1_0_0.contr.Idx) :
    (dot_S256x9x32_S256x192x9_S256x32x192_1_2_2_1_0_0.lhsIdx i k 0).val = (i 0).val := by
  unfold DotDims.lhsIdx
  rw [dif_pos (show (0 : Fin S256x9x32.rank) ∈ dot_S256x9x32_S256x192x9_S256x32x192_1_2_2_1_0_0.lhsBatch by decide)]
  rfl
theorem feat_lhs_1 (i : S256x32x192.Idx) (k : dot_S256x9x32_S256x192x9_S256x32x192_1_2_2_1_0_0.contr.Idx) :
    (dot_S256x9x32_S256x192x9_S256x32x192_1_2_2_1_0_0.lhsIdx i k 1).val = (k ⟨0, by decide⟩).val :=
  dot_S256x9x32_S256x192x9_S256x32x192_1_2_2_1_0_0.lhsIdx_val_of_single rfl i k
theorem feat_lhs_2 (i : S256x32x192.Idx) (k : dot_S256x9x32_S256x192x9_S256x32x192_1_2_2_1_0_0.contr.Idx) :
    (dot_S256x9x32_S256x192x9_S256x32x192_1_2_2_1_0_0.lhsIdx i k 2).val = (i 1).val := by
  unfold DotDims.lhsIdx
  rw [dif_neg (show ¬(2 : Fin S256x9x32.rank) ∈ dot_S256x9x32_S256x192x9_S256x32x192_1_2_2_1_0_0.lhsBatch by decide), dif_pos (show (2 : Fin S256x9x32.rank) ∈ dot_S256x9x32_S256x192x9_S256x32x192_1_2_2_1_0_0.lhsNonContracting by decide)]
  rfl
theorem feat_rhs_0 (i : S256x32x192.Idx) (k : dot_S256x9x32_S256x192x9_S256x32x192_1_2_2_1_0_0.contr.Idx) :
    (dot_S256x9x32_S256x192x9_S256x32x192_1_2_2_1_0_0.rhsIdx i k 0).val = (i 0).val := by
  unfold DotDims.rhsIdx
  rw [dif_pos (show (0 : Fin S256x192x9.rank) ∈ dot_S256x9x32_S256x192x9_S256x32x192_1_2_2_1_0_0.rhsBatch by decide)]
  rfl
theorem feat_rhs_1 (i : S256x32x192.Idx) (k : dot_S256x9x32_S256x192x9_S256x32x192_1_2_2_1_0_0.contr.Idx) :
    (dot_S256x9x32_S256x192x9_S256x32x192_1_2_2_1_0_0.rhsIdx i k 1).val = (i 2).val := by
  unfold DotDims.rhsIdx
  rw [dif_neg (show ¬(1 : Fin S256x192x9.rank) ∈ dot_S256x9x32_S256x192x9_S256x32x192_1_2_2_1_0_0.rhsBatch by decide), dif_pos (show (1 : Fin S256x192x9.rank) ∈ dot_S256x9x32_S256x192x9_S256x32x192_1_2_2_1_0_0.rhsNonContracting by decide)]
  rfl
theorem feat_rhs_2 (i : S256x32x192.Idx) (k : dot_S256x9x32_S256x192x9_S256x32x192_1_2_2_1_0_0.contr.Idx) :
    (dot_S256x9x32_S256x192x9_S256x32x192_1_2_2_1_0_0.rhsIdx i k 2).val = (k ⟨0, by decide⟩).val :=
  dot_S256x9x32_S256x192x9_S256x32x192_1_2_2_1_0_0.rhsIdx_val_of_single rfl i k

/-- The batched contraction into the zero accumulator, read at (p, o, w): the sum over the nine taps j of
    lhs (p, j, o) · rhs (p, w, j). -/
theorem feat_dot (a : FVec Ideal S256x9x32 .f32) (b : FVec Ideal S256x192x9 .f32) (p : Fin 256) (o : Fin 32) (w : Fin 192) :
    matmul dot_S256x9x32_S256x192x9_S256x32x192_1_2_2_1_0_0 none a b (constant (F := Ideal) S256x32x192 .f32 0x00000000#32) (ix3 p o w)
      = ∑ j : Fin 9, a (ix3 p j o) * b (ix3 p w j) := by
  simp only [matmul]
  rw [Ideal.matmul_constant_zero_apply, ← Equiv.sum_comp (contrEquiv1 dot_S256x9x32_S256x192x9_S256x32x192_1_2_2_1_0_0 9 rfl rfl).symm]
  refine Finset.sum_congr rfl fun k _ => ?_
  have hk := contrEquiv1_symm_val dot_S256x9x32_S256x192x9_S256x32x192_1_2_2_1_0_0 9 rfl rfl k
  have el : dot_S256x9x32_S256x192x9_S256x32x192_1_2_2_1_0_0.lhsIdx (ix3 p o w) ((contrEquiv1 dot_S256x9x32_S256x192x9_S256x32x192_1_2_2_1_0_0 9 rfl rfl).symm k) = ix3 p k o := funext fun x => Fin.ext (by
    match x with
    | ⟨0, _⟩ => exact feat_lhs_0 _ _
    | ⟨1, _⟩ => exact (feat_lhs_1 _ _).trans hk
    | ⟨2, _⟩ => exact feat_lhs_2 _ _)
  have er : dot_S256x9x32_S256x192x9_S256x32x192_1_2_2_1_0_0.rhsIdx (ix3 p o w) ((contrEquiv1 dot_S256x9x32_S256x192x9_S256x32x192_1_2_2_1_0_0 9 rfl rfl).symm k) = ix3 p w k := funext fun x => Fin.ext (by
    match x with
    | ⟨0, _⟩ => exact feat_rhs_0 _ _
    | ⟨1, _⟩ => exact feat_rhs_1 _ _
    | ⟨2, _⟩ => exact (feat_rhs_2 _ _).trans hk)
  rw [el, er]

/-- The features of a row flattened channel-major: entry (p, q) of the [256,6144] matrix is entry
    (p, q / 192, q % 192) of the [256,32,192] array. -/
theorem flat_cast (x : FVec Ideal S256x32x192 .f32) (p : Fin 256) (q : Fin 6144) :
    shapeCast S256x6144 x shapeCasts_S256x32x192_S256x6144 (ix2 p q) = x (ix3 p (Cert.Hyper.chan q) (Cert.Hyper.pos q)) :=
  shapeCast_apply x shapeCasts_S256x32x192_S256x6144 (ix2 p q) (ix3 p (Cert.Hyper.chan q) (Cert.Hyper.pos q))
    (by rewrite [Shape.rowMajor_val_three, Shape.rowMajor_val_two]
        have hq : q.val < 6144 := q.isLt
        show (p.val * 32 + q.val / 192) * 192 + q.val % 192 = p.val * 6144 + q.val
        omega)

/-- The first kernel's convolution features, as its body computes them: the batched contraction of the coefficient table
    with the patches. -/
def kfeat (v0 v2 : Vec Ideal S256x200 .f32) (v5 : Vec Ideal S200x288 .f32) (v8 : Vec Ideal S1x288 .f32) : FVec Ideal S256x32x192 .f32 :=
  matmul dot_S256x9x32_S256x192x9_S256x32x192_1_2_2_1_0_0 none (kcoef v2 v5 v8)
    (kpatch (shapeCast S256x200 v0 shapeCasts_S256x200_S256x200))
    (constant (F := Ideal) S256x32x192 .f32 0x00000000#32)

/-- Feature (p, o, w) is the specification's convolution of sample p's entity row with its own filters. -/
theorem kfeat_apply (v0 v2 : Vec Ideal S256x200 .f32) (v5 : Vec Ideal S200x288 .f32) (v8 : Vec Ideal S1x288 .f32)
    (p : Fin 256) (o : Fin 32) (w : Fin 192) :
    kfeat v0 v2 v5 v8 (ix3 p o w)
      = Cert.Hyper.feat (fun d => v0 (ix2 p d)) (fun d => v2 (ix2 p d)) v5 (fun c => v8 (ix2 (0 : Fin 1) c)) o w := by
  unfold kfeat
  rw [shapeCast_self]
  refine (feat_dot _ _ p o w).trans ?_
  unfold Cert.Hyper.feat
  refine Finset.sum_congr rfl fun j _ => ?_
  rw [kcoef_apply, kpatch_apply]

end Cert.KernelSide

end
-- ==== Proof.KernelSideHyper.lean ====
/-
  The first kernel's stored value at an index, at the ideal values: the dense layer on the flattened convolution features
  plus its bias, then the rectifier — the specification's hidden vector of the sample.
-/
import proofs.«116633_j47605417509202_2_alg».proof.Proof.Gen.KernelIdeal.Skeleton
import proofs.«116633_j47605417509202_2_alg».proof.Proof.Spec
import proofs.«116633_j47605417509202_2_alg».proof.Proof.KernelSideFeat
import Idealize.ShloMosaic.Lib.Pipeline.Value
import Idealize.ShloMosaic.Lib.ValueIdx
import Idealize.ShloMosaic.PureOps.Ideal.Laws

noncomputable section

open scoped BigOperators

namespace Cert.KernelSide

open Cert.KernelIdeal Cert.KernelIdeal.Gen Idealize.ShloMosaic Idealize.ShloMosaic.ValueIdx

/-! The operand indices of the contraction [256,6144] · [6144,200] at an output index i and a contraction index k:
    the left operand is read at (i 0, k), the right one at (k, i 1). -/

theorem hid_lhs_0 (i : S256x200.Idx) (k : dot_S256x6144_S6144x200_S256x200_1_0_0_1_n_n.contr.Idx) :
    (dot_S256x6144_S6144x200_S256x200_1_0_0_1_n_n.lhsIdx i k 0).val = (i 0).val := by
  unfold DotDims.lhsIdx
  rw [dif_neg (show ¬(0 : Fin S256x6144.rank) ∈ dot_S256x6144_S6144x200_S256x200_1_0_0_1_n_n.lhsBatch by decide), dif_pos (show (0 : Fin S256x6144.rank) ∈ dot_S256x6144_S6144x200_S256x200_1_0_0_1_n_n.lhsNonContracting by decide)]
  rfl
theorem hid_lhs_1 (i : S256x200.Idx) (k : dot_S256x6144_S6144x200_S256x200_1_0_0_1_n_n.contr.Idx) :
    (dot_S256x6144_S6144x200_S256x200_1_0_0_1_n_n.lhsIdx i k 1).val = (k ⟨0, by decide⟩).val :=
  dot_S256x6144_S6144x200_S256x200_1_0_0_1_n_n.lhsIdx_val_of_single rfl i k
theorem hid_rhs_0 (i : S256x200.Idx) (k : dot_S256x6144_S6144x200_S256x200_1_0_0_1_n_n.contr.Idx) :
    (dot_S256x6144_S6144x200_S256x200_1_0_0_1_n_n.rhsIdx i k 0).val = (k ⟨0, by decide⟩).val :=
  dot_S256x6144_S6144x200_S256x200_1_0_0_1_n_n.rhsIdx_val_of_single rfl i k
theorem hid_rhs_1 (i : S256x200.Idx) (k : dot_S256x6144_S6144x200_S256x200_1_0_0_1_n_n.contr.Idx) :
    (dot_S256x6144_S6144x200_S256x200_1_0_0_1_n_n.rhsIdx i k 1).val = (i 1).val := by
  unfold DotDims.rhsIdx
  rw [dif_neg (show ¬(1 : Fin S6144x200.rank) ∈ dot_S256x6144_S6144x200_S256x200_1_0_0_1_n_n.rhsBatch by decide), dif_pos (show (1 : Fin S6144x200.rank) ∈ dot_S256x6144_S6144x200_S256x200_1_0_0_1_n_n.rhsNonContracting by decide)]
  rfl

/-- The contraction into the zero accumulator, read at (p, q): the sum over k of lhs (p, k) · rhs (k, q). -/
theorem hid_dot (a : FVec Ideal S256x6144 .bf16) (b : FVec Ideal S6144x200 .bf16) (p : Fin 256) (q : Fin 200) :
    matmul dot_S256x6144_S6144x200_S256x200_1_0_0_1_n_n none a b (constant (F := Ideal) S256x200 .f32 0x00000000#32) (ix2 p q)
      = ∑ k : Fin 6144, a (ix2 p k) * b (ix2 k q) := by
  simp only [matmul]
  rw [Ideal.matmul_constant_zero_apply, ← Equiv.sum_comp (contrEquiv1 dot_S256x6144_S6144x200_S256x200_1_0_0_1_n_n 6144 rfl rfl).symm]
  refine Finset.sum_congr rfl fun k _ => ?_
  have hk := contrEquiv1_symm_val dot_S256x6144_S6144x200_S256x200_1_0_0_1_n_n 6144 rfl rfl k
  have el : dot_S256x6144_S6144x200_S256x200_1_0_0_1_n_n.lhsIdx (ix2 p q) ((contrEquiv1 dot_S256x6144_S6144x200_S256x200_1_0_0_1_n_n 6144 rfl rfl).symm k) = ix2 p k := funext fun x => Fin.ext (by
    match x with
    | ⟨0, _⟩ => exact hid_lhs_0 _ _
    | ⟨1, _⟩ => exact (hid_lhs_1 _ _).trans hk)
  have er : dot_S256x6144_S6144x200_S256x200_1_0_0_1_n_n.rhsIdx (ix2 p q) ((contrEquiv1 dot_S256x6144_S6144x200_S256x200_1_0_0_1_n_n 6144 rfl rfl).symm k) = ix2 k q := funext fun x => Fin.ext (by
    match x with
    | ⟨0, _⟩ => exact (hid_rhs_0 _ _).trans hk
    | ⟨1, _⟩ => exact hid_rhs_1 _ _)
  rw [el, er]

/-- A [1,200] row broadcast over 256 rows, read at (p, q), is the row at (0, q). -/
theorem hid_bias (y : FVec Ideal S1x200 .f32) (p : Fin 256) (q : Fin 200) :
    broadcastTo S256x200 y broadcasts_S1x200_S256x200 (ix2 p q) = y (ix2 (0 : Fin 1) q) :=
  broadcastTo_apply y broadcasts_S1x200_S256x200 (ix2 p q) (ix2 (0 : Fin 1) q) (fun a => match a with
    | ⟨0, _⟩ => by show 0 = if (1 : Nat) = 1 then 0 else p.val; rw [if_pos rfl]
    | ⟨1, _⟩ => by show q.val = if (200 : Nat) = 1 then 0 else q.val; rw [if_neg (by decide)])

/-- The pre-activation the first kernel's body computes, over the features named above. -/
theorem k0_pay2_eq (v0 v2 : Vec Ideal S256x200 .f32) (v5 : Vec Ideal S200x288 .f32) (v8 : Vec Ideal S1x288 .f32)
    (v35 : Vec Ideal S6144x200 .f32) (v38 : Vec Ideal S1x200 .f32) :
    k0_pay2 (F := Ideal) v0 v2 v5 v8 v35 v38
      = addf (F := Ideal)
          (matmul dot_S256x6144_S6144x200_S256x200_1_0_0_1_n_n none
            (truncf (F := Ideal) .bf16 (shapeCast S256x6144 (kfeat v0 v2 v5 v8) shapeCasts_S256x32x192_S256x6144) bitsLt_bf16_f32)
            (truncf (F := Ideal) .bf16 v35 bitsLt_bf16_f32)
            (constant (F := Ideal) S256x200 .f32 0x00000000#32))
          (broadcastTo S256x200 (shapeCast S1x200 v38 shapeCasts_S1x200_S1x200) broadcasts_S1x200_S256x200) := rfl

/-- The zero vector the rectifier compares with. -/
theorem k0_pay3_apply (i : S256x200.Idx) : k0_pay3 (F := Ideal) i = 0 := by
  show Ideal.ofBits .f32 0x00000000#32 = 0
  exact Ideal.ofBits_zero_f32

/-- What the first kernel stores, at (p, q): the specification's hidden vector of sample p, at q. -/
theorem hyper_pay (v0 v2 : Vec Ideal S256x200 .f32) (v5 : Vec Ideal S200x288 .f32) (v8 : Vec Ideal S1x288 .f32)
    (v35 : Vec Ideal S6144x200 .f32) (v38 : Vec Ideal S1x200 .f32) (p : Fin 256) (q : Fin 200) :
    k0_pay1 (F := Ideal) (k0_pay2 (F := Ideal) v0 v2 v5 v8 v35 v38) (k0_pay3 (F := Ideal)) (ix2 p q)
      = Cert.Hyper.hid (fun d => v0 (ix2 p d)) (fun d => v2 (ix2 p d)) v5 (fun c => v8 (ix2 (0 : Fin 1) c)) v35
          (fun d => v38 (ix2 (0 : Fin 1) d)) q := by
  unfold k0_pay1
  refine (maximumf_apply _ _ _).trans ?_
  rw [k0_pay3_apply, k0_pay2_eq]
  unfold Cert.Hyper.hid
  refine congrArg (fun t => max t 0) ?_
  refine (addf_apply _ _ _).trans ?_
  rw [hid_dot, hid_bias, shapeCast_self]
  refine congrArg (fun t => t + v38 (ix2 (0 : Fin 1) q)) ?_
  refine Finset.sum_congr rfl fun k _ => ?_
  rw [truncf_apply, truncf_apply, flat_cast, kfeat_apply]

end Cert.KernelSide

end
-- ==== Proof.IdealVal0.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import proofs.«116633_j47605417509202_2_alg».proof.Proof.IdealR0
import proofs.«116633_j47605417509202_2_alg».proof.Proof.KernelSideHyper
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

/-! # What the first region leaves in its result array: the hidden vector of every sample

Point `t` of the grid handles samples `256 t … 256 t + 255`: the two gathered row matrices and the result move in
blocks of 256 rows, the four parameter arrays are one block each. The body's arithmetic on a block is, row by row,
the hidden vector of that row's sample; so the result array ends holding the hidden vector of every sample. -/

variable (V : (c : Dev nD) → (b : Ref sig .tc) → Buf (Elt Ideal) ((c : Thread nD τ).loc b))

/-- The hidden matrix from the gathered entity rows `e1`, the gathered relation rows `r` and the parameters (the two
    bias vectors as rows). -/
def hidden (e1 r : FVec Ideal S1024x200 .f32) (W1 : FVec Ideal S200x288 .f32) (b1 : FVec Ideal S1x288 .f32)
    (W2 : FVec Ideal S6144x200 .f32) (b2 : FVec Ideal S1x200 .f32) : FVec Ideal S1024x200 .f32 :=
  fun i => Cert.Hyper.hid (fun d => e1 (ix2 (⟨(i 0).val, idx2_lt0 i⟩ : Fin 1024) d)) (fun d => r (ix2 (⟨(i 0).val, idx2_lt0 i⟩ : Fin 1024) d))
    W1 (fun c => b1 (ix2 (0 : Fin 1) c)) W2 (fun d => b2 (ix2 (0 : Fin 1) d)) (⟨(i 1).val, idx2_lt1 i⟩ : Fin 200)

theorem hidden_at (e1 r : FVec Ideal S1024x200 .f32) (W1 : FVec Ideal S200x288 .f32) (b1 : FVec Ideal S1x288 .f32)
    (W2 : FVec Ideal S6144x200 .f32) (b2 : FVec Ideal S1x200 .f32) (n : Fin 1024) (q : Fin 200) :
    hidden e1 r W1 b1 W2 b2 (ix2 n q) = Cert.Hyper.hid (fun d => e1 (ix2 n d)) (fun d => r (ix2 n d))
      W1 (fun c => b1 (ix2 (0 : Fin 1) c)) W2 (fun d => b2 (ix2 (0 : Fin 1) d)) q := rfl

/-- The block indices over the grid: the row matrices and the result move down their rows one block per point; each
    parameter array is one block. -/
theorem idx0 : ∀ t : Fin cfg0.N, t.val < 4
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, t.val < 4
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0)

/-- An entry of the entity rows' block at point `t` is the entry `256 t` rows further down. -/
theorem blk0_0_at (c : Dev nD) (t : Fin cfg0.N) (p : Fin 256) (d : Fin 200) (n : Fin 1024) (hn : n.val = t.val * 256 + p.val) :
    iblk0 V c 0 t (ix2 p d) = V c main_v6 (ix2 n d) := by
  obtain ⟨-, i00, i01, -⟩ := idx0 t
  show V c main_v6 (((cfg0.win 0).blk t).view.emb (ix2 p d)) = V c main_v6 (ix2 n d)
  refine congrArg _ (funext fun a => Fin.ext ?_)
  match a with
  | ⟨0, _⟩ => show win0_0.index t (0 : Fin 2) * 256 + 1 * p.val = n.val; omega
  | ⟨1, _⟩ => show win0_0.index t (1 : Fin 2) * 200 + 1 * d.val = d.val; omega
/-- The same for the relation rows. -/
theorem blk0_1_at (c : Dev nD) (t : Fin cfg0.N) (p : Fin 256) (d : Fin 200) (n : Fin 1024) (hn : n.val = t.val * 256 + p.val) :
    iblk0 V c 1 t (ix2 p d) = V c main_v13 (ix2 n d) := by
  obtain ⟨-, -, -, i10, i11, -⟩ := idx0 t
  show V c main_v13 (((cfg0.win 1).blk t).view.emb (ix2 p d)) = V c main_v13 (ix2 n d)
  refine congrArg _ (funext fun a => Fin.ext ?_)
  match a with
  | ⟨0, _⟩ => show win0_1.index t (0 : Fin 2) * 256 + 1 * p.val = n.val; omega
  | ⟨1, _⟩ => show win0_1.index t (1 : Fin 2) * 200 + 1 * d.val = d.val; omega
/-- Each parameter array's one block is the array. -/
theorem blk0_2 (c : Dev nD) (t : Fin cfg0.N) : (iblk0 V c 2 t : Vec Ideal S200x288 .f32) = V c main_arg2 := by
  obtain ⟨-, -, -, -, -, i20, i21, -⟩ := idx0 t
  funext y
  show V c main_arg2 (((cfg0.win 2).blk t).view.emb y) = V c main_arg2 y
  refine congrArg _ (funext fun a => Fin.ext ?_)
  match a with
  | ⟨0, _⟩ => show win0_2.index t (0 : Fin 2) * 200 + 1 * (y 0).val = (y 0).val; omega
  | ⟨1, _⟩ => show win0_2.index t (1 : Fin 2) * 288 + 1 * (y 1).val = (y 1).val; omega
theorem blk0_3 (c : Dev nD) (t : Fin cfg0.N) : (iblk0 V c 3 t : Vec Ideal S1x288 .f32) = V c main_v14 := by
  obtain ⟨-, -, -, -, -, -, -, i30, i31, -⟩ := idx0 t
  funext y
  show V c main_v14 (((cfg0.win 3).blk t).view.emb y) = V c main_v14 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 288 + 1 * (y 1).val = (y 1).val; omega
theorem blk0_4 (c : Dev nD) (t : Fin cfg0.N) : (iblk0 V c 4 t : Vec Ideal S6144x200 .f32) = V c main_arg4 := by
  obtain ⟨-, -, -, -, -, -, -, -, -, i40, i41, -⟩ := idx0 t
  funext y
  show V c main_arg4 (((cfg0.win 4).blk t).view.emb y) = V c main_arg4 y
  refine congrArg _ (funext fun a => Fin.ext ?_)
  match a with
  | ⟨0, _⟩ => show win0_4.index t (0 : Fin 2) * 6144 + 1 * (y 0).val = (y 0).val; omega
  | ⟨1, _⟩ => show win0_4.index t (1 : Fin 2) * 200 + 1 * (y 1).val = (y 1).val; omega
theorem blk0_5 (c : Dev nD) (t : Fin cfg0.N) : (iblk0 V c 5 t : Vec Ideal S1x200 .f32) = V c main_v15 := by
  obtain ⟨-, -, -, -, -, -, -, -, -, -, -, i50, i51, -⟩ := idx0 t
  funext y
  show V c main_v15 (((cfg0.win 5).blk t).view.emb y) = V c main_v15 y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 200 + 1 * (y 1).val = (y 1).val; omega

/-- WHAT POINT `t` WRITES BACK is block `t` of the hidden matrix. -/
theorem flushed0_6_eq (c : Dev nD) (t : Fin cfg0.N) :
    (dat0 V c).flushed 6 t = ((cfg0.win 6).blk t).view.read (Elt Ideal)
      (hidden (V c main_v6) (V c main_v13) (V c main_arg2) (V c main_v14) (V c main_arg4) (V c main_v15)) := by
  show (cfg0.win 6).cut (grid0.coords t) ((dat0 V c).after 6 t) = _
  rw [after0_6, out0_6_eq, blk0_2, blk0_3, blk0_4, blk0_5]
  obtain ⟨ht, -, -, -, -, -, -, -, -, -, -, -, -, i60, i61⟩ := idx0 t
  funext j
  have hj0 : (j 0).val < 256 := (j 0).isLt
  have hj1 : (j 1).val < 200 := (j 1).isLt
  have e : win0_6.xinj (grid0.coords t) j = ix2 (⟨(j 0).val, hj0⟩ : Fin 256) (⟨(j 1).val, hj1⟩ : Fin 200) :=
    funext fun a => Fin.ext (by match a with | ⟨0, _⟩ => rfl | ⟨1, _⟩ => rfl)
  have e6 : ((cfg0.win 6).blk t).view.emb j = ix2 (⟨t.val * 256 + (j 0).val, by omega⟩ : Fin 1024) (⟨(j 1).val, hj1⟩ : Fin 200) := by
    refine funext fun a => Fin.ext ?_
    match a with
    | ⟨0, _⟩ => show win0_6.index t (0 : Fin 2) * 256 + 1 * (j 0).val = t.val * 256 + (j 0).val; omega
    | ⟨1, _⟩ => show win0_6.index t (1 : Fin 2) * 200 + 1 * (j 1).val = (j 1).val; omega
  show k0_pay1 (F := Ideal) (k0_pay2 (F := Ideal) _ _ _ _ _ _) (k0_pay3 (F := Ideal)) (win0_6.xinj (grid0.coords t) j) = hidden _ _ _ _ _ _ (((cfg0.win 6).blk t).view.emb j)
  rw [e, e6, Cert.KernelSide.hyper_pay, hidden_at]
  rw [show (fun d => iblk0 V c 0 t (ix2 (⟨(j 0).val, hj0⟩ : Fin 256) d)) = fun d => V c main_v6 (ix2 (⟨t.val * 256 + (j 0).val, by omega⟩ : Fin 1024) d) from
      funext fun d => blk0_0_at V c t _ d _ rfl,
    show (fun d => iblk0 V c 1 t (ix2 (⟨(j 0).val, hj0⟩ : Fin 256) d)) = fun d => V c main_v13 (ix2 (⟨t.val * 256 + (j 0).val, by omega⟩ : Fin 1024) d) from
      funext fun d => blk0_1_at V c t _ d _ rfl]

/-- An index of the array is in point `t`'s block iff its row is among the block's rows. -/
theorem mem_blk0_6 (t : Fin cfg0.N) (i : S1024x200.Idx) :
    i ∈ ((cfg0.win 6).blk t).view.set ↔ ∀ a : Fin 2, win0_6.index t a * S256x200.size a ≤ (i a).val ∧ (i a).val < win0_6.index t a * S256x200.size a + S256x200.size a := by
  show i ∈ ((View.whole main_v16).slice (win0_6.rect t)).set ↔ _
  rw [View.set_slice_whole, Rect.mem_set_unit]
  exact Iff.rfl

/-- The four blocks cover the array: row `n` is in the block of point `n / 256`. -/
theorem cover0_arr (i : S1024x200.Idx) : ∃ t : Fin cfg0.N, (cfg0.win 6).flush t = true ∧ i ∈ ((cfg0.win 6).blk t).view.set := by
  have hi0 : (i 0).val < 1024 := idx2_lt0 i
  have hi1 : (i 1).val < 200 := idx2_lt1 i
  have hN : cfg0.N = 4 := N_0
  let t : Fin cfg0.N := ⟨(i 0).val / 256, by rw [hN]; omega⟩
  have ht : t.val = (i 0).val / 256 := rfl
  obtain ⟨-, -, -, -, -, -, -, -, -, -, -, -, -, i60, i61⟩ := idx0 t
  refine ⟨t, flush0_6 t, (mem_blk0_6 t i).mpr fun a => ?_⟩
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 200 ≤ (i 1).val ∧ (i 1).val < win0_6.index t (1 : Fin 2) * 200 + 200; omega

/-- THE RESULT ARRAY after the region: the hidden matrix. -/
theorem final0 (c : Dev nD) : (dat0 V c).arrAt 6 cfg0.N
    = hidden (V c main_v6) (V c main_v13) (V c main_arg2) (V c main_v14) (V c main_arg4) (V c main_v15) :=
  (dat0 V c).arrAt_eq_of_cover 6 _ (fun t _ => flushed0_6_eq V c t) cover0_arr

end Cert.KernelIdeal.Hand

end
-- ==== Proof.IdealVal1.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import proofs.«116633_j47605417509202_2_alg».proof.Proof.IdealR1Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

/-! # What the second region leaves in the result array: every entity's score for every sample

Point `t` of the grid writes back columns `4096 t … 4096 t + 4095` of the result, cut at column 40943; the entry at row
`p` and column `4096 t + q` is `Σ_d h (p, d) · E (4096 t + q, d) + bias (4096 t + q)`: the table's block at point `t` is
rows `4096 t …` of the table, the bias's block the same columns of the bias. The ten blocks cover the array. -/

variable (V : (c : Dev nD) → (b : Ref sig .tc) → Buf (Elt Ideal) ((c : Thread nD τ).loc b))

/-- The scores of all entities for all samples, from the hidden matrix, the entity table and the bias (as a row). -/
def scores (h : FVec Ideal S1024x200 .f32) (E : FVec Ideal S40943x200 .f32) (bias : FVec Ideal S1x40943 .f32) : FVec Ideal S1024x40943 .f32 :=
  fun i => Cert.Hyper.logit (fun d => h (ix2 (⟨(i 0).val, idx2_lt0 i⟩ : Fin 1024) d)) E (fun n => bias (ix2 (0 : Fin 1) n)) (⟨(i 1).val, idx2_lt1 i⟩ : Fin 40943)

theorem scores_at (h : FVec Ideal S1024x200 .f32) (E : FVec Ideal S40943x200 .f32) (bias : FVec Ideal S1x40943 .f32) (p : Fin 1024) (n : Fin 40943) :
    scores h E bias (ix2 p n) = (∑ d : Fin 200, h (ix2 p d) * E (ix2 n d)) + bias (ix2 (0 : Fin 1) n) := rfl

/-- The block indices over the grid: the hidden matrix is one block; the table moves down its rows, the bias and the
    result along their columns, one block per point. -/
theorem idx1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val)

/-- The cut blocks end inside the array: `4096 t` plus the number of columns kept is at most 40943; and it is
    exactly `min 4096 (40943 − 4096 t)`. -/
theorem cut_end : ∀ t : Fin cfg1.N, t.val * 4096 + win1_3.xsize (grid1.coords t) 1 ≤ 40943
    ∧ (t.val * 4096 + 4096 ≤ 40943 → win1_3.xsize (grid1.coords t) 1 = 4096)
    ∧ (40943 < t.val * 4096 + 4096 → t.val * 4096 + win1_3.xsize (grid1.coords t) 1 = 40943) :=
  (by decide +kernel : ∀ t : Fin grid1.N, t.val * 4096 + win1_3.xsize (grid1.coords t) 1 ≤ 40943
    ∧ (t.val * 4096 + 4096 ≤ 40943 → win1_3.xsize (grid1.coords t) 1 = 4096)
    ∧ (40943 < t.val * 4096 + 4096 → t.val * 4096 + win1_3.xsize (grid1.coords t) 1 = 40943))

/-- Where the transfer moves an index, a filled block holds the moved part there. -/
theorem fill_moved {G : Pipeline.Grid} (w : Pipeline.Window sig G) {α : Type} (i : G.Coords) (d : w.block.Idx → α)
    (g : (w.xblock i).Idx → α) (j : w.block.Idx) (h : w.moved i j = true) :
    w.fill i d g j = g (fun a => ⟨(j a).val, (w.moved_iff i j).mp h a⟩) := by
  unfold Pipeline.Window.fill; rw [dif_pos h]

/-- An entry of the hidden matrix's one block is the matrix's entry. -/
theorem blk1_0_at (c : Dev nD) (t : Fin cfg1.N) (p : Fin 1024) (dd : Fin 200) :
    iblk1 V c 0 t (ix2 p dd) = V c main_v16 (ix2 p dd) := by
  obtain ⟨i00, i01, -⟩ := idx1 t
  show V c main_v16 (((cfg1.win 0).blk t).view.emb (ix2 p dd)) = V c main_v16 (ix2 p dd)
  refine congrArg _ (funext fun a => Fin.ext ?_)
  match a with
  | ⟨0, _⟩ => show win1_0.index t (0 : Fin 2) * 1024 + 1 * p.val = p.val; omega
  | ⟨1, _⟩ => show win1_0.index t (1 : Fin 2) * 200 + 1 * dd.val = dd.val; omega

/-- An entry of the table's block at point `t` is the table's entry `4096 t` rows further down. -/
theorem blk1_1_at (c : Dev nD) (t : Fin cfg1.N) (y : (win1_1.xblock (grid1.coords t)).Idx) (n : Fin 40943) (dd : Fin 200)
    (hn : n.val = t.val * 4096 + (y 0).val) (hd : dd.val = (y 1).val) :
    iblk1 V c 1 t y = V c main_arg7 (ix2 n dd) := by
  obtain ⟨-, -, i10, i11, -⟩ := idx1 t
  show V c main_arg7 (((cfg1.win 1).blk t).view.emb y) = V c main_arg7 (ix2 n dd)
  refine congrArg _ (funext fun a => Fin.ext ?_)
  match a with
  | ⟨0, _⟩ => show win1_1.index t (0 : Fin 2) * 4096 + 1 * (y 0).val = n.val; omega
  | ⟨1, _⟩ => show win1_1.index t (1 : Fin 2) * 200 + 1 * (y 1).val = dd.val; omega

/-- An entry of the bias's block at point `t` is the bias's entry `4096 t` columns further along. -/
theorem blk1_2_at (c : Dev nD) (t : Fin cfg1.N) (y : (win1_2.xblock (grid1.coords t)).Idx) (n : Fin 40943)
    (hn : n.val = t.val * 4096 + (y 1).val) :
    iblk1 V c 2 t y = V c main_v17 (ix2 (0 : Fin 1) n) := by
  obtain ⟨-, -, -, -, i20, i21, -⟩ := idx1 t
  have hy0 : (y 0).val < win1_2.xsize (grid1.coords t) 0 := (y 0).isLt
  obtain ⟨-, -, h20, -⟩ := cuts t
  show V c main_v17 (((cfg1.win 2).blk t).view.emb y) = V c main_v17 (ix2 (0 : Fin 1) n)
  refine congrArg _ (funext fun a => Fin.ext ?_)
  match a with
  | ⟨0, _⟩ => show win1_2.index t (0 : Fin 2) * 1 + 1 * (y 0).val = 0; omega
  | ⟨1, _⟩ => show win1_2.index t (1 : Fin 2) * 4096 + 1 * (y 1).val = n.val; omega

/-- An index of the result's block at point `t` sits in the array `4096 t` columns further along. -/
theorem emb1_3_at (t : Fin cfg1.N) (j : (win1_3.xblock (grid1.coords t)).Idx) (p : Fin 1024) (n : Fin 40943)
    (hp : p.val = (j 0).val) (hn : n.val = t.val * 4096 + (j 1).val) :
    ((cfg1.win 3).blk t).view.emb j = ix2 p n := by
  obtain ⟨-, -, -, -, -, -, i30, i31⟩ := idx1 t
  refine funext fun a => Fin.ext ?_
  match a with
  | ⟨0, _⟩ => show win1_3.index t (0 : Fin 2) * 1024 + 1 * (j 0).val = p.val; omega
  | ⟨1, _⟩ => show win1_3.index t (1 : Fin 2) * 4096 + 1 * (j 1).val = n.val; omega

/-- WHAT POINT `t` WRITES BACK is block `t` of the scores, cut at the array's end. -/
theorem flushed1_3_eq (c : Dev nD) (t : Fin cfg1.N) :
    (dat1 V c).flushed 3 t = ((cfg1.win 3).blk t).view.read (Elt Ideal) (scores (V c main_v16) (V c main_arg7) (V c main_v17)) := by
  show (cfg1.win 3).cut (grid1.coords t) ((dat1 V c).after 3 t) = _
  rw [after1_3, out1_3_eq]
  obtain ⟨h10, h11, h20, h21, h30, h31⟩ := cuts t
  obtain ⟨hend, -, -⟩ := cut_end t
  funext j
  have hj0 : (j 0).val < win1_3.xsize (grid1.coords t) 0 := (j 0).isLt
  have hj1 : (j 1).val < win1_3.xsize (grid1.coords t) 1 := (j 1).isLt
  have e := xinj3_eq t j ⟨(j 0).val, by omega⟩ ⟨(j 1).val, by omega⟩ rfl rfl
  have e3 := emb1_3_at t j ⟨(j 0).val, by omega⟩ ⟨t.val * 4096 + (j 1).val, by omega⟩ rfl rfl
  show k1_pay1 (F := Ideal) _ _ _ (win1_3.xinj (grid1.coords t) j) = scores _ _ _ (((cfg1.win 3).blk t).view.emb j)
  rw [e, e3, Cert.KernelSide.final_pay, scores_at]
  refine congrArg₂ (· + ·) (Finset.sum_congr rfl fun dd _ => congrArg₂ (· * ·) (blk1_0_at V c t _ dd) ?_) ?_
  · have hm : win1_1.moved (grid1.coords t) (ix2 (⟨(j 1).val, by omega⟩ : Fin 4096) dd) = true := (win1_1.moved_iff _ _).mpr fun a => by
      match a with
      | ⟨0, _⟩ => show (j 1).val < win1_1.xsize (grid1.coords t) 0; omega
      | ⟨1, _⟩ => show dd.val < win1_1.xsize (grid1.coords t) 1; have := dd.isLt; omega
    exact (fill_moved win1_1 _ _ _ _ hm).trans (blk1_1_at V c t _ _ dd rfl rfl)
  · have hm : win1_2.moved (grid1.coords t) (ix2 (0 : Fin 1) (⟨(j 1).val, by omega⟩ : Fin 4096)) = true := (win1_2.moved_iff _ _).mpr fun a => by
      match a with
      | ⟨0, _⟩ => show (0 : Nat) < win1_2.xsize (grid1.coords t) 0; omega
      | ⟨1, _⟩ => show (j 1).val < win1_2.xsize (grid1.coords t) 1; omega
    exact (fill_moved win1_2 _ _ _ _ hm).trans (blk1_2_at V c t _ _ rfl)

/-- An index of the array is in point `t`'s block iff its column is among the block's columns inside the array. -/
theorem mem_blk1_3 (t : Fin cfg1.N) (i : S1024x40943.Idx) :
    i ∈ ((cfg1.win 3).blk t).view.set ↔ ∀ a : Fin 2, win1_3.index t a * S1024x4096.size a ≤ (i a).val ∧ (i a).val < win1_3.index t a * S1024x4096.size a + win1_3.xsize (grid1.coords t) a := by
  show i ∈ ((View.whole main_v18).slice (win1_3.rect t)).set ↔ _
  rw [View.set_slice_whole, Rect.mem_set_unit]
  exact Iff.rfl

/-- The ten blocks cover the array: column `n` is in the block of point `n / 4096`. -/
theorem cover1_3_arr (i : S1024x40943.Idx) : ∃ t : Fin cfg1.N, (cfg1.win 3).flush t = true ∧ i ∈ ((cfg1.win 3).blk t).view.set := by
  have hi0 : (i 0).val < 1024 := idx2_lt0 i
  have hi1 : (i 1).val < 40943 := idx2_lt1 i
  have hN : cfg1.N = 10 := N_1
  let t : Fin cfg1.N := ⟨(i 1).val / 4096, by rw [hN]; omega⟩
  have ht : t.val = (i 1).val / 4096 := rfl
  obtain ⟨-, -, -, -, -, -, i30, i31⟩ := idx1 t
  obtain ⟨-, -, -, -, h30, -⟩ := cuts t
  obtain ⟨hend, hfull, hlast⟩ := cut_end t
  refine ⟨t, flush1_3 t, (mem_blk1_3 t i).mpr fun a => ?_⟩
  match a with
  | ⟨0, _⟩ => show win1_3.index t (0 : Fin 2) * 1024 ≤ (i 0).val ∧ (i 0).val < win1_3.index t (0 : Fin 2) * 1024 + win1_3.xsize (grid1.coords t) 0; omega
  | ⟨1, _⟩ =>
    show win1_3.index t (1 : Fin 2) * 4096 ≤ (i 1).val ∧ (i 1).val < win1_3.index t (1 : Fin 2) * 4096 + win1_3.xsize (grid1.coords t) 1
    by_cases hc : t.val * 4096 + 4096 ≤ 40943
    · have := hfull hc; omega
    · have := hlast (by omega); omega

/-- THE RESULT ARRAY after the region: the scores. -/
theorem final1 (c : Dev nD) : (dat1 V c).arrAt 3 cfg1.N = scores (V c main_v16) (V c main_arg7) (V c main_v17) :=
  (dat1 V c).arrAt_eq_of_cover 3 _ (fun t _ => flushed1_3_eq V c t) (cover1_3_arr)

end Cert.KernelIdeal.Hand

end
-- ==== Proof.RefFilt.lean ====
/-
  The reference's filter stage read at an index.

  For a sample `b` with relation row `r d = v13 (b, d)`: the dense layer `v14 (b, c) = Σ_d r d · W1 (d, c)`, the bias
  `v17 (b, c) = v14 (b, c) + b1 c`, and the reshape to a 9 × 32 table, `v18 (b, j, o) = v17 (b, 32 j + o)`, which is the
  specification's filter coefficient of tap `j` and channel `o`.
-/
import proofs.«116633_j47605417509202_2_alg».proof.Proof.Gen.ReferenceIdeal.Read
import proofs.«116633_j47605417509202_2_alg».proof.Proof.Spec

noncomputable section

open scoped BigOperators

namespace Cert.RefSide

open Cert.ReferenceIdeal Cert.ReferenceIdeal.Read Idealize.ShloMosaic Idealize.ShloMosaic.ValueIdx

variable (x1 : (⟨S1024, .i32⟩ : BufTy).Contents (Elt Ideal)) (x2 : (⟨S200x288, .f32⟩ : BufTy).Contents (Elt Ideal))
  (x3 : (⟨S288, .f32⟩ : BufTy).Contents (Elt Ideal)) (x8 : (⟨S18x200, .f32⟩ : BufTy).Contents (Elt Ideal))

/-- The dense layer at `(b, c)`: the sum over the relation row's 200 entries. -/
theorem v14_at (b : Fin 1024) (c : Fin 288) :
    val_main_v14 (F := Ideal) x1 x2 x8 (ix2 b c)
      = ∑ d : Fin 200, val_main_v13 (F := Ideal) x1 x8 (ix2 b d) * x2 (ix2 d c) := by
  refine (val_main_v14_apply x1 x2 x8 (ix2 b c)).trans ?_
  refine Finset.sum_congr rfl fun k _ => ?_
  have el : lidx_main_v14 (ix2 b c) k = ix2 b k := funext fun a => Fin.ext (by
    match a with
    | ⟨0, _⟩ => rfl
    | ⟨1, _⟩ => rfl)
  have er : ridx_main_v14 (ix2 b c) k = ix2 k c := funext fun a => Fin.ext (by
    match a with
    | ⟨0, _⟩ => rfl
    | ⟨1, _⟩ => rfl)
  rw [el, er]

/-- The broadcast bias at `(b, c)` is `b1 c`. -/
theorem v16_at (b : Fin 1024) (c : Fin 288) :
    val_main_v16 (F := Ideal) x3 (ix2 b c) = x3 (ix1 c) := by
  refine (val_main_v16_apply x3 (ix2 b c)).trans ?_
  refine (val_main_v15_apply x3 _).trans ?_
  refine congrArg x3 ?_
  funext a
  match a with
  | ⟨0, _⟩ => rfl

/-- Dense layer plus bias at `(b, c)`: the specification's filter coefficient `c` of sample `b`. -/
theorem v17_at (b : Fin 1024) (c : Fin 288) :
    val_main_v17 (F := Ideal) x1 x2 x3 x8 (ix2 b c)
      = Cert.Hyper.filt (fun d => val_main_v13 (F := Ideal) x1 x8 (ix2 b d)) x2 (fun c => x3 (ix1 c)) c := by
  unfold Cert.Hyper.filt
  refine (val_main_v17_apply x1 x2 x3 x8 (ix2 b c)).trans ?_
  show val_main_v14 (F := Ideal) x1 x2 x8 (ix2 b c) + val_main_v16 (F := Ideal) x3 (ix2 b c) = _
  rw [v14_at, v16_at]

/-- The reshape to `[1024, 9, 32]` reads `(b, j, o)` at `(b, 32 j + o)`: tap `j`, channel `o`. -/
theorem v18_at (b : Fin 1024) (j : Fin 9) (o : Fin 32) :
    val_main_v18 (F := Ideal) x1 x2 x3 x8 (ix3 b j o)
      = Cert.Hyper.filt (fun d => val_main_v13 (F := Ideal) x1 x8 (ix2 b d)) x2 (fun c => x3 (ix1 c)) (Cert.Hyper.tap j o) := by
  refine (val_main_v18_apply x1 x2 x3 x8 (ix3 b j o)).trans ?_
  have e : idx_main_v18 (ix3 b j o) = ix2 b (Cert.Hyper.tap j o) := funext fun a => Fin.ext (by
    have hb := b.isLt
    have hj := j.isLt
    have ho := o.isLt
    match a with
    | ⟨0, _⟩ =>
      show ((b.val * 9 + j.val) * 32 + o.val) / 288 = b.val
      omega
    | ⟨1, _⟩ =>
      show ((b.val * 9 + j.val) * 32 + o.val) % 288 = j.val * 32 + o.val
      omega)
  rw [e]
  exact v17_at x1 x2 x3 x8 b (Cert.Hyper.tap j o)

end Cert.RefSide

end
-- ==== Proof.RefPatch.lean ====
/-
  The reference's patches read at an index.

  The start indices are `idx (w, j) = w + j` for `w < 192`, `j < 9`, computed on 32-bit words; since `0 ≤ w + j ≤ 199`
  the signed test `idx < 0` fails and the index normalisation keeps `w + j`. The gather reads, for each sample `b`, the
  entity row at the start index clamped into `[0, 199]`, where the clamp is the identity:
  `v32 (b, w, j) = v6 (b, w + j)`.
-/
import proofs.«116633_j47605417509202_2_alg».proof.Proof.Gen.ReferenceIdeal.Read
import proofs.«116633_j47605417509202_2_alg».proof.Proof.Spec
import Idealize.ShloMosaic.Lib.WordArith

noncomputable section

open scoped BigOperators

namespace Cert.RefSide

open Cert.ReferenceIdeal Cert.ReferenceIdeal.Gen Cert.ReferenceIdeal.Read Idealize.ShloMosaic Idealize.ShloMosaic.ValueIdx

/-- The position word at `(w, j)`: the 32-bit word of `w`. -/
theorem v23_at (w : Fin 192) (t : Fin 9) :
    val_main_v23 (F := Ideal) (ix2 w t) = BitVec.ofNat 32 w.val := by
  refine (val_main_v23_apply _).trans ?_
  refine (val_main_v20_apply _).trans ?_
  refine (val_main_v19_apply _).trans ?_
  rfl

/-- The tap word at `(w, j)`: the 32-bit word of `j`. -/
theorem v24_at (w : Fin 192) (t : Fin 9) :
    val_main_v24 (F := Ideal) (ix2 w t) = BitVec.ofNat 32 t.val := by
  refine (val_main_v24_apply _).trans ?_
  refine (val_main_v22_apply _).trans ?_
  refine (val_main_v21_apply _).trans ?_
  rfl

/-- Their sum is the word of `w + j`. -/
theorem v25_at (w : Fin 192) (t : Fin 9) :
    val_main_v25 (F := Ideal) (ix2 w t) = BitVec.ofNat 32 (w.val + t.val) := by
  refine (val_main_v25_apply _).trans ?_
  rw [v23_at, v24_at]
  show BitVec.ofNat 32 w.val + BitVec.ofNat 32 t.val = _
  exact (BitVec.ofNat_add _ _).symm

/-- `w + j` is not negative as a signed word, so the normalisation keeps it. -/
theorem v30_at (w : Fin 192) (t : Fin 9) :
    val_main_v30 (F := Ideal) (ix2 w t) = BitVec.ofNat 32 (w.val + t.val) := by
  refine (val_main_v30_apply _).trans ?_
  rw [val_main_v27_apply, v25_at, val_main_v26_apply, val_main_c_3_apply]
  have hw := w.isLt
  have ht := t.isLt
  have hlt : (BitVec.ofNat 32 (w.val + t.val)).slt 0#32 = false := by
    simp only [BitVec.slt, BitVec.toInt_zero, decide_eq_false_iff_not, Int.not_lt]
    rw [WordArith.toInt_ofNat_small _ (by omega)]
    omega
  show (if BitVec.ofBool ((BitVec.ofNat 32 (w.val + t.val)).slt 0#32) = 1 then _ else _) = _
  rw [hlt]
  rfl

/-- The start index of `(w, j)`: the word of `w + j`. -/
theorem v31_at (w : Fin 192) (t : Fin 9) :
    val_main_v31 (F := Ideal) (ix3 w t (0 : Fin 1)) = BitVec.ofNat 32 (w.val + t.val) := by
  refine (val_main_v31_apply _).trans ?_
  have e : idx_main_v31 (ix3 w t (0 : Fin 1)) = ix2 w t := funext fun a => Fin.ext (by
    match a with
    | ⟨0, _⟩ => rfl
    | ⟨1, _⟩ => rfl)
  rw [e]
  exact v30_at w t

/-- The patches gather read at `(b, w, j)`, for any operand and any start indices: sample `b`'s row at the start index
    of `(w, j)`, read signed and clamped into `[0, 199]`. On the operand's first axis the whole extent is one slice, so
    the coordinate is the result's offset coordinate `b`; the second axis is collapsed and carries the clamped start. -/
theorem gather_patch_apply {α : Type} (x : S1024x200.Idx → α) (idx : IVec S192x9x1 32) (b : Fin 1024) (w : Fin 192) (t : Fin 9) :
    Host.gather gather_S1024x200_S192x9x1_S1024x192x9_0_1_n_n_1_2_10241 x idx (ix3 b w t)
      = x (ix2 b ⟨min (idx (ix3 w t (0 : Fin 1))).toInt.toNat 199, by omega⟩) := by
  unfold Host.gather
  refine congrArg x ?_
  funext a
  refine Fin.ext ?_
  match a with
  | ⟨0, _⟩ =>
    show gather_S1024x200_S192x9x1_S1024x192x9_0_1_n_n_1_2_10241.start (ix3 b w t) idx 0
      + gather_S1024x200_S192x9x1_S1024x192x9_0_1_n_n_1_2_10241.batchCoord (ix3 b w t) 0
      + gather_S1024x200_S192x9x1_S1024x192x9_0_1_n_n_1_2_10241.offCoord (ix3 b w t) 0 = b.val
    rw [GatherDims.batchCoord_eq_zero _ _ _ (by decide)]
    unfold GatherDims.start
    rw [dif_neg (by decide)]
    unfold GatherDims.offCoord
    rw [dif_pos (by decide), Nat.zero_add]
    rfl
  | ⟨1, _⟩ =>
    show gather_S1024x200_S192x9x1_S1024x192x9_0_1_n_n_1_2_10241.start (ix3 b w t) idx 1
      + gather_S1024x200_S192x9x1_S1024x192x9_0_1_n_n_1_2_10241.batchCoord (ix3 b w t) 1
      + gather_S1024x200_S192x9x1_S1024x192x9_0_1_n_n_1_2_10241.offCoord (ix3 b w t) 1
        = min (idx (ix3 w t (0 : Fin 1))).toInt.toNat 199
    rw [GatherDims.batchCoord_eq_zero _ _ _ (by decide), GatherDims.offCoord_eq_zero _ _ _ (by decide)]
    simp only [Nat.add_zero]
    unfold GatherDims.start
    rw [dif_pos (show (1 : Fin S1024x200.rank) ∈ gather_S1024x200_S192x9x1_S1024x192x9_0_1_n_n_1_2_10241.startIndexMap by decide)]
    have hsi : gather_S1024x200_S192x9x1_S1024x192x9_0_1_n_n_1_2_10241.siIdx (ix3 b w t)
        ⟨List.idxOf (1 : Fin S1024x200.rank) gather_S1024x200_S192x9x1_S1024x192x9_0_1_n_n_1_2_10241.startIndexMap,
          List.idxOf_lt_length_iff.2 (by decide)⟩ = ix3 w t (0 : Fin 1) := by
      funext c
      refine Fin.ext ?_
      match c with
      | ⟨0, _⟩ => rfl
      | ⟨1, _⟩ => rfl
      | ⟨2, _⟩ => rfl
    rw [hsi]
    rfl

/-- The patches: `v32 (b, w, j) = v6 (b, w + j)`. -/
theorem v32_at (x0 : (⟨S1024, .i32⟩ : BufTy).Contents (Elt Ideal)) (x7 : (⟨S40943x200, .f32⟩ : BufTy).Contents (Elt Ideal))
    (b : Fin 1024) (w : Fin 192) (t : Fin 9) :
    val_main_v32 (F := Ideal) x0 x7 (ix3 b w t) = val_main_v6 (F := Ideal) x0 x7 (ix2 b (Cert.Hyper.shift w t)) := by
  unfold val_main_v32
  refine (gather_patch_apply (val_main_v6 (F := Ideal) x0 x7) (val_main_v31 (F := Ideal)) b w t).trans ?_
  refine congrArg (val_main_v6 (F := Ideal) x0 x7) ?_
  have hw := w.isLt
  have ht := t.isLt
  funext a
  refine Fin.ext ?_
  match a with
  | ⟨0, _⟩ => rfl
  | ⟨1, _⟩ =>
    show min (val_main_v31 (F := Ideal) (ix3 w t (0 : Fin 1))).toInt.toNat 199 = w.val + t.val
    rw [v31_at, WordArith.toInt_ofNat_small _ (by omega)]
    omega

end Cert.RefSide

end
-- ==== Proof.RefFeat.lean ====
/-
  The reference's convolution stage read at an index.

  The batched contraction `v33 (b, o, w) = Σ_{k<9} v18 (b, k, o) · v32 (b, w, k)` is, by the filter and patches stages,
  `Σ_{j<9} filt (32 j + o) · e (w + j)`: the specification's feature of channel `o` at position `w`. The reshape to
  `[1024, 6144]` reads `(b, q)` at `(b, q / 192, q % 192)`.
-/
import proofs.«116633_j47605417509202_2_alg».proof.Proof.RefFilt
import proofs.«116633_j47605417509202_2_alg».proof.Proof.RefPatch

noncomputable section

open scoped BigOperators

namespace Cert.RefSide

open Cert.ReferenceIdeal Cert.ReferenceIdeal.Read Idealize.ShloMosaic Idealize.ShloMosaic.ValueIdx

variable (x0 x1 : (⟨S1024, .i32⟩ : BufTy).Contents (Elt Ideal)) (x2 : (⟨S200x288, .f32⟩ : BufTy).Contents (Elt Ideal))
  (x3 : (⟨S288, .f32⟩ : BufTy).Contents (Elt Ideal)) (x7 : (⟨S40943x200, .f32⟩ : BufTy).Contents (Elt Ideal))
  (x8 : (⟨S18x200, .f32⟩ : BufTy).Contents (Elt Ideal))

/-- The convolution at `(b, o, w)`: the specification's feature of sample `b`. -/
theorem v33_at (b : Fin 1024) (o : Fin 32) (w : Fin 192) :
    val_main_v33 (F := Ideal) x0 x1 x2 x3 x7 x8 (ix3 b o w)
      = Cert.Hyper.feat (fun d => val_main_v6 (F := Ideal) x0 x7 (ix2 b d)) (fun d => val_main_v13 (F := Ideal) x1 x8 (ix2 b d))
          x2 (fun c => x3 (ix1 c)) o w := by
  unfold Cert.Hyper.feat
  refine (val_main_v33_apply x0 x1 x2 x3 x7 x8 (ix3 b o w)).trans ?_
  refine Finset.sum_congr rfl fun k _ => ?_
  have el : lidx_main_v33 (ix3 b o w) k = ix3 b k o := funext fun a => Fin.ext (by
    match a with
    | ⟨0, _⟩ => rfl
    | ⟨1, _⟩ => rfl
    | ⟨2, _⟩ => rfl)
  have er : ridx_main_v33 (ix3 b o w) k = ix3 b w k := funext fun a => Fin.ext (by
    match a with
    | ⟨0, _⟩ => rfl
    | ⟨1, _⟩ => rfl
    | ⟨2, _⟩ => rfl)
  rw [el, er, v18_at, v32_at]

/-- The flattened features at `(b, q)`, `q = 192 o + w`: channel `q / 192`, position `q % 192`. -/
theorem v34_at (b : Fin 1024) (q : Fin 6144) :
    val_main_v34 (F := Ideal) x0 x1 x2 x3 x7 x8 (ix2 b q)
      = Cert.Hyper.feat (fun d => val_main_v6 (F := Ideal) x0 x7 (ix2 b d)) (fun d => val_main_v13 (F := Ideal) x1 x8 (ix2 b d))
          x2 (fun c => x3 (ix1 c)) (Cert.Hyper.chan q) (Cert.Hyper.pos q) := by
  refine (val_main_v34_apply x0 x1 x2 x3 x7 x8 (ix2 b q)).trans ?_
  have e : idx_main_v34 (ix2 b q) = ix3 b (Cert.Hyper.chan q) (Cert.Hyper.pos q) := funext fun a => Fin.ext (by
    have hb := b.isLt
    have hq := q.isLt
    match a with
    | ⟨0, _⟩ =>
      show (b.val * 6144 + q.val) / 6144 = b.val
      omega
    | ⟨1, _⟩ =>
      show (b.val * 6144 + q.val) / 192 % 32 = q.val / 192
      omega
    | ⟨2, _⟩ =>
      show (b.val * 6144 + q.val) % 192 = q.val % 192
      omega)
  rw [e]
  exact v33_at x0 x1 x2 x3 x7 x8 b (Cert.Hyper.chan q) (Cert.Hyper.pos q)

end Cert.RefSide

end
-- ==== Proof.RefHid.lean ====
/-
  The reference's hidden layer read at an index.

  `v35 (b, d) = Σ_{q<6144} v34 (b, q) · W2 (q, d)`, `v38 = v35 + b2 d`, `v39 = max (v38, 0)` — the zero being the
  extended real the f32 zero word encodes —: the specification's hidden vector of sample `b`.
-/
import proofs.«116633_j47605417509202_2_alg».proof.Proof.RefFeat

noncomputable section

open scoped BigOperators

namespace Cert.RefSide

open Cert.ReferenceIdeal Cert.ReferenceIdeal.Read Idealize.ShloMosaic Idealize.ShloMosaic.ValueIdx

variable (x0 x1 : (⟨S1024, .i32⟩ : BufTy).Contents (Elt Ideal)) (x2 : (⟨S200x288, .f32⟩ : BufTy).Contents (Elt Ideal))
  (x3 : (⟨S288, .f32⟩ : BufTy).Contents (Elt Ideal)) (x4 : (⟨S6144x200, .f32⟩ : BufTy).Contents (Elt Ideal))
  (x5 : (⟨S200, .f32⟩ : BufTy).Contents (Elt Ideal)) (x7 : (⟨S40943x200, .f32⟩ : BufTy).Contents (Elt Ideal))
  (x8 : (⟨S18x200, .f32⟩ : BufTy).Contents (Elt Ideal))

/-- The dense layer on the flattened features at `(b, d)`. -/
theorem v35_at (b : Fin 1024) (d : Fin 200) :
    val_main_v35 (F := Ideal) x0 x1 x2 x3 x4 x7 x8 (ix2 b d)
      = ∑ q : Fin 6144, Cert.Hyper.feat (fun d => val_main_v6 (F := Ideal) x0 x7 (ix2 b d))
          (fun d => val_main_v13 (F := Ideal) x1 x8 (ix2 b d)) x2 (fun c => x3 (ix1 c)) (Cert.Hyper.chan q) (Cert.Hyper.pos q)
          * x4 (ix2 q d) := by
  refine (val_main_v35_apply x0 x1 x2 x3 x4 x7 x8 (ix2 b d)).trans ?_
  refine Finset.sum_congr rfl fun k _ => ?_
  have el : lidx_main_v35 (ix2 b d) k = ix2 b k := funext fun a => Fin.ext (by
    match a with
    | ⟨0, _⟩ => rfl
    | ⟨1, _⟩ => rfl)
  have er : ridx_main_v35 (ix2 b d) k = ix2 k d := funext fun a => Fin.ext (by
    match a with
    | ⟨0, _⟩ => rfl
    | ⟨1, _⟩ => rfl)
  rw [el, er, v34_at]

/-- The broadcast bias at `(b, d)` is `b2 d`. -/
theorem v37_at (b : Fin 1024) (d : Fin 200) :
    val_main_v37 (F := Ideal) x5 (ix2 b d) = x5 (ix1 d) := by
  refine (val_main_v37_apply x5 (ix2 b d)).trans ?_
  refine (val_main_v36_apply x5 _).trans ?_
  refine congrArg x5 ?_
  funext a
  match a with
  | ⟨0, _⟩ => rfl

/-- The broadcast zero at `(b, d)` is the extended real `0`. -/
theorem zero_at (b : Fin 1024) (d : Fin 200) :
    val_main_call0_v0 (F := Ideal) (ix2 b d) = (0 : EReal) := by
  refine (val_main_call0_v0_apply (ix2 b d)).trans ?_
  refine (val_main_call0_cst_apply _).trans ?_
  exact Ideal.ofBits_zero_f32

/-- Dense layer, bias and rectifier at `(b, d)`: the specification's hidden vector of sample `b`. -/
theorem v39_at (b : Fin 1024) (d : Fin 200) :
    val_main_v39 (F := Ideal) x0 x1 x2 x3 x4 x5 x7 x8 (ix2 b d)
      = Cert.Hyper.hid (fun d => val_main_v6 (F := Ideal) x0 x7 (ix2 b d)) (fun d => val_main_v13 (F := Ideal) x1 x8 (ix2 b d))
          x2 (fun c => x3 (ix1 c)) x4 (fun d => x5 (ix1 d)) d := by
  unfold Cert.Hyper.hid
  refine (val_main_v39_apply x0 x1 x2 x3 x4 x5 x7 x8 (ix2 b d)).trans ?_
  show max (val_main_v38 (F := Ideal) x0 x1 x2 x3 x4 x5 x7 x8 (ix2 b d)) (val_main_call0_v0 (F := Ideal) (ix2 b d)) = _
  rw [zero_at]
  refine congrArg (fun z => max z (0 : EReal)) ?_
  refine (val_main_v38_apply x0 x1 x2 x3 x4 x5 x7 x8 (ix2 b d)).trans ?_
  show val_main_v35 (F := Ideal) x0 x1 x2 x3 x4 x7 x8 (ix2 b d) + val_main_v37 (F := Ideal) x5 (ix2 b d) = _
  rw [v35_at, v37_at]

end Cert.RefSide

end
-- ==== Proof.RefSide.lean ====
/-
  The reference is the specification.

  `v41 (b, n) = Σ_{d<200} v39 (b, d) · Eᵀ (d, n)` with `Eᵀ (d, n) = E (n, d)`, and `v44 = v41 + bias n`: by the hidden
  layer's stage this is the specification's score of entity `n` for sample `b`, whose entity and relation rows are the two
  row gathers `v6 (b, ·)` and `v13 (b, ·)`.
-/
import proofs.«116633_j47605417509202_2_alg».proof.Proof.RefHid

noncomputable section

open scoped BigOperators

namespace Cert.RefSide

open Cert.ReferenceIdeal Cert.ReferenceIdeal.Read Idealize.ShloMosaic Idealize.ShloMosaic.ValueIdx

variable (x0 x1 : (⟨S1024, .i32⟩ : BufTy).Contents (Elt Ideal)) (x2 : (⟨S200x288, .f32⟩ : BufTy).Contents (Elt Ideal))
  (x3 : (⟨S288, .f32⟩ : BufTy).Contents (Elt Ideal)) (x4 : (⟨S6144x200, .f32⟩ : BufTy).Contents (Elt Ideal))
  (x5 : (⟨S200, .f32⟩ : BufTy).Contents (Elt Ideal)) (x6 : (⟨S40943, .f32⟩ : BufTy).Contents (Elt Ideal))
  (x7 : (⟨S40943x200, .f32⟩ : BufTy).Contents (Elt Ideal)) (x8 : (⟨S18x200, .f32⟩ : BufTy).Contents (Elt Ideal))

/-- The transposed entity table at `(d, n)` is `E (n, d)`. -/
theorem v40_at (d : Fin 200) (n : Fin 40943) :
    val_main_v40 (F := Ideal) x7 (ix2 d n) = x7 (ix2 n d) := by
  refine (val_main_v40_apply x7 (ix2 d n)).trans ?_
  refine congrArg x7 ?_
  funext a
  match a with
  | ⟨0, _⟩ => rfl
  | ⟨1, _⟩ => rfl

/-- The scores before the bias at `(b, n)`. -/
theorem v41_at (b : Fin 1024) (n : Fin 40943) :
    val_main_v41 (F := Ideal) x0 x1 x2 x3 x4 x5 x7 x8 (ix2 b n)
      = ∑ d : Fin 200, Cert.Hyper.hid (fun d => val_main_v6 (F := Ideal) x0 x7 (ix2 b d))
          (fun d => val_main_v13 (F := Ideal) x1 x8 (ix2 b d)) x2 (fun c => x3 (ix1 c)) x4 (fun d => x5 (ix1 d)) d
          * x7 (ix2 n d) := by
  refine (val_main_v41_apply x0 x1 x2 x3 x4 x5 x7 x8 (ix2 b n)).trans ?_
  refine Finset.sum_congr rfl fun k _ => ?_
  have el : lidx_main_v41 (ix2 b n) k = ix2 b k := funext fun a => Fin.ext (by
    match a with
    | ⟨0, _⟩ => rfl
    | ⟨1, _⟩ => rfl)
  have er : ridx_main_v41 (ix2 b n) k = ix2 k n := funext fun a => Fin.ext (by
    match a with
    | ⟨0, _⟩ => rfl
    | ⟨1, _⟩ => rfl)
  rw [el, er, v39_at, v40_at]

/-- The broadcast bias at `(b, n)` is `bias n`. -/
theorem v43_at (b : Fin 1024) (n : Fin 40943) :
    val_main_v43 (F := Ideal) x6 (ix2 b n) = x6 (ix1 n) := by
  refine (val_main_v43_apply x6 (ix2 b n)).trans ?_
  refine (val_main_v42_apply x6 _).trans ?_
  refine congrArg x6 ?_
  funext a
  match a with
  | ⟨0, _⟩ => rfl

end Cert.RefSide

open Cert.ReferenceIdeal Cert.ReferenceIdeal.Read Idealize.ShloMosaic Idealize.ShloMosaic.ValueIdx in
/-- The reference's result at `(b, n)` is the specification's score of entity `n` for the sample whose entity row is
    `v6 (b, ·)` and whose relation row is `v13 (b, ·)`. -/
theorem Cert.RefSide.ref_is_spec (x0 x1 : (⟨S1024, .i32⟩ : BufTy).Contents (Elt Ideal)) (x2 : (⟨S200x288, .f32⟩ : BufTy).Contents (Elt Ideal)) (x3 : (⟨S288, .f32⟩ : BufTy).Contents (Elt Ideal)) (x4 : (⟨S6144x200, .f32⟩ : BufTy).Contents (Elt Ideal)) (x5 : (⟨S200, .f32⟩ : BufTy).Contents (Elt Ideal)) (x6 : (⟨S40943, .f32⟩ : BufTy).Contents (Elt Ideal)) (x7 : (⟨S40943x200, .f32⟩ : BufTy).Contents (Elt Ideal)) (x8 : (⟨S18x200, .f32⟩ : BufTy).Contents (Elt Ideal)) (b : Fin 1024) (n : Fin 40943) :
    val_main_v44 (F := Ideal) x0 x1 x2 x3 x4 x5 x6 x7 x8 (ix2 b n)
      = Cert.Hyper.logit
          (Cert.Hyper.hid (fun d => val_main_v6 (F := Ideal) x0 x7 (ix2 b d)) (fun d => val_main_v13 (F := Ideal) x1 x8 (ix2 b d))
            x2 (fun c => x3 (ix1 c)) x4 (fun d => x5 (ix1 d)))
          x7 (fun k => x6 (ix1 k)) n := by
  unfold Cert.Hyper.logit
  refine (val_main_v44_apply x0 x1 x2 x3 x4 x5 x6 x7 x8 (ix2 b n)).trans ?_
  show val_main_v41 (F := Ideal) x0 x1 x2 x3 x4 x5 x7 x8 (ix2 b n) + val_main_v43 (F := Ideal) x6 (ix2 b n) = _
  rw [Cert.RefSide.v41_at, Cert.RefSide.v43_at]

end
-- ==== Proof.IdealClaim.lean ====
import proofs.«116633_j47605417509202_2_alg».proof.Proof.Gen.KernelIdeal.Launch
import proofs.«116633_j47605417509202_2_alg».proof.Proof.Gen.KernelIdeal.Skeleton
import proofs.«116633_j47605417509202_2_alg».proof.Proof.Gen.KernelIdeal.Points
import proofs.«116633_j47605417509202_2_alg».proof.Defs
import proofs.«116633_j47605417509202_2_alg».proof.Proof.Gen.Pre_finite_inputs
import proofs.«116633_j47605417509202_2_alg».proof.Proof.IdealRun
import proofs.«116633_j47605417509202_2_alg».proof.Proof.IdealVal0
import proofs.«116633_j47605417509202_2_alg».proof.Proof.IdealVal1
import proofs.«116633_j47605417509202_2_alg».proof.Proof.RefSide
import Idealize.ShloMosaic.Lib.ValueLayout
import Idealize.ShloMosaic.Lib.StableHlo.Run
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx

open Idealize.ShloMosaic.StableHlo

/-! # The idealized kernel program computes the specification

The contents of the buffers the two regions read, traced back to the launch memory: the gathered rows are the host
gathers of the entity and relation tables (the same two host operations the reference starts with), the two bias
rows and the score bias are the argument vectors reshaped to one row, the parameter matrices and the entity table
are the arguments themselves, and the second region's hidden matrix is what the first region left. So the result
array holds, at sample `b` and entity `n`, the score the specification gives. -/

variable (m : (ℓ : Loc nD τ sig) → Buf (Elt Ideal) ℓ) (ρ : Dev nD → PrngReg)

/-! ## The first region's inputs -/

theorem V1_v6 (c : Dev nD) : V1 m c main_v6
    = Cert.ReferenceIdeal.Read.val_main_v6 (F := Ideal) (m ((c : Thread nD τ).loc main_arg0)) (m ((c : Thread nD τ).loc main_arg7)) := by
  show StableHlo.after (hostOps0 (F := Ideal)) (Gen.V0 m c) (Proc.devRef .tc main_v6) = _
  after_results
  rfl
theorem V1_v13 (c : Dev nD) : V1 m c main_v13
    = Cert.ReferenceIdeal.Read.val_main_v13 (F := Ideal) (m ((c : Thread nD τ).loc main_arg1)) (m ((c : Thread nD τ).loc main_arg8)) := by
  show StableHlo.after (hostOps0 (F := Ideal)) (Gen.V0 m c) (Proc.devRef .tc main_v13) = _
  after_results
  rfl
theorem V1_v14 (c : Dev nD) : V1 m c main_v14 = shapeCast S1x288 (m ((c : Thread nD τ).loc main_arg3)) shapeCasts_S288_S1x288 := by
  show StableHlo.after (hostOps0 (F := Ideal)) (Gen.V0 m c) (Proc.devRef .tc main_v14) = _
  after_results
  rfl
theorem V1_v15 (c : Dev nD) : V1 m c main_v15 = shapeCast S1x200 (m ((c : Thread nD τ).loc main_arg5)) shapeCasts_S200_S1x200 := by
  show StableHlo.after (hostOps0 (F := Ideal)) (Gen.V0 m c) (Proc.devRef .tc main_v15) = _
  after_results
  rfl
theorem V1_arg2 (c : Dev nD) : V1 m c main_arg2 = (m ((c : Thread nD τ).loc main_arg2)) := Gen.V1_of m c main_arg2 (by decide)
theorem V1_arg4 (c : Dev nD) : V1 m c main_arg4 = (m ((c : Thread nD τ).loc main_arg4)) := Gen.V1_of m c main_arg4 (by decide)

/-! ## The second region's inputs -/

theorem V3_v16 (c : Dev nD) : V3 m c main_v16 = (dat0 (V1 m) c).arrAt 6 cfg0.N :=
  (StableHlo.after_of_writes_sub hostOps1 _ hostOps1_writes (r := main_v16) (by decide)).trans (W2_arr m c 6)
theorem V3_arg7 (c : Dev nD) : V3 m c main_arg7 = (m ((c : Thread nD τ).loc main_arg7)) :=
  (StableHlo.after_of_writes_sub hostOps1 _ hostOps1_writes (r := main_arg7) (by decide)).trans
    ((W2_of_ne m c main_arg7 (by decide)).trans (Gen.V1_of m c main_arg7 (by decide)))
theorem W2_arg6 (c : Dev nD) : W2 m c (Proc.devRef .tc main_arg6) = (m ((c : Thread nD τ).loc main_arg6)) :=
  (W2_of_ne m c main_arg6 (by decide)).trans (Gen.V1_of m c main_arg6 (by decide))
theorem V3_v17 (c : Dev nD) : V3 m c main_v17 = shapeCast S1x40943 (m ((c : Thread nD τ).loc main_arg6)) shapeCasts_S40943_S1x40943 := by
  show StableHlo.after (hostOps1 (F := Ideal)) (W2 m c) (Proc.devRef .tc main_v17) = _
  after_results
  rw [W2_arg6]
  rfl

/-! ## The result array, entry by entry -/

theorem kernel_entry (c : Dev nD) (b : Fin 1024) (n : Fin 40943) :
    (dat1 (V3 m) c).arrAt 3 cfg1.N (ix2 b n)
      = Cert.Hyper.logit
          (Cert.Hyper.hid (fun d => Cert.ReferenceIdeal.Read.val_main_v6 (F := Ideal) (m ((c : Thread nD τ).loc main_arg0)) (m ((c : Thread nD τ).loc main_arg7)) (ix2 b d))
            (fun d => Cert.ReferenceIdeal.Read.val_main_v13 (F := Ideal) (m ((c : Thread nD τ).loc main_arg1)) (m ((c : Thread nD τ).loc main_arg8)) (ix2 b d))
            (m ((c : Thread nD τ).loc main_arg2)) (fun k => (m ((c : Thread nD τ).loc main_arg3)) (ix1 k)) (m ((c : Thread nD τ).loc main_arg4)) (fun d => (m ((c : Thread nD τ).loc main_arg5)) (ix1 d)))
          (m ((c : Thread nD τ).loc main_arg7)) (fun k => (m ((c : Thread nD τ).loc main_arg6)) (ix1 k)) n := by
  rw [final1 (V3 m) c, scores_at, V3_v16, final0 (V1 m) c, V3_arg7, V3_v17, V1_v6, V1_v13, V1_v14, V1_v15, V1_arg2, V1_arg4]
  unfold Cert.Hyper.logit
  refine congrArg₂ (· + ·) (Finset.sum_congr rfl fun d _ => congrArg (· * _) ?_) ?_
  · rw [hidden_at]
    simp only [shapeCast_a_1a_apply]
  · exact shapeCast_a_1a_apply _ _ _ _

end Cert.KernelIdeal.Hand

/-! ## The claims about the idealized program -/

namespace Cert.Proof.IdealClaims

open Cert.KernelIdeal Cert.KernelIdeal.Hand Idealize.ShloMosaic Idealize.ShloMosaic.TcCoe Idealize.SL.Sem Idealize.ShloMosaic.ValueIdx

/-- The idealized program runs to the end, faults nowhere and leaves its arguments unchanged: its run, the result dropped. -/
theorem frame_pi : Cert.frame_KernelIdeal := fun m ρ _ =>
  (θ_run Cert.KernelIdeal.defs _ _).mono (fun _ h c => (h c).2) (Cert.KernelIdeal.Hand.run m ρ)

/-- The reference program likewise: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same scores: each entry of either result is
    the specification's score of that sample and entity. -/
theorem algebraic : Cert.algebraic_KernelIdeal_ReferenceIdeal := by
  intro m ρ m' ρ' _ hagree
  refine ⟨fun c => (dat1 (V3 m) c).arrAt 3 cfg1.N, Cert.KernelIdeal.Hand.run m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v44_eq, a0, a1, a2, a3, a4, a5, a6, a7, a8]
  funext i
  obtain ⟨b, n, rfl⟩ : ∃ (b : Fin 1024) (n : Fin 40943), i = ix2 b n := ⟨i 0, i 1, eq_ix2 i⟩
  rw [Cert.RefSide.ref_is_spec]
  exact (kernel_entry m c b n).symm

end Cert.Proof.IdealClaims

end
-- ==== Proof.lean ====
/-
  The proof of `Cert.Claim`: a knowledge-graph scoring network as two kernel regions against its plain reference.

  For each of 1024 samples the programs gather a row `e` of the entity table and a row `r` of the relation table; a
  hypernetwork turns `r` into 9 × 32 filter coefficients `r · W1 + b1`; `e` is convolved (valid, width 9) with the
  sample's own 32 filters; the 32 × 192 features, flattened channel-major, go through a dense layer and a rectifier
  to a hidden vector `h`; the result is the score `h · E (n, ·) + bias n` of every one of the 40943 entities. The
  kernel computes `h` in a first region, 256 samples per grid point (its sliding windows as nine shifted slices laid
  side by side, its products on the matrix unit), and the scores in a second region, 4096 entities per grid point;
  40943 is not a multiple of 4096, so the last block of the table, of the bias and of the result overhangs the array
  and is cut at its end. The reference spells the same arithmetic with host gathers, dot products and broadcasts.

  Over the extended reals every format change is the identity and every product into a zero accumulator is the
  plain finite sum, so both programs compute, entry by entry, the specification of `Proof/Spec.lean`: the reference
  by reading its operations one at a time (`Proof/RefSide.lean` and the modules it imports); the kernel's two bodies
  likewise (`Proof/KernelSideHyper.lean`, `Proof/KernelSideFinal.lean`), their blocks assembled into whole arrays
  (`Proof/IdealVal0.lean`, `Proof/IdealVal1.lean`) along the program's run (`Proof/IdealRun.lean`); the two meet in
  `Proof/IdealClaim.lean`. Only commutative-monoid facts about sums are used: no distributivity, hence nothing about
  the inputs being finite. An entry of the score matrix reads one row of the table's block and one entry of the
  bias's, so the words past the array's end in the cut blocks never reach a column that is written back.

  For the word-level program only the frame is claimed (`Proof/FrameBits.lean`): there the matrix product is a
  function of its whole operands, so what the second body leaves in the result's staging buffer is not named; it is
  enough that the inputs' buffers are left as found and the arguments are never written.
-/
import proofs.«116633_j47605417509202_2_alg».proof.Defs
import proofs.«116633_j47605417509202_2_alg».proof.Proof.Gen.Kernel
import proofs.«116633_j47605417509202_2_alg».proof.Proof.Gen.Kernel.Skeleton
import proofs.«116633_j47605417509202_2_alg».proof.Proof.Gen.Kernel.Launch
import proofs.«116633_j47605417509202_2_alg».proof.Proof.Gen.Kernel.Regions
import proofs.«116633_j47605417509202_2_alg».proof.Proof.Gen.Kernel.Points
import proofs.«116633_j47605417509202_2_alg».proof.Proof.Gen.KernelIdeal
import proofs.«116633_j47605417509202_2_alg».proof.Proof.Gen.KernelIdeal.Skeleton
import proofs.«116633_j47605417509202_2_alg».proof.Proof.Gen.KernelIdeal.Launch
import proofs.«116633_j47605417509202_2_alg».proof.Proof.Gen.KernelIdeal.Regions
import proofs.«116633_j47605417509202_2_alg».proof.Proof.Gen.KernelIdeal.Points
import proofs.«116633_j47605417509202_2_alg».proof.Proof.Gen.ReferenceIdeal
import proofs.«116633_j47605417509202_2_alg».proof.Proof.Gen.Pre_finite_inputs
import proofs.«116633_j47605417509202_2_alg».proof.Proof.Gen.ReferenceIdeal.Run
import proofs.«116633_j47605417509202_2_alg».proof.Proof.Gen.ReferenceIdeal.Read
import proofs.«116633_j47605417509202_2_alg».proof.Proof.FrameBits
import proofs.«116633_j47605417509202_2_alg».proof.Proof.IdealClaim
import Idealize.ShloMosaic.Adequacy
import Idealize.ShloMosaic.Init

noncomputable section

namespace Cert.Proof

open Idealize.ShloMosaic Idealize.SL.Sem Cert.Kernel

/-- The word-level program runs to the end, faults nowhere and leaves its arguments unchanged. -/
theorem frame_p : Cert.frame_Kernel := fun m ρ _ => Cert.KernelFrame.frame (F := Bits) m ρ

/-- The idealization rewrote nothing: the idealized program is the program's own text read over the extended reals. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_p, Cert.Proof.IdealClaims.frame_pi, Cert.Proof.IdealClaims.frame_ri, preserves, Cert.Proof.IdealClaims.algebraic⟩

end Cert.Proof

end
